-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S1024x1024 : Shape := ⟨2, ![1024, 1024]⟩
abbrev S1x1 : Shape := ⟨2, ![1, 1]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S_ : Shape := ⟨0, ![]⟩

abbrev nBuf : Space → Nat
  | .hbm => 17
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  transposes_S1024x1024_p1_0_S1024x1024 : S1024x1024.Transposes [1, 0] S1024x1024
  inb_S1x1_S1x1_0_0 : ∀ a, (![0, 0] : Fin 2 → Nat) a + S1x1.size a ≤ S1x1.size a
  h_S1x1 : 0 < S1x1.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S256x2048_S1x256x2048 : S256x2048.ShapeCasts S1x256x2048
  reduces_S1x256x2048_S1 : S1x256x2048.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .f32 = 32 ∨ (Rect.block (s := S8192x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x2048.size a
  hwx0_2 : ∀ i : grid0.Coords, EltTy.bits .f32 = 32 ∨ (Rect.block (s := S2048x2048) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x2048.size a
  hwx1_0 : ∀ i : grid1.Coords, EltTy.bits .f32 = 32 ∨ (Rect.block (s := S8192x2048) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x2048.size a
  hwx1_1 : ∀ i : grid1.Coords, EltTy.bits .f32 = 32 ∨ (Rect.block (s := S8192x2048) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x2048.size a
  hwx1_2 : ∀ i : grid1.Coords, EltTy.bits .f32 = 32 ∨ (Rect.block (s := S2048x2048) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S2048x2048.size a
  hwx2_1 : ∀ i : grid2.Coords, EltTy.bits .f32 = 32 ∨ (Rect.block (s := S2048x2048) S256x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x8192 : Shape := ⟨2, ![2048, 8192]⟩
abbrev S2048x2048 : Shape := ⟨2, ![2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x8192_S8192x2048_S2048x2048_1_0_0_1_n_n_wf : DotDims.WF S2048x8192 S8192x2048 S2048x2048 [1] [0] [0] [1] [] []

variable [Facts₀]

def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.K.Gram0Runs.lean ====
/-
  The Gram kernel of custom call 0 (`x ↦ xᵀx` scaled, one 1024 × 1024 output block per (i, j), accumulated over the
  reduction coordinate k in a scratch accumulator): its body at a grid point, in the three situations the two conditionals
  on k leave — k = 0 (zero the accumulator, then add the block product), 0 < k < 7 (add the block product), k = 7 (add,
  then store the accumulator times 2⁻¹³ to the output block). Each run is found by symbolic execution of the body; the stores
  it finds are its witness.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gram0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional holds exactly when the reduction coordinate k is 0: the accumulator is zeroed there. -/
abbrev atFirstK (i : grid0.Coords) : Prop := (Scalar.cmpi .ne (Scalar.extui (Scalar.cmpi .eq (BitVec.ofNat 32 (i 2).val) 0#32)) 0#32) = 1#1
/-- Over the 2 x 2 x 8 grid in row-major order, k = 0 at the points divisible by 8. -/
theorem atFirstK_iff : ∀ t : Fin cfg0.N, atFirstK (grid0.coords t) ↔ t.val % 8 = 0 :=
  (by decide +kernel : ∀ t : Fin grid0.N, atFirstK (grid0.coords t) ↔ t.val % 8 = 0)
/-- The body's second conditional holds exactly at the last reduction step k = 7: the scaled accumulator goes to the output block. -/
abbrev atLastK (i : grid0.Coords) : Prop := k0_cond2 i = 1#1
theorem atLastK_iff : ∀ t : Fin cfg0.N, atLastK (grid0.coords t) ↔ t.val % 8 = 7 :=
  (by decide +kernel : ∀ t : Fin grid0.N, atLastK (grid0.coords t) ↔ t.val % 8 = 7)

/-- The whole-block rectangle's offsets are zero. -/
theorem zeroOff : (![0, 0] : Fin S1024x1024.rank → ℕ) = fun _ => 0 := by
  funext a; fin_cases a <;> rfl

/-! ## k = 0: the accumulator is zeroed, then receives the first block product -/

set_option maxHeartbeats 1000000 in
/-- At k = 0, from the two input blocks at `x0`, `x1` and the accumulator at anything, the body ends with the inputs as they were
    and the accumulator overwritten by the stores found here (last first); the output block's buffer is not touched. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg3 harg3 arg4 harg4 arg5 harg5 arg6 harg6) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## 0 < k < 7: the accumulator receives one more block product -/

set_option maxHeartbeats 1000000 in
/-- At a middle step, from the input blocks and the accumulator at `a`, the body ends with the accumulator overwritten by the one
    store found here; the output block's buffer is not touched. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg3 harg3 arg4 harg4 arg5 harg5 arg6 harg6) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## k = 7: one more block product, then the scaled accumulator is stored to the output block -/

set_option maxHeartbeats 1000000 in
/-- At the last step, from the input blocks, the accumulator at `a` and the output block's buffer at anything, the body ends with
    the accumulator and the output buffer overwritten by the stores found here. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : atLastK i) (x0 x1 a d : Vec F S1024x1024 .f32) :
    { L : List (View.Piece (Elt F) S1024x1024 .f32) × List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare d ∗ owns (c : Thread nD τ) arg6 fullShare a
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__gram_kernel i arg3 harg3 arg4 harg4 arg5 harg5 arg6 harg6) K } := by
  refine ⟨⟨?_, ?_⟩, fun E K => ?run⟩
  case run =>
    simp only [cc0__gram_kernel_eq_skeleton]; unfold cc0__gram_kernel_skel
    unfold owns
    iintro ⟨⟨%f0, %hf0, H0⟩, ⟨%f1, %hf1, H1⟩, ⟨%f5, %hf5, H5⟩, ⟨%f6, %hf6, H6⟩, Hk⟩
    obtain rfl := harg3.eq_unread hf0; obtain rfl := harg4.eq_unread hf1; obtain rfl := harg5.eq_unread hf5; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexact H5
    iexists _; iexact H6

end Cert.Kernel.Gram0

end
-- ==== Proof.K.Gram0Stores.lean ====
/-
  What the Gram kernel's body (custom call 0) leaves in its accumulator and in the output block's buffer in each of the three
  situations, read back as values: a whole-block store leaves its payload, and a whole-block load after it reads that payload.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram0Runs
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Gram0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores found by each run leave, as values of the loaded blocks -/

theorem runFirst_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) (y : S1024x1024.Idx) :
    ∃ pc ∈ (runFirst c i arg3 harg3 arg4 harg4 arg5 harg5 arg6 harg6 hc0 hc1 x0 x1 a).1, y ∈ pc.1.set :=
  View.cover_of_tiledL (runFirst c i arg3 harg3 arg4 harg4 arg5 harg5 arg6 harg6 hc0 hc1 x0 x1 a).1 S1024x1024.size (by sl_kernel_rfl) y

/-- At k = 0 the accumulator ends at the block product added to the zero fill. -/
theorem runFirst_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) :
    View.canon (runFirst c i arg3 harg3 arg4 harg4 arg5 harg5 arg6 harg6 hc0 hc1 x0 x1 a).1 = k0_pay2 x0 x1 k0_pay1 := by
  unfold runFirst
  dsimp only
  sl_unfold_words
  rw [View.canon_cons_unit_zero zeroOff]
  simp only [View.readAt_eq_ld, harg3.read_unread, harg4.read_unread, View.ld_unit_zero (S := S1024x1024) zeroOff]
  rw [View.readCov_unit_zero (S := S1024x1024) arg6.view zeroOff]

theorem runMid_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) (y : S1024x1024.Idx) :
    ∃ pc ∈ (runMid c i arg3 harg3 arg4 harg4 arg5 harg5 arg6 harg6 hc0 hc1 x0 x1 a).1, y ∈ pc.1.set :=
  View.cover_of_tiledL (runMid c i arg3 harg3 arg4 harg4 arg5 harg5 arg6 harg6 hc0 hc1 x0 x1 a).1 S1024x1024.size (by sl_kernel_rfl) y

/-- At a middle step the accumulator ends at the block product added to what it held. -/
theorem runMid_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) :
    View.canon (runMid c i arg3 harg3 arg4 harg4 arg5 harg5 arg6 harg6 hc0 hc1 x0 x1 a).1 = k0_pay2 x0 x1 a := by
  unfold runMid
  dsimp only
  sl_unfold_words
  rw [View.canon_unit_zero zeroOff]
  simp only [View.readAt_eq_ld, harg3.read_unread, harg4.read_unread, harg6.read_unread, View.ld_unit_zero (S := S1024x1024) zeroOff]

theorem runLast_cover_out (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.1, y ∈ pc.1.set :=
  View.cover_of_tiledL (runLast c i arg3 harg3 arg4 harg4 arg5 harg5 arg6 harg6 hc0 hc1 x0 x1 a d).1.1 S1024x1024.size (by sl_kernel_rfl) y

theorem runLast_cover_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.2, y ∈ pc.1.set :=
  View.cover_of_tiledL (runLast c i arg3 harg3 arg4 harg4 arg5 harg5 arg6 harg6 hc0 hc1 x0 x1 a d).1.2 S1024x1024.size (by sl_kernel_rfl) y

/-- At k = 7 the accumulator ends at the block product added to what it held, -/
theorem runLast_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.2 = k0_pay2 x0 x1 a := by
  unfold runLast
  dsimp only
  sl_unfold_words
  rw [View.canon_unit_zero zeroOff]
  simp only [View.readAt_eq_ld, harg3.read_unread, harg4.read_unread, harg6.read_unread, View.ld_unit_zero (S := S1024x1024) zeroOff]

/-- and the output block's buffer at that accumulator scaled. -/
theorem runLast_out (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.1 = k0_pay3 (k0_pay2 x0 x1 a) := by
  unfold runLast
  dsimp only
  sl_unfold_words
  rw [View.canon_unit_zero zeroOff]
  simp only [View.readAt_eq_ld, harg3.read_unread, harg4.read_unread, harg6.read_unread, View.ld_unit_zero (S := S1024x1024) zeroOff]
  rw [View.readCov_unit_zero (S := S1024x1024) arg6.view zeroOff]

end Cert.Kernel.Gram0

end
-- ==== Proof.K.Gram0Region.lean ====
/-
  The Gram kernel of custom call 0 as a pipelined region: the blocks its windows address, what its accumulator holds after
  each grid point (a running sum over the reduction coordinate k, restarted from the zero fill at k = 0), the invariant that
  carries the accumulator's buffer between points, the proof data, and the body obligation at every point by cases on k.
  Stated at the contents `V` of the buffers when the region is entered.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram0Stores
import Idealize.ShloMosaic.Lib.Pipeline.FrameBody
import Idealize.ShloMosaic.Lib.Ring
import Idealize.ShloMosaic.Lib.Tactic

set_option maxRecDepth 16384

noncomputable section

namespace Cert.Kernel.Gram0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator, point by point -/

/-- The block of window `w`'s array that grid point `t` addresses, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at position `n` of the grid: the product of the two blocks addressed there, added to
    the zero fill when k = 0 (`n` divisible by 8) and otherwise to what the position before left. -/
def accAfter (c : Dev nD) : ℕ → Vec F S1024x1024 .f32
  | 0 => if h : 0 < cfg0.N then k0_pay2 (blockAt V c 0 ⟨0, h⟩) (blockAt V c 1 ⟨0, h⟩) k0_pay1 else k0_pay1
  | n + 1 =>
    if h : n + 1 < cfg0.N then
      k0_pay2 (blockAt V c 0 ⟨n + 1, h⟩) (blockAt V c 1 ⟨n + 1, h⟩) (if (n + 1) % 8 = 0 then k0_pay1 else accAfter c n)
    else k0_pay1

theorem accAfter_first (c : Dev nD) (t : Fin cfg0.N) (h : t.val % 8 = 0) :
    accAfter V c t.val = k0_pay2 (blockAt V c 0 t) (blockAt V c 1 t) k0_pay1 := by
  obtain ⟨n, hn⟩ := t
  cases n with
  | zero => exact dif_pos hn
  | succ n => exact (dif_pos hn).trans (by rw [if_pos h])

theorem accAfter_next (c : Dev nD) (t : Fin cfg0.N) (h : ¬ t.val % 8 = 0) :
    accAfter V c t.val = k0_pay2 (blockAt V c 0 t) (blockAt V c 1 t) (accAfter V c (t.val - 1)) := by
  obtain ⟨n, hn⟩ := t
  cases n with
  | zero => exact absurd (Nat.zero_mod 8) h
  | succ n => exact (dif_pos hn).trans (by rw [if_neg h]; rfl)

/-! ## The invariant between points: the accumulator's buffer at the running sum -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor its accumulator: untouched by the region. -/
def otherScoped (c : Dev nD) : sProp 𝕄 :=
  Pipeline.scopedRestBut (Ix := Unit) (Name := ℕ) (U := UR sig nD τ) (Lvl := ℕ) (Val := Elt F) spec0 c [cc0_scratch0]

/-- The accumulator's memref, as the pipeline hands it to the body. -/
abbrev accRef : Memref sig .tc .vmem S1024x1024 .f32 := Memref.whole cc0_scratch0

/-- Before position `t`: the accumulator holds SOME contents, which inside a reduction (k ≠ 0) are the running sum the position
    before left; the other scoped buffers at anything. Before a position with k = 0 nothing is known of it, and nothing is needed:
    the body zeroes it first. -/
def accInv (c : Dev nD) (t : Fin (cfg0.N + 1)) : sProp 𝕄 :=
  iprop((∃ a : Vec F S1024x1024 .f32, ⌜¬ t.val % 8 = 0 → a = accAfter V c (t.val - 1)⌝ ∗ owns (c : Thread nD τ) accRef fullShare a) ∗ otherScoped c)

/-! ## The proof data -/

/-- The region's arrays as it finds them; after the body each input's buffer at its block and the output block's buffer at the
    scaled accumulator (consulted only where it is written back, k = 7: elsewhere the window is idle); the accumulator's invariant;
    the one array both input windows read is held half by each; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => k0_pay3 (accAfter V c t.val)
  Φ t := accInv V c t
  q w := match w with
    | ⟨0, _⟩ => fullShare.left
    | ⟨1, _⟩ => fullShare.right
    | ⟨2, _⟩ => fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = blockAt V c 0 t := by dsimp only [dat]
theorem dat_after1 (c : Dev nD) (t : Fin cfg0.N) : (dat V c).after 1 t = blockAt V c 1 t := by dsimp only [dat]
theorem dat_after2 (c : Dev nD) (t : Fin cfg0.N) : (dat V c).after 2 t = k0_pay3 (accAfter V c t.val) := by dsimp only [dat]

/-- Each input window's current buffer holds its block when the body runs (it is fetched at every point). -/
theorem dat_before0 (c : Dev nD) (t : Fin cfg0.N) (d) : (dat V c).before 0 t d = blockAt V c 0 t :=
  ((dat V c).before_in_eq_fetched 0 rfl (fun _ => rfl) (fun _ _ _ => rfl) (fun t => by rw [dat_after0]; unfold Dat.blockOf blockAt; rw [dat_A]; try rfl) t d).trans
    (by unfold Dat.fetched Dat.blockOf blockAt; rw [dat_A]; try rfl)
theorem dat_before1 (c : Dev nD) (t : Fin cfg0.N) (d) : (dat V c).before 1 t d = blockAt V c 1 t :=
  ((dat V c).before_in_eq_fetched 1 rfl (fun _ => rfl) (fun _ _ _ => rfl) (fun t => by rw [dat_after1]; unfold Dat.blockOf blockAt; rw [dat_A]; try rfl) t d).trans
    (by unfold Dat.fetched Dat.blockOf blockAt; rw [dat_A]; try rfl)

/-- The output window is idle exactly off the last reduction step. -/
theorem idle_out_iff : ∀ t : Fin cfg0.N, cfg0.idle 2 (cfg0.grid.coords t) = true ↔ ¬ t.val % 8 = 7 :=
  (by decide +kernel : ∀ t : Fin grid0.N, idle0 2 (grid0.coords t) = true ↔ ¬ t.val % 8 = 7)

/-! ## The body obligation -/

/-- The staging memrefs at a point, as the pipeline passes them. -/
abbrev inL (t : Fin cfg0.N) : Memref sig .tc .vmem S1024x1024 .f32 := win0_0.stage (cfg0.slots t 0)
abbrev hinL (t : Fin cfg0.N) : (inL t).IsWhole := hstage0_0 ((cfg0.slots t 0).cast nbuf0_0)
abbrev inR (t : Fin cfg0.N) : Memref sig .tc .vmem S1024x1024 .f32 := win0_1.stage (cfg0.slots t 1)
abbrev hinR (t : Fin cfg0.N) : (inR t).IsWhole := hstage0_1 ((cfg0.slots t 1).cast nbuf0_1)
abbrev outB (t : Fin cfg0.N) : Memref sig .tc .vmem S1024x1024 .f32 := win0_2.stage (cfg0.slots t 2)
abbrev houtB (t : Fin cfg0.N) : (outB t).IsWhole := hstage0_2 ((cfg0.slots t 2).cast nbuf0_2)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (inL t) fullShare ((dat V c).before 0 t d))
    ∗ (∃ d, owns (c : Thread nD τ) (inR t) fullShare ((dat V c).before 1 t d))
    ∗ (∃ d, owns (c : Thread nD τ) (outB t) fullShare ((dat V c).before 2 t d)))

/-- and what it returns: the output block's buffer as found off k = 7, at the scaled accumulator there. -/
def bodyPost (c : Dev nD) (t : Fin cfg0.N) : sProp 𝕄 :=
  iprop((dat V c).Φ t.succ ∗ (dat V c).owesAt () t.succ
    ∗ owns (c : Thread nD τ) (inL t) fullShare ((dat V c).after 0 t)
    ∗ owns (c : Thread nD τ) (inR t) fullShare ((dat V c).after 1 t)
    ∗ (dat V c).leavesExact 2 t)

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before0, dat_before1]
  rw [show (dat V c).owesAt () t.succ = (dat V c).owesAt () t.castSucc from rfl, dat_after0, dat_after1,
    show (dat V c).Φ t.castSucc = accInv V c t.castSucc from rfl, show (dat V c).Φ t.succ = accInv V c t.succ from rfl]
  have hN : t.val < 32 := lt_of_lt_of_eq t.isLt (show cfg0.N = 32 from N_0)
  unfold accInv
  by_cases h0 : t.val % 8 = 0
  · -- k = 0
    have h7 : ¬ t.val % 8 = 7 := by omega
    rw [Dat.leavesExact_idle _ 2 t ((idle_out_iff t).mpr h7) (Bool.eq_false_iff.mpr fun h => h7 ((flush0_2 t).mp h))]
    iintro ⟨⟨⟨%a, -, Ha⟩, Hoth⟩, Ho, ⟨%d0, H0⟩, ⟨%d1, H1⟩, Hout⟩
    iapply ((runFirst c (grid0.coords t) _ _ _ _ (outB t) (houtB t) _ _ ((atFirstK_iff t).mpr h0) (fun h => h7 ((atLastK_iff t).mp h)) (blockAt V c 0 t) (blockAt V c 1 t) a).2 Set.univ _)
    isplitl [H0]; · iexact H0
    isplitl [H1]; · iexact H1
    isplitl [Ha]; · iexact Ha
    iintro ⟨H0, H1, ⟨%e, Ha⟩⟩
    isplitl [Ha Hoth]
    · isplitl [Ha]
      · iexists _
        isplitr
        swap
        · unfold owns; iexists _; isplitr
          swap; · iexact Ha
          ipureintro; exact View.read_writes_eq_canon _ _ _ (runFirst_cover c _ _ _ _ _ _ _ _ _ _ _ _ _ _)
        ipureintro
        intro _
        rw [runFirst_acc, show (t.succ : Fin (cfg0.N + 1)).val - 1 = t.val from by simp, accAfter_first V c t h0]
      · iexact Hoth
    isplitl [Ho]; · iexact Ho
    isplitl [H0]; · iexact H0
    isplitl [H1]; · iexact H1
    iexact Hout
  · by_cases h7 : t.val % 8 = 7
    · -- k = 7
      have hidle : cfg0.idle 2 (cfg0.grid.coords t) = false := by
        rw [Bool.eq_false_iff]; exact fun h => (idle_out_iff t).mp h h7
      unfold Dat.leavesExact; rw [hidle]; dsimp only
      rw [dat_after2]
      iintro ⟨⟨⟨%a, %ha, Ha⟩, Hoth⟩, Ho, ⟨%d0, H0⟩, ⟨%d1, H1⟩, ⟨%d2, H2⟩⟩
      iapply ((runLast c (grid0.coords t) _ _ _ _ _ _ _ _ (fun h => h0 ((atFirstK_iff t).mp h)) ((atLastK_iff t).mpr h7) (blockAt V c 0 t) (blockAt V c 1 t) a _).2 Set.univ _)
      isplitl [H0]; · iexact H0
      isplitl [H1]; · iexact H1
      isplitl [H2]; · iexact H2
      isplitl [Ha]; · iexact Ha
      iintro ⟨H0, H1, ⟨%e5, H5⟩, ⟨%e6, H6⟩⟩
      have hacc : k0_pay2 (blockAt V c 0 t) (blockAt V c 1 t) a = accAfter V c t.val := by
        rw [accAfter_next V c t h0, ha (by simpa using h0)]; rfl
      isplitl [H6 Hoth]
      · isplitl [H6]
        · iexists _
          isplitr
          swap
          · unfold owns; iexists _; isplitr
            swap; · iexact H6
            ipureintro; exact View.read_writes_eq_canon _ _ _ (runLast_cover_acc c _ _ _ _ _ _ _ _ _ _ _ _ _ _ _)
          ipureintro
          intro hne
          exfalso; apply hne; show (t.val + 1) % 8 = 0; omega
        · iexact Hoth
      isplitl [Ho]; · iexact Ho
      isplitl [H0]; · iexact H0
      isplitl [H1]; · iexact H1
      unfold owns; iexists _; isplitr
      swap; · iexact H5
      ipureintro
      rw [View.read_writes_eq_canon _ _ _ (runLast_cover_out c _ _ _ _ _ _ _ _ _ _ _ _ _ _ _), runLast_out, hacc]
    · -- 0 < k < 7
      rw [Dat.leavesExact_idle _ 2 t ((idle_out_iff t).mpr h7) (Bool.eq_false_iff.mpr fun h => h7 ((flush0_2 t).mp h))]
      iintro ⟨⟨⟨%a, %ha, Ha⟩, Hoth⟩, Ho, ⟨%d0, H0⟩, ⟨%d1, H1⟩, Hout⟩
      iapply ((runMid c (grid0.coords t) _ _ _ _ (outB t) (houtB t) _ _ (fun h => h0 ((atFirstK_iff t).mp h)) (fun h => h7 ((atLastK_iff t).mp h)) (blockAt V c 0 t) (blockAt V c 1 t) a).2 Set.univ _)
      isplitl [H0]; · iexact H0
      isplitl [H1]; · iexact H1
      isplitl [Ha]; · iexact Ha
      iintro ⟨H0, H1, ⟨%e, Ha⟩⟩
      isplitl [Ha Hoth]
      · isplitl [Ha]
        · iexists _
          isplitr
          swap
          · unfold owns; iexists _; isplitr
            swap; · iexact Ha
            ipureintro; exact View.read_writes_eq_canon _ _ _ (runMid_cover c _ _ _ _ _ _ _ _ _ _ _ _ _ _)
          ipureintro
          intro _
          rw [runMid_acc, show (t.succ : Fin (cfg0.N + 1)).val - 1 = t.val from by simp, accAfter_next V c t h0, ha (by simpa using h0)]
          rfl
        · iexact Hoth
      isplitl [Ho]; · iexact Ho
      isplitl [H0]; · iexact H0
      isplitl [H1]; · iexact H1
      iexact Hout

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- The scoped buffers this call does not stage are its accumulator and the rest. -/
theorem scopedRest_split (c : Dev nD) :
    (Pipeline.scopedRest (Ix := Unit) (Name := ℕ) (U := UR sig nD τ) (Lvl := ℕ) (Val := Elt F) spec0 c : sProp 𝕄)
      = iprop(someAt c cc0_scratch0 ∗ otherScoped c) := by
  rw [Pipeline.scopedRest_split_of_list spec0 c [cc0_scratch0] (by decide) (by decide)]; rfl

/-- Held whole through its memref, the accumulator's buffer is held as a buffer. -/
theorem owns_acc (c : Dev nD) (a : Vec F S1024x1024 .f32) :
    (owns (c : Thread nD τ) accRef fullShare a : sProp 𝕄) = (((c : Thread nD τ).loc cc0_scratch0) ↦{fullShare} a) :=
  owns_whole _ _ _ _

/-- Before the first point nothing is asked of the accumulator (k = 0 there). -/
theorem accInv_enter (c : Dev nD) :
    (Pipeline.scopedRest (Ix := Unit) (Name := ℕ) (U := UR sig nD τ) (Lvl := ℕ) (Val := Elt F) spec0 c : sProp 𝕄) ⊢ accInv V c 0 := by
  rw [scopedRest_split]; unfold accInv
  simp only [owns_acc]
  iintro ⟨⟨%f, Hf⟩, Hoth⟩
  isplitl [Hf]
  · iexists f; isplitr
    · ipureintro; intro h; exact absurd (Nat.zero_mod 8) h
    · iexact Hf
  · iexact Hoth

/-- After the last point the accumulator's buffer is given back at whatever it holds. -/
theorem accInv_leave (c : Dev nD) :
    accInv V c (Fin.last cfg0.N) ⊢ (Pipeline.scopedRest (Ix := Unit) (Name := ℕ) (U := UR sig nD τ) (Lvl := ℕ) (Val := Elt F) spec0 c : sProp 𝕄) := by
  rw [scopedRest_split]; unfold accInv
  simp only [owns_acc]
  iintro ⟨⟨%a, -, Ha⟩, Hoth⟩
  isplitl [Ha]
  · iexists a; iexact Ha
  · iexact Hoth

end Cert.Kernel.Gram0

end
-- ==== Proof.K.Gram0Ends.lean ====
/-
  The Gram region of custom call 0 at its two ends: its three windows stand on two buffers — both input windows read the same
  array — so at entry that array's full share is dealt half to each input window, and at exit the halves are joined again and
  the output array is put back among the core's unscoped buffers at what the write-backs left.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram0Region
import Idealize.ShloMosaic.Lib.Pipeline.FrameBody
import Idealize.ShloMosaic.Lib.Ring
import Idealize.ShloMosaic.Lib.Tactic

set_option maxRecDepth 16384

noncomputable section

namespace Cert.Kernel.Gram0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A core's unscoped buffers: the buffers behind this call's windows, and the rest. -/
theorem unscoped_two (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W

/-- The two distinct buffers behind the call's three windows. -/
theorem arrBufs_two (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  rw [bigSep_eq_bigSepL_of_eq [main_arg0, main_v0] (by decide) (by decide)]
  rfl

theorem share_inL (c : Dev nD) : (dat V c).share 0 = fullShare.left := by
  unfold Dat.share; rw [if_neg (by decide)]; dsimp only [dat]
theorem share_inR (c : Dev nD) : (dat V c).share 1 = fullShare.right := by
  unfold Dat.share; rw [if_neg (by decide)]; dsimp only [dat]
theorem share_out (c : Dev nD) : (dat V c).share 2 = fullShare := by
  unfold Dat.share; rw [if_pos (by decide)]

/-- The proof data's arrays, window by window: each array whole, at the share the proof data names. -/
theorem arrays_three (c : Dev nD) (G : (w : Fin cfg0.W) → Buf (Elt F) ((cfg0.win w).arr.view.loc (c.tc : Thread nD τ))) :
    ((dat V c).arrays G : sProp 𝕄)
      = iprop(((cfg0.win 0).arr.view.loc (c.tc : Thread nD τ) ↦{fullShare.left} G 0) ∗ ((cfg0.win 1).arr.view.loc (c.tc : Thread nD τ) ↦{fullShare.right} G 1)
          ∗ ((cfg0.win 2).arr.view.loc (c.tc : Thread nD τ) ↦{fullShare} G 2)) := by
  have s0 : (cfg0.win 0).arr.view.set = Finset.univ := (arr_whole0 0).set_eq_univ
  have s2 : (cfg0.win 2).arr.view.set = Finset.univ := (arr_whole0 2).set_eq_univ
  unfold Dat.arrays
  rw [bigSep_W0, share_inL, share_inR, share_out, s0, s2]

/-- ENTRY: the core's unscoped buffers at `V` are the region's arrays at their entry contents and the unscoped rest. -/
theorem enter_arrays (c : Dev nD) :
    (unscopedBufs c (V c) : sProp 𝕄) ⊢ iprop((dat V c).arrays ((dat V c).arrAt · 0) ∗ Pipeline.unscopedRest spec0 c (V c)) := by
  rw [unscoped_two, arrBufs_two, arrays_three]
  iintro ⟨⟨Ha, Hv⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    iexact Hv
  · iexact Hrest

/-- EXIT: the region's arrays at their final contents and the unscoped rest are the core's unscoped buffers at any contents
    `V'` that has the output array at what the write-backs leave and agrees with `V` elsewhere. -/
theorem leave_arrays (c : Dev nD) (V' : (b : Ref sig .tc) → Buf (Elt F) ((c : Thread nD τ).loc b))
    (hout : V' main_v0 = (dat V c).arrAt 2 cfg0.N) (hrest : ∀ b : Ref sig .tc, b ≠ main_v0 → V' b = V c b) :
    iprop((dat V c).arrays ((dat V c).arrAt · cfg0.N) ∗ Pipeline.unscopedRest spec0 c (V c)) ⊢ (unscopedBufs c V' : sProp 𝕄) := by
  have erest : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscoped_two, arrBufs_two, arrays_three, erest, (dat V c).arrAt_in 0 rfl, (dat V c).arrAt_in 1 rfl, hout, hrest main_arg0 (by decide)]
  iintro ⟨⟨Hl, Hr, Hv⟩, Hrest⟩
  isplitr [Hrest]
  · isplitl [Hl Hr]
    · iapply (pointsTo_share (PosShare.mem_left_op_right fullShare)).2
      isplitl [Hl]; · iexact Hl
      iexact Hr
    · iexact Hv
  · iexact Hrest

end Cert.Kernel.Gram0

end
-- ==== Proof.K.Gram1Runs.lean ====
/-
  The Gram kernel of custom call 1 (`x ↦ xᵀx` scaled, one 1024 × 1024 output block per (i, j), accumulated over the
  reduction coordinate k in a scratch accumulator): its body at a grid point, in the three situations the two conditionals
  on k leave — k = 0 (zero the accumulator, then add the block product), 0 < k < 7 (add the block product), k = 7 (add,
  then store the accumulator times 2⁻¹³ to the output block). Each run is found by symbolic execution of the body; the stores
  it finds are its witness.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gram1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional holds exactly when the reduction coordinate k is 0: the accumulator is zeroed there. -/
abbrev atFirstK (i : grid1.Coords) : Prop := (Scalar.cmpi .ne (Scalar.extui (Scalar.cmpi .eq (BitVec.ofNat 32 (i 2).val) 0#32)) 0#32) = 1#1
/-- Over the 2 x 2 x 8 grid in row-major order, k = 0 at the points divisible by 8. -/
theorem atFirstK_iff : ∀ t : Fin cfg1.N, atFirstK (grid1.coords t) ↔ t.val % 8 = 0 :=
  (by decide +kernel : ∀ t : Fin grid1.N, atFirstK (grid1.coords t) ↔ t.val % 8 = 0)
/-- The body's second conditional holds exactly at the last reduction step k = 7: the scaled accumulator goes to the output block. -/
abbrev atLastK (i : grid1.Coords) : Prop := k1_cond2 i = 1#1
theorem atLastK_iff : ∀ t : Fin cfg1.N, atLastK (grid1.coords t) ↔ t.val % 8 = 7 :=
  (by decide +kernel : ∀ t : Fin grid1.N, atLastK (grid1.coords t) ↔ t.val % 8 = 7)

/-- The whole-block rectangle's offsets are zero. -/
theorem zeroOff : (![0, 0] : Fin S1024x1024.rank → ℕ) = fun _ => 0 := by
  funext a; fin_cases a <;> rfl

/-! ## k = 0: the accumulator is zeroed, then receives the first block product -/

set_option maxHeartbeats 1000000 in
/-- At k = 0, from the two input blocks at `x0`, `x1` and the accumulator at anything, the body ends with the inputs as they were
    and the accumulator overwritten by the stores found here (last first); the output block's buffer is not touched. -/
noncomputable def runFirst (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc1__gram_kernel i arg3 harg3 arg4 harg4 arg5 harg5 arg6 harg6) K } := by
  refine ⟨?_, fun E K => ?run⟩
  case run =>
    simp only [cc1__gram_kernel_eq_skeleton]; unfold cc1__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## 0 < k < 7: the accumulator receives one more block product -/

set_option maxHeartbeats 1000000 in
/-- At a middle step, from the input blocks and the accumulator at `a`, the body ends with the accumulator overwritten by the one
    store found here; the output block's buffer is not touched. -/
noncomputable def runMid (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc1__gram_kernel i arg3 harg3 arg4 harg4 arg5 harg5 arg6 harg6) K } := by
  refine ⟨?_, fun E K => ?run⟩
  case run =>
    simp only [cc1__gram_kernel_eq_skeleton]; unfold cc1__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## k = 7: one more block product, then the scaled accumulator is stored to the output block -/

set_option maxHeartbeats 1000000 in
/-- At the last step, from the input blocks, the accumulator at `a` and the output block's buffer at anything, the body ends with
    the accumulator and the output buffer overwritten by the stores found here. -/
noncomputable def runLast (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : atLastK i) (x0 x1 a d : Vec F S1024x1024 .f32) :
    { L : List (View.Piece (Elt F) S1024x1024 .f32) × List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare d ∗ owns (c : Thread nD τ) arg6 fullShare a
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__gram_kernel i arg3 harg3 arg4 harg4 arg5 harg5 arg6 harg6) K } := by
  refine ⟨⟨?_, ?_⟩, fun E K => ?run⟩
  case run =>
    simp only [cc1__gram_kernel_eq_skeleton]; unfold cc1__gram_kernel_skel
    unfold owns
    iintro ⟨⟨%f0, %hf0, H0⟩, ⟨%f1, %hf1, H1⟩, ⟨%f5, %hf5, H5⟩, ⟨%f6, %hf6, H6⟩, Hk⟩
    obtain rfl := harg3.eq_unread hf0; obtain rfl := harg4.eq_unread hf1; obtain rfl := harg5.eq_unread hf5; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexact H5
    iexists _; iexact H6

end Cert.Kernel.Gram1

end
-- ==== Proof.K.Gram1Stores.lean ====
/-
  What the Gram kernel's body (custom call 1) leaves in its accumulator and in the output block's buffer in each of the three
  situations, read back as values: a whole-block store leaves its payload, and a whole-block load after it reads that payload.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram1Runs
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Gram1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores found by each run leave, as values of the loaded blocks -/

theorem runFirst_cover (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) (y : S1024x1024.Idx) :
    ∃ pc ∈ (runFirst c i arg3 harg3 arg4 harg4 arg5 harg5 arg6 harg6 hc0 hc1 x0 x1 a).1, y ∈ pc.1.set :=
  View.cover_of_tiledL (runFirst c i arg3 harg3 arg4 harg4 arg5 harg5 arg6 harg6 hc0 hc1 x0 x1 a).1 S1024x1024.size (by sl_kernel_rfl) y

/-- At k = 0 the accumulator ends at the block product added to the zero fill. -/
theorem runFirst_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) :
    View.canon (runFirst c i arg3 harg3 arg4 harg4 arg5 harg5 arg6 harg6 hc0 hc1 x0 x1 a).1 = k1_pay2 x0 x1 k1_pay1 := by
  unfold runFirst
  dsimp only
  sl_unfold_words
  rw [View.canon_cons_unit_zero zeroOff]
  simp only [View.readAt_eq_ld, harg3.read_unread, harg4.read_unread, View.ld_unit_zero (S := S1024x1024) zeroOff]
  rw [View.readCov_unit_zero (S := S1024x1024) arg6.view zeroOff]

theorem runMid_cover (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) (y : S1024x1024.Idx) :
    ∃ pc ∈ (runMid c i arg3 harg3 arg4 harg4 arg5 harg5 arg6 harg6 hc0 hc1 x0 x1 a).1, y ∈ pc.1.set :=
  View.cover_of_tiledL (runMid c i arg3 harg3 arg4 harg4 arg5 harg5 arg6 harg6 hc0 hc1 x0 x1 a).1 S1024x1024.size (by sl_kernel_rfl) y

/-- At a middle step the accumulator ends at the block product added to what it held. -/
theorem runMid_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) :
    View.canon (runMid c i arg3 harg3 arg4 harg4 arg5 harg5 arg6 harg6 hc0 hc1 x0 x1 a).1 = k1_pay2 x0 x1 a := by
  unfold runMid
  dsimp only
  sl_unfold_words
  rw [View.canon_unit_zero zeroOff]
  simp only [View.readAt_eq_ld, harg3.read_unread, harg4.read_unread, harg6.read_unread, View.ld_unit_zero (S := S1024x1024) zeroOff]

theorem runLast_cover_out (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.1, y ∈ pc.1.set :=
  View.cover_of_tiledL (runLast c i arg3 harg3 arg4 harg4 arg5 harg5 arg6 harg6 hc0 hc1 x0 x1 a d).1.1 S1024x1024.size (by sl_kernel_rfl) y

theorem runLast_cover_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.2, y ∈ pc.1.set :=
  View.cover_of_tiledL (runLast c i arg3 harg3 arg4 harg4 arg5 harg5 arg6 harg6 hc0 hc1 x0 x1 a d).1.2 S1024x1024.size (by sl_kernel_rfl) y

/-- At k = 7 the accumulator ends at the block product added to what it held, -/
theorem runLast_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.2 = k1_pay2 x0 x1 a := by
  unfold runLast
  dsimp only
  sl_unfold_words
  rw [View.canon_unit_zero zeroOff]
  simp only [View.readAt_eq_ld, harg3.read_unread, harg4.read_unread, harg6.read_unread, View.ld_unit_zero (S := S1024x1024) zeroOff]

/-- and the output block's buffer at that accumulator scaled. -/
theorem runLast_out (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.1 = k1_pay3 (k1_pay2 x0 x1 a) := by
  unfold runLast
  dsimp only
  sl_unfold_words
  rw [View.canon_unit_zero zeroOff]
  simp only [View.readAt_eq_ld, harg3.read_unread, harg4.read_unread, harg6.read_unread, View.ld_unit_zero (S := S1024x1024) zeroOff]
  rw [View.readCov_unit_zero (S := S1024x1024) arg6.view zeroOff]

end Cert.Kernel.Gram1

end
-- ==== Proof.K.Gram1Region.lean ====
/-
  The Gram kernel of custom call 1 as a pipelined region: the blocks its windows address, what its accumulator holds after
  each grid point (a running sum over the reduction coordinate k, restarted from the zero fill at k = 0), the invariant that
  carries the accumulator's buffer between points, the proof data, and the body obligation at every point by cases on k.
  Stated at the contents `V` of the buffers when the region is entered.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram1Stores
import Idealize.ShloMosaic.Lib.Pipeline.FrameBody
import Idealize.ShloMosaic.Lib.Ring
import Idealize.ShloMosaic.Lib.Tactic

set_option maxRecDepth 16384

noncomputable section

namespace Cert.Kernel.Gram1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator, point by point -/

/-- The block of window `w`'s array that grid point `t` addresses, read off the array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n` of the grid: the product of the two blocks addressed there, added to
    the zero fill when k = 0 (`n` divisible by 8) and otherwise to what the position before left. -/
def accAfter (c : Dev nD) : ℕ → Vec F S1024x1024 .f32
  | 0 => if h : 0 < cfg1.N then k1_pay2 (blockAt V c 0 ⟨0, h⟩) (blockAt V c 1 ⟨0, h⟩) k1_pay1 else k1_pay1
  | n + 1 =>
    if h : n + 1 < cfg1.N then
      k1_pay2 (blockAt V c 0 ⟨n + 1, h⟩) (blockAt V c 1 ⟨n + 1, h⟩) (if (n + 1) % 8 = 0 then k1_pay1 else accAfter c n)
    else k1_pay1

theorem accAfter_first (c : Dev nD) (t : Fin cfg1.N) (h : t.val % 8 = 0) :
    accAfter V c t.val = k1_pay2 (blockAt V c 0 t) (blockAt V c 1 t) k1_pay1 := by
  obtain ⟨n, hn⟩ := t
  cases n with
  | zero => exact dif_pos hn
  | succ n => exact (dif_pos hn).trans (by rw [if_pos h])

theorem accAfter_next (c : Dev nD) (t : Fin cfg1.N) (h : ¬ t.val % 8 = 0) :
    accAfter V c t.val = k1_pay2 (blockAt V c 0 t) (blockAt V c 1 t) (accAfter V c (t.val - 1)) := by
  obtain ⟨n, hn⟩ := t
  cases n with
  | zero => exact absurd (Nat.zero_mod 8) h
  | succ n => exact (dif_pos hn).trans (by rw [if_neg h]; rfl)

/-! ## The invariant between points: the accumulator's buffer at the running sum -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor its accumulator: untouched by the region. -/
def otherScoped (c : Dev nD) : sProp 𝕄 :=
  Pipeline.scopedRestBut (Ix := Unit) (Name := ℕ) (U := UR sig nD τ) (Lvl := ℕ) (Val := Elt F) spec1 c [cc1_scratch0]

/-- The accumulator's memref, as the pipeline hands it to the body. -/
abbrev accRef : Memref sig .tc .vmem S1024x1024 .f32 := Memref.whole cc1_scratch0

/-- Before position `t`: the accumulator holds SOME contents, which inside a reduction (k ≠ 0) are the running sum the position
    before left; the other scoped buffers at anything. Before a position with k = 0 nothing is known of it, and nothing is needed:
    the body zeroes it first. -/
def accInv (c : Dev nD) (t : Fin (cfg1.N + 1)) : sProp 𝕄 :=
  iprop((∃ a : Vec F S1024x1024 .f32, ⌜¬ t.val % 8 = 0 → a = accAfter V c (t.val - 1)⌝ ∗ owns (c : Thread nD τ) accRef fullShare a) ∗ otherScoped c)

/-! ## The proof data -/

/-- The region's arrays as it finds them; after the body each input's buffer at its block and the output block's buffer at the
    scaled accumulator (consulted only where it is written back, k = 7: elsewhere the window is idle); the accumulator's invariant;
    the one array both input windows read is held half by each; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => k1_pay3 (accAfter V c t.val)
  Φ t := accInv V c t
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = blockAt V c 0 t := by dsimp only [dat]
theorem dat_after1 (c : Dev nD) (t : Fin cfg1.N) : (dat V c).after 1 t = blockAt V c 1 t := by dsimp only [dat]
theorem dat_after2 (c : Dev nD) (t : Fin cfg1.N) : (dat V c).after 2 t = k1_pay3 (accAfter V c t.val) := by dsimp only [dat]

/-- Each input window's current buffer holds its block when the body runs (it is fetched at every point). -/
theorem dat_before0 (c : Dev nD) (t : Fin cfg1.N) (d) : (dat V c).before 0 t d = blockAt V c 0 t :=
  ((dat V c).before_in_eq_fetched 0 rfl (fun _ => rfl) (fun _ _ _ => rfl) (fun t => by rw [dat_after0]; unfold Dat.blockOf blockAt; rw [dat_A]; try rfl) t d).trans
    (by unfold Dat.fetched Dat.blockOf blockAt; rw [dat_A]; try rfl)
theorem dat_before1 (c : Dev nD) (t : Fin cfg1.N) (d) : (dat V c).before 1 t d = blockAt V c 1 t :=
  ((dat V c).before_in_eq_fetched 1 rfl (fun _ => rfl) (fun _ _ _ => rfl) (fun t => by rw [dat_after1]; unfold Dat.blockOf blockAt; rw [dat_A]; try rfl) t d).trans
    (by unfold Dat.fetched Dat.blockOf blockAt; rw [dat_A]; try rfl)

/-- The output window is idle exactly off the last reduction step. -/
theorem idle_out_iff : ∀ t : Fin cfg1.N, cfg1.idle 2 (cfg1.grid.coords t) = true ↔ ¬ t.val % 8 = 7 :=
  (by decide +kernel : ∀ t : Fin grid1.N, idle1 2 (grid1.coords t) = true ↔ ¬ t.val % 8 = 7)

/-! ## The body obligation -/

/-- The staging memrefs at a point, as the pipeline passes them. -/
abbrev inL (t : Fin cfg1.N) : Memref sig .tc .vmem S1024x1024 .f32 := win1_0.stage (cfg1.slots t 0)
abbrev hinL (t : Fin cfg1.N) : (inL t).IsWhole := hstage1_0 ((cfg1.slots t 0).cast nbuf1_0)
abbrev inR (t : Fin cfg1.N) : Memref sig .tc .vmem S1024x1024 .f32 := win1_1.stage (cfg1.slots t 1)
abbrev hinR (t : Fin cfg1.N) : (inR t).IsWhole := hstage1_1 ((cfg1.slots t 1).cast nbuf1_1)
abbrev outB (t : Fin cfg1.N) : Memref sig .tc .vmem S1024x1024 .f32 := win1_2.stage (cfg1.slots t 2)
abbrev houtB (t : Fin cfg1.N) : (outB t).IsWhole := hstage1_2 ((cfg1.slots t 2).cast nbuf1_2)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (inL t) fullShare ((dat V c).before 0 t d))
    ∗ (∃ d, owns (c : Thread nD τ) (inR t) fullShare ((dat V c).before 1 t d))
    ∗ (∃ d, owns (c : Thread nD τ) (outB t) fullShare ((dat V c).before 2 t d)))

/-- and what it returns: the output block's buffer as found off k = 7, at the scaled accumulator there. -/
def bodyPost (c : Dev nD) (t : Fin cfg1.N) : sProp 𝕄 :=
  iprop((dat V c).Φ t.succ ∗ (dat V c).owesAt () t.succ
    ∗ owns (c : Thread nD τ) (inL t) fullShare ((dat V c).after 0 t)
    ∗ owns (c : Thread nD τ) (inR t) fullShare ((dat V c).after 1 t)
    ∗ (dat V c).leavesExact 2 t)

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before0, dat_before1]
  rw [show (dat V c).owesAt () t.succ = (dat V c).owesAt () t.castSucc from rfl, dat_after0, dat_after1,
    show (dat V c).Φ t.castSucc = accInv V c t.castSucc from rfl, show (dat V c).Φ t.succ = accInv V c t.succ from rfl]
  have hN : t.val < 32 := lt_of_lt_of_eq t.isLt (show cfg1.N = 32 from N_1)
  unfold accInv
  by_cases h0 : t.val % 8 = 0
  · -- k = 0
    have h7 : ¬ t.val % 8 = 7 := by omega
    rw [Dat.leavesExact_idle _ 2 t ((idle_out_iff t).mpr h7) (Bool.eq_false_iff.mpr fun h => h7 ((flush1_2 t).mp h))]
    iintro ⟨⟨⟨%a, -, Ha⟩, Hoth⟩, Ho, ⟨%d0, H0⟩, ⟨%d1, H1⟩, Hout⟩
    iapply ((runFirst c (grid1.coords t) _ _ _ _ (outB t) (houtB t) _ _ ((atFirstK_iff t).mpr h0) (fun h => h7 ((atLastK_iff t).mp h)) (blockAt V c 0 t) (blockAt V c 1 t) a).2 Set.univ _)
    isplitl [H0]; · iexact H0
    isplitl [H1]; · iexact H1
    isplitl [Ha]; · iexact Ha
    iintro ⟨H0, H1, ⟨%e, Ha⟩⟩
    isplitl [Ha Hoth]
    · isplitl [Ha]
      · iexists _
        isplitr
        swap
        · unfold owns; iexists _; isplitr
          swap; · iexact Ha
          ipureintro; exact View.read_writes_eq_canon _ _ _ (runFirst_cover c _ _ _ _ _ _ _ _ _ _ _ _ _ _)
        ipureintro
        intro _
        rw [runFirst_acc, show (t.succ : Fin (cfg1.N + 1)).val - 1 = t.val from by simp, accAfter_first V c t h0]
      · iexact Hoth
    isplitl [Ho]; · iexact Ho
    isplitl [H0]; · iexact H0
    isplitl [H1]; · iexact H1
    iexact Hout
  · by_cases h7 : t.val % 8 = 7
    · -- k = 7
      have hidle : cfg1.idle 2 (cfg1.grid.coords t) = false := by
        rw [Bool.eq_false_iff]; exact fun h => (idle_out_iff t).mp h h7
      unfold Dat.leavesExact; rw [hidle]; dsimp only
      rw [dat_after2]
      iintro ⟨⟨⟨%a, %ha, Ha⟩, Hoth⟩, Ho, ⟨%d0, H0⟩, ⟨%d1, H1⟩, ⟨%d2, H2⟩⟩
      iapply ((runLast c (grid1.coords t) _ _ _ _ _ _ _ _ (fun h => h0 ((atFirstK_iff t).mp h)) ((atLastK_iff t).mpr h7) (blockAt V c 0 t) (blockAt V c 1 t) a _).2 Set.univ _)
      isplitl [H0]; · iexact H0
      isplitl [H1]; · iexact H1
      isplitl [H2]; · iexact H2
      isplitl [Ha]; · iexact Ha
      iintro ⟨H0, H1, ⟨%e5, H5⟩, ⟨%e6, H6⟩⟩
      have hacc : k1_pay2 (blockAt V c 0 t) (blockAt V c 1 t) a = accAfter V c t.val := by
        rw [accAfter_next V c t h0, ha (by simpa using h0)]; rfl
      isplitl [H6 Hoth]
      · isplitl [H6]
        · iexists _
          isplitr
          swap
          · unfold owns; iexists _; isplitr
            swap; · iexact H6
            ipureintro; exact View.read_writes_eq_canon _ _ _ (runLast_cover_acc c _ _ _ _ _ _ _ _ _ _ _ _ _ _ _)
          ipureintro
          intro hne
          exfalso; apply hne; show (t.val + 1) % 8 = 0; omega
        · iexact Hoth
      isplitl [Ho]; · iexact Ho
      isplitl [H0]; · iexact H0
      isplitl [H1]; · iexact H1
      unfold owns; iexists _; isplitr
      swap; · iexact H5
      ipureintro
      rw [View.read_writes_eq_canon _ _ _ (runLast_cover_out c _ _ _ _ _ _ _ _ _ _ _ _ _ _ _), runLast_out, hacc]
    · -- 0 < k < 7
      rw [Dat.leavesExact_idle _ 2 t ((idle_out_iff t).mpr h7) (Bool.eq_false_iff.mpr fun h => h7 ((flush1_2 t).mp h))]
      iintro ⟨⟨⟨%a, %ha, Ha⟩, Hoth⟩, Ho, ⟨%d0, H0⟩, ⟨%d1, H1⟩, Hout⟩
      iapply ((runMid c (grid1.coords t) _ _ _ _ (outB t) (houtB t) _ _ (fun h => h0 ((atFirstK_iff t).mp h)) (fun h => h7 ((atLastK_iff t).mp h)) (blockAt V c 0 t) (blockAt V c 1 t) a).2 Set.univ _)
      isplitl [H0]; · iexact H0
      isplitl [H1]; · iexact H1
      isplitl [Ha]; · iexact Ha
      iintro ⟨H0, H1, ⟨%e, Ha⟩⟩
      isplitl [Ha Hoth]
      · isplitl [Ha]
        · iexists _
          isplitr
          swap
          · unfold owns; iexists _; isplitr
            swap; · iexact Ha
            ipureintro; exact View.read_writes_eq_canon _ _ _ (runMid_cover c _ _ _ _ _ _ _ _ _ _ _ _ _ _)
          ipureintro
          intro _
          rw [runMid_acc, show (t.succ : Fin (cfg1.N + 1)).val - 1 = t.val from by simp, accAfter_next V c t h0, ha (by simpa using h0)]
          rfl
        · iexact Hoth
      isplitl [Ho]; · iexact Ho
      isplitl [H0]; · iexact H0
      isplitl [H1]; · iexact H1
      iexact Hout

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- The scoped buffers this call does not stage are its accumulator and the rest. -/
theorem scopedRest_split (c : Dev nD) :
    (Pipeline.scopedRest (Ix := Unit) (Name := ℕ) (U := UR sig nD τ) (Lvl := ℕ) (Val := Elt F) spec1 c : sProp 𝕄)
      = iprop(someAt c cc1_scratch0 ∗ otherScoped c) := by
  rw [Pipeline.scopedRest_split_of_list spec1 c [cc1_scratch0] (by decide) (by decide)]; rfl

/-- Held whole through its memref, the accumulator's buffer is held as a buffer. -/
theorem owns_acc (c : Dev nD) (a : Vec F S1024x1024 .f32) :
    (owns (c : Thread nD τ) accRef fullShare a : sProp 𝕄) = (((c : Thread nD τ).loc cc1_scratch0) ↦{fullShare} a) :=
  owns_whole _ _ _ _

/-- Before the first point nothing is asked of the accumulator (k = 0 there). -/
theorem accInv_enter (c : Dev nD) :
    (Pipeline.scopedRest (Ix := Unit) (Name := ℕ) (U := UR sig nD τ) (Lvl := ℕ) (Val := Elt F) spec1 c : sProp 𝕄) ⊢ accInv V c 0 := by
  rw [scopedRest_split]; unfold accInv
  simp only [owns_acc]
  iintro ⟨⟨%f, Hf⟩, Hoth⟩
  isplitl [Hf]
  · iexists f; isplitr
    · ipureintro; intro h; exact absurd (Nat.zero_mod 8) h
    · iexact Hf
  · iexact Hoth

/-- After the last point the accumulator's buffer is given back at whatever it holds. -/
theorem accInv_leave (c : Dev nD) :
    accInv V c (Fin.last cfg1.N) ⊢ (Pipeline.scopedRest (Ix := Unit) (Name := ℕ) (U := UR sig nD τ) (Lvl := ℕ) (Val := Elt F) spec1 c : sProp 𝕄) := by
  rw [scopedRest_split]; unfold accInv
  simp only [owns_acc]
  iintro ⟨⟨%a, -, Ha⟩, Hoth⟩
  isplitl [Ha]
  · iexists a; iexact Ha
  · iexact Hoth

end Cert.Kernel.Gram1

end
-- ==== Proof.K.Gram1Ends.lean ====
/-
  The Gram region of custom call 1 at its two ends: its three windows stand on two buffers — both input windows read the same
  array — so at entry that array's full share is dealt half to each input window, and at exit the halves are joined again and
  the output array is put back among the core's unscoped buffers at what the write-backs left.
-/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import proofs.«135302_j80367428042774_1_alg».proof.Proof.K.Gram1Region
import Idealize.ShloMosaic.Lib.Pipeline.FrameBody
import Idealize.ShloMosaic.Lib.Ring
import Idealize.ShloMosaic.Lib.Tactic

set_option maxRecDepth 16384

noncomputable section

namespace Cert.Kernel.Gram1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A core's unscoped buffers: the buffers behind this call's windows, and the rest. -/
theorem unscoped_two (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- The two distinct buffers behind the call's three windows. -/
theorem arrBufs_two (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1)) := by
  unfold Pipeline.arrBufs
  rw [bigSep_eq_bigSepL_of_eq [main_arg1, main_v1] (by decide) (by decide)]
  rfl

theorem share_inL (c : Dev nD) : (dat V c).share 0 = fullShare.left := by
  unfold Dat.share; rw [if_neg (by decide)]; dsimp only [dat]
theorem share_inR (c : Dev nD) : (dat V c).share 1 = fullShare.right := by
  unfold Dat.share; rw [if_neg (by decide)]; dsimp only [dat]
theorem share_out (c : Dev nD) : (dat V c).share 2 = fullShare := by
  unfold Dat.share; rw [if_pos (by decide)]

/-- The proof data's arrays, window by window: each array whole, at the share the proof data names. -/
theorem arrays_three (c : Dev nD) (G : (w : Fin cfg1.W) → Buf (Elt F) ((cfg1.win w).arr.view.loc (c.tc : Thread nD τ))) :
    ((dat V c).arrays G : sProp 𝕄)
      = iprop(((cfg1.win 0).arr.view.loc (c.tc : Thread nD τ) ↦{fullShare.left} G 0) ∗ ((cfg1.win 1).arr.view.loc (c.tc : Thread nD τ) ↦{fullShare.right} G 1)
          ∗ ((cfg1.win 2).arr.view.loc (c.tc : Thread nD τ) ↦{fullShare} G 2)) := by
  have s0 : (cfg1.win 0).arr.view.set = Finset.univ := (arr_whole1 0).set_eq_univ
  have s2 : (cfg1.win 2).arr.view.set = Finset.univ := (arr_whole1 2).set_eq_univ
  unfold Dat.arrays
  rw [bigSep_W1, share_inL, share_inR, share_out, s0, s2]

/-- ENTRY: the core's unscoped buffers at `V` are the region's arrays at their entry contents and the unscoped rest. -/
theorem enter_arrays (c : Dev nD) :
    (unscopedBufs c (V c) : sProp 𝕄) ⊢ iprop((dat V c).arrays ((dat V c).arrAt · 0) ∗ Pipeline.unscopedRest spec1 c (V c)) := by
  rw [unscoped_two, arrBufs_two, arrays_three]
  iintro ⟨⟨Ha, Hv⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    iexact Hv
  · iexact Hrest

/-- EXIT: the region's arrays at their final contents and the unscoped rest are the core's unscoped buffers at any contents
    `V'` that has the output array at what the write-backs leave and agrees with `V` elsewhere. -/
theorem leave_arrays (c : Dev nD) (V' : (b : Ref sig .tc) → Buf (Elt F) ((c : Thread nD τ).loc b))
    (hout : V' main_v1 = (dat V c).arrAt 2 cfg1.N) (hrest : ∀ b : Ref sig .tc, b ≠ main_v1 → V' b = V c b) :
    iprop((dat V c).arrays ((dat V c).arrAt · cfg1.N) ∗ Pipeline.unscopedRest spec1 c (V c)) ⊢ (unscopedBufs c V' : sProp 𝕄) := by
  have erest : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscoped_two, arrBufs_two, arrays_three, erest, (dat V c).arrAt_in 0 rfl, (dat V c).arrAt_in 1 rfl, hout, hrest main_arg1 (by decide)]
  iintro ⟨⟨Hl, Hr, Hv⟩, Hrest⟩
  isplitr [Hrest]
  · isplitl [Hl Hr]
    · iapply (pointsTo_share (PosShare.mem_left_op_right fullShare)).2
      isplitl [Hl]; · iexact Hl
      iexact Hr
    · iexact Hv
  · iexact Hrest

end Cert.Kernel.Gram1

end
-- ==== Proof.K.ReduceRuns.lean ====
/- The reduction kernel of the third call, run on whole staging memrefs: the condition of its one
   conditional in closed form over the grid, the staging memrefs the pipeline passes at a point, and the
   body's triple in each of its two cases (the first grid point, where the 1x1 accumulator is zeroed and
   then added to; a later point, where it is added to over its running contents). -/
import proofs.«135302_j80367428042774_1_alg».proof.Proof.Gen.Kernel.Launch
import proofs.«135302_j80367428042774_1_alg».proof.Proof.Gen.Kernel.Skeleton
import proofs.«135302_j80367428042774_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Red

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition -/

/-- The condition under which the body zeroes the accumulator, from the grid coordinate: the coordinate
    is compared with 0, the bit is widened and compared with 0 again. -/
abbrev isFirst (i : grid2.Coords) : Prop :=
  (Scalar.cmpi .ne (Scalar.extui (Scalar.cmpi .eq (BitVec.ofNat 32 (i 0).val) 0#32)) 0#32) = 1#1

/-- It holds at the first point of the grid and at no other. -/
theorem isFirst_iff : ∀ t : Fin cfg2.N, isFirst (grid2.coords t) ↔ t.val = 0 :=
  (by decide +kernel : ∀ t : Fin grid2.N, isFirst (grid2.coords t) ↔ t.val = 0)

/-! ## The staging memrefs at a point -/

/-- The accumulator's one staging buffer as a view: its contents are stated through it. -/
abbrev accView : View sig .tc .vmem S1x1 .f32 := (Memref.whole cc2_stg2_0 : Memref sig .tc .vmem S1x1 .f32).view

/-- Each window's current staging memref at point `t`, as the pipeline passes it, and its wholeness. -/
abbrev mRho (t : Fin cfg2.N) : Memref sig .tc .vmem S256x2048 .f32 := win2_0.stage (cfg2.slots t 0)
abbrev hRho (t : Fin cfg2.N) : (mRho t).IsWhole := hstage2_0 ((cfg2.slots t 0).cast nbuf2_0)
abbrev mSigma (t : Fin cfg2.N) : Memref sig .tc .vmem S256x2048 .f32 := win2_1.stage (cfg2.slots t 1)
abbrev hSigma (t : Fin cfg2.N) : (mSigma t).IsWhole := hstage2_1 ((cfg2.slots t 1).cast nbuf2_1)
abbrev mAcc (t : Fin cfg2.N) : Memref sig .tc .vmem S1x1 .f32 := win2_2.stage (cfg2.slots t 2)
abbrev hAcc (t : Fin cfg2.N) : (mAcc t).IsWhole := hstage2_2 ((cfg2.slots t 2).cast nbuf2_2)

/-! ## The two runs -/

set_option maxHeartbeats 1000000 in
/-- AT THE FIRST POINT. The pieces the body's two stores leave in the accumulator's memref (last first:
    the sum added to the zero just stored, then the zero), with the proof that on whole staging memrefs,
    the two inputs' at contents `x`, `y` and the accumulator's at anything, the body runs to a continuation
    that holds the inputs' as they were and the accumulator's with those pieces written. -/
noncomputable def firstRun (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) :
    { L : List (View.Piece (Elt F) S1x1 .f32) //
      ∀ (E : Set ℕ) (K : PUnit → sProp 𝕄),
        iprop(owns (c : Thread nD τ) a1 fullShare x ∗ owns (c : Thread nD τ) a2 fullShare y ∗ (∃ d, owns (c : Thread nD τ) a3 fullShare d)
            ∗ (iprop(owns (c : Thread nD τ) a1 fullShare x ∗ owns (c : Thread nD τ) a2 fullShare y ∗ (∃ f, a3.view.loc (c : Thread nD τ) ↦[a3.view.set]{fullShare} a3.view.writes (Elt F) f L)) -∗ K ⟨⟩))
          ⊢ wp frame (wpE (defs₀ (F := F)) Variants.none c none) E (cc2__reduce_kernel i a1 h1 a2 h2 a3 h3) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%d2, %f2, -, H2⟩, Hk⟩
    obtain rfl := h1.eq_unread hf0; obtain rfl := h2.eq_unread hf1
    sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    iexists _; iexact H2

set_option maxHeartbeats 1000000 in
/-- AT A LATER POINT. The piece the body's one store leaves in the accumulator's memref (the sum added to
    the running contents `acc`), with the proof that on whole staging memrefs, the inputs' at `x`, `y` and the
    accumulator's at `acc`, the body runs to a continuation that holds the inputs' as they were and the
    accumulator's with that piece written. -/
noncomputable def laterRun (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) :
    { L : List (View.Piece (Elt F) S1x1 .f32) //
      ∀ (E : Set ℕ) (K : PUnit → sProp 𝕄),
        iprop(owns (c : Thread nD τ) a1 fullShare x ∗ owns (c : Thread nD τ) a2 fullShare y ∗ owns (c : Thread nD τ) a3 fullShare acc
            ∗ (iprop(owns (c : Thread nD τ) a1 fullShare x ∗ owns (c : Thread nD τ) a2 fullShare y ∗ (∃ f, a3.view.loc (c : Thread nD τ) ↦[a3.view.set]{fullShare} a3.view.writes (Elt F) f L)) -∗ K ⟨⟩))
          ⊢ wp frame (wpE (defs₀ (F := F)) Variants.none c none) E (cc2__reduce_kernel i a1 h1 a2 h2 a3 h3) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, Hk⟩
    obtain rfl := h1.eq_unread hf0; obtain rfl := h2.eq_unread hf1; obtain rfl := h3.eq_unread hf2
    sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    iexists _; iexact H2

end Cert.Kernel.Red

end
-- ==== Proof.K.ReduceRegion.lean ====
/- The reduction kernel's region of the program, at the contents `V` the buffers have when the region is
   entered: each window's block at a point; what the 1x1 accumulator's staging buffer holds after each
   point (the accumulation, by recursion on the point); the pipeline's proof data; and the body obligation. -/
import proofs.«135302_j80367428042774_1_alg».proof.Proof.K.ReduceRuns

set_option maxRecDepth 16384

noncomputable section

namespace Cert.Kernel.Red

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's current staging buffer holds its block at every point, for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator -/

/-- At the first point the two stores' pieces tile the 1x1 buffer, so they cover it. -/
theorem cover_first (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) (j : S1x1.Idx) :
    ∃ pc ∈ (firstRun c i a1 h1 a2 h2 a3 h3 hc x y).1, j ∈ pc.1.set :=
  View.cover_of_tiledL (firstRun c i a1 h1 a2 h2 a3 h3 hc x y).1 S1x1.size (by sl_kernel_rfl) j

/-- What the first point leaves in the accumulator: its pieces read back. -/
def accFirst (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) : Vec F S1x1 .f32 :=
  accView.read (Elt F) (accView.writes (Elt F) accView.junk (firstRun c i a1 h1 a2 h2 a3 h3 hc x y).1)

/-- At a later point the one store's piece tiles the 1x1 buffer, so it covers it. -/
theorem cover_later (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) (j : S1x1.Idx) :
    ∃ pc ∈ (laterRun c i a1 h1 a2 h2 a3 h3 hc x y acc).1, j ∈ pc.1.set :=
  View.cover_of_tiledL (laterRun c i a1 h1 a2 h2 a3 h3 hc x y acc).1 S1x1.size (by sl_kernel_rfl) j

/-- What a later point leaves in the accumulator over the running contents `acc`: its piece read back. -/
def accLater (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) : Vec F S1x1 .f32 :=
  accView.read (Elt F) (accView.writes (Elt F) accView.junk (laterRun c i a1 h1 a2 h2 a3 h3 hc x y acc).1)

/-! ## The accumulation -/

/-- What the accumulator's staging buffer holds after the body at position `n`: at the first point what
    the zeroing case leaves; at a later one what the adding case leaves over the contents at `n - 1` (the
    buffer is not written back between). -/
def accAfter (c : Dev nD) : (n : ℕ) → n < cfg2.N → Vec F S1x1 .f32
  | 0, hn => accFirst c (grid2.coords ⟨0, hn⟩) (mRho ⟨0, hn⟩) (hRho ⟨0, hn⟩) (mSigma ⟨0, hn⟩) (hSigma ⟨0, hn⟩) (mAcc ⟨0, hn⟩) (hAcc ⟨0, hn⟩)
      ((isFirst_iff ⟨0, hn⟩).mpr rfl) (iblk2 V c 0 ⟨0, hn⟩) (iblk2 V c 1 ⟨0, hn⟩)
  | n + 1, hn => accLater c (grid2.coords ⟨n + 1, hn⟩) (mRho ⟨n + 1, hn⟩) (hRho ⟨n + 1, hn⟩) (mSigma ⟨n + 1, hn⟩) (hSigma ⟨n + 1, hn⟩) (mAcc ⟨n + 1, hn⟩) (hAcc ⟨n + 1, hn⟩)
      (fun h => Nat.succ_ne_zero n ((isFirst_iff ⟨n + 1, hn⟩).mp h)) (iblk2 V c 0 ⟨n + 1, hn⟩) (iblk2 V c 1 ⟨n + 1, hn⟩)
      (accAfter c n (Nat.lt_of_succ_lt hn))

/-- The accumulation at the first point. -/
theorem accAfter_first (c : Dev nD) (t : Fin cfg2.N) (h0 : t.val = 0) :
    accAfter V c t.val t.isLt = accFirst c (grid2.coords t) (mRho t) (hRho t) (mSigma t) (hSigma t) (mAcc t) (hAcc t)
      ((isFirst_iff t).mpr h0) (iblk2 V c 0 t) (iblk2 V c 1 t) := by
  obtain ⟨n, hn⟩ := t
  cases n with
  | zero => exact rfl
  | succ n => exact absurd h0 (Nat.succ_ne_zero n)

/-- The accumulation at a later point: the adding case over what the point before left. -/
theorem accAfter_later (c : Dev nD) (t : Fin cfg2.N) (h0 : t.val ≠ 0) :
    accAfter V c t.val t.isLt = accLater c (grid2.coords t) (mRho t) (hRho t) (mSigma t) (hSigma t) (mAcc t) (hAcc t)
      (fun h => h0 ((isFirst_iff t).mp h)) (iblk2 V c 0 t) (iblk2 V c 1 t)
      (accAfter V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the reduction's pipeline on core `c`: the arrays as the region finds them; after the
    body at point `t` each input's buffer at its block and the accumulator's at the accumulation; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAfter V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAfter V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a later point the accumulator's staging buffer holds what the body left at the point before: the
    buffer is written back at the last point only, and the window is live and uncut. -/
theorem before2_2_later (c : Dev nD) (t : Fin cfg2.N) (h0 : t.val ≠ 0) (d) :
    (dat2 V c).before 2 t d = accAfter V c (t.val - 1) (Nat.lt_of_le_of_lt (Nat.sub_le _ _) t.isLt) := by
  have hN : t.val < 8 := lt_of_lt_of_eq t.isLt (show cfg2.N = 8 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (mRho t) fullShare ((dat2 V c).before 0 t d))
    ∗ (∃ d, owns (c : Thread nD τ) (mSigma t) fullShare ((dat2 V c).before 1 t d))
    ∗ (∃ d, owns (c : Thread nD τ) (mAcc t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (mRho t) fullShare ((dat2 V c).after 0 t)
    ∗ owns (c : Thread nD τ) (mSigma t) fullShare ((dat2 V c).after 1 t)
    ∗ owns (c : Thread nD τ) (mAcc t) fullShare ((dat2 V c).after 2 t))

set_option maxHeartbeats 800000 in
/-- The body at any point: the inputs' memrefs hold their blocks; the point is the first or a later one,
    and at a later one the accumulator holds what the point before left; so the case's run applies; the
    invariant passes through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [accAfter_first V c t h0]
    unfold accFirst
    iintro ⟨HΦ, Ho, ⟨%d0, H0⟩, ⟨%d1, H1⟩, ⟨%d2, H2⟩⟩
    iapply ((firstRun c (grid2.coords t) _ _ _ _ _ _ ((isFirst_iff t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_first c _ _ _ _ _ _ _ _ _ _)
  · rw [accAfter_later V c t h0]
    simp only [before2_2_later V c t h0]
    unfold accLater
    iintro ⟨HΦ, Ho, ⟨%d0, H0⟩, ⟨%d1, H1⟩, ⟨%d2, H2⟩⟩
    iapply ((laterRun c (grid2.coords t) _ _ _ _ _ _ (fun h => h0 ((isFirst_iff t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_later c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Red

end
-- ==== Proof.K.Run.lean ====
/-
  The whole kernel program as printed, at any instance of the float operations. @main is three pipelined regions — the Gram matrix of the first argument, the Gram matrix of
  the second, the sum of their entrywise product — followed by three stretches of host operations on the resulting scalar (the
  reshape and two constants; the clamp to [0, 1]; the distance to the target and its weight). The buffers' contents are followed
  from the launch through the six segments: a region changes only its output array, to what its write-backs leave; a host
  stretch applies its operations. The run: every weakly fair execution terminates without a fault, and every unscoped buffer
  ends at the last of those contents — the arguments untouched, the result at the host chain applied to the third region's sum.
-/
import proofs.«135302_j80367428042774_1_alg».proof.Proof.K.Gram0Ends
import proofs.«135302_j80367428042774_1_alg».proof.Proof.K.Gram1Ends
import proofs.«135302_j80367428042774_1_alg».proof.Proof.K.ReduceRegion
import proofs.«135302_j80367428042774_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 (c : Dev nD) : Valuation τ sig (Elt F) := fun b => m (c, b)
abbrev V0 : (c : Dev nD) → (b : Ref sig .tc) → Buf (Elt F) ((c : Thread nD τ).loc b) := fun c b => W0 m c b
/-- After the first Gram region: its output array at what the write-backs leave, everything else as before. -/
def W1 (c : Dev nD) : Valuation τ sig (Elt F) := Function.update (W0 m c) main_v0 ((Gram0.dat (V0 m) c).arrAt 2 cfg0.N)
abbrev V1 : (c : Dev nD) → (b : Ref sig .tc) → Buf (Elt F) ((c : Thread nD τ).loc b) := fun c b => W1 m c b
/-- After the second Gram region. -/
def W2 (c : Dev nD) : Valuation τ sig (Elt F) := Function.update (W1 m c) main_v1 ((Gram1.dat (V1 m) c).arrAt 2 cfg1.N)
abbrev V2 : (c : Dev nD) → (b : Ref sig .tc) → Buf (Elt F) ((c : Thread nD τ).loc b) := fun c b => W2 m c b
/-- After the product-sum region. -/
def W3 (c : Dev nD) : Valuation τ sig (Elt F) := Function.update (W2 m c) main_v2 ((Red.dat2 (V2 m) c).arrAt 2 cfg2.N)
abbrev V3 : (c : Dev nD) → (b : Ref sig .tc) → Buf (Elt F) ((c : Thread nD τ).loc b) := fun c b => W3 m c b
/-- After each of the three host stretches. -/
abbrev W4 (c : Dev nD) : Valuation τ sig (Elt F) := StableHlo.after hostOps3 (W3 m c)
abbrev W5 (c : Dev nD) : Valuation τ sig (Elt F) := StableHlo.after hostOps3_1 (W4 m c)
abbrev W6 (c : Dev nD) : Valuation τ sig (Elt F) := StableHlo.after hostOps3_2 (W5 m c)

theorem W1_out (c : Dev nD) : V1 m c main_v0 = (Gram0.dat (V0 m) c).arrAt 2 cfg0.N := by
  show W1 m c (Proc.devRef .tc main_v0) = _; unfold W1; exact Function.update_self ..
theorem W1_off (c : Dev nD) (b : Ref sig .tc) (h : b ≠ main_v0) : V1 m c b = V0 m c b := by
  show W1 m c (Proc.devRef .tc b) = _; unfold W1; exact Function.update_of_ne (StableHlo.devRef_ne_of_ne h) ..
theorem W2_out (c : Dev nD) : V2 m c main_v1 = (Gram1.dat (V1 m) c).arrAt 2 cfg1.N := by
  show W2 m c (Proc.devRef .tc main_v1) = _; unfold W2; exact Function.update_self ..
theorem W2_off (c : Dev nD) (b : Ref sig .tc) (h : b ≠ main_v1) : V2 m c b = V1 m c b := by
  show W2 m c (Proc.devRef .tc b) = _; unfold W2; exact Function.update_of_ne (StableHlo.devRef_ne_of_ne h) ..
theorem W3_out (c : Dev nD) : V3 m c main_v2 = (Red.dat2 (V2 m) c).arrAt 2 cfg2.N := by
  show W3 m c (Proc.devRef .tc main_v2) = _; unfold W3; exact Function.update_self ..
theorem W3_off (c : Dev nD) (b : Ref sig .tc) (h : b ≠ main_v2) : V3 m c b = V2 m c b := by
  show W3 m c (Proc.devRef .tc b) = _; unfold W3; exact Function.update_of_ne (StableHlo.devRef_ne_of_ne h) ..

/-! ## The proof data family and what rides along -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Gram0.dat (V0 m) c
  | ⟨1, _⟩ => fun c => Gram1.dat (V1 m) c
  | ⟨2, _⟩ => fun c => Red.dat2 (V2 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state and its tallies, at nothing owed. -/
abbrev rider (c : Dev nD) : sProp 𝕄 := iprop((∃ r, prngReg c r) ∗ ∃ W, owes (c : Thread nD τ) (0 : CellTallies nD τ sig Unit) W)
/-- Every unscoped buffer of core `c` at the contents `W`. -/
abbrev allAt (W : Valuation τ sig (Elt F)) (c : Dev nD) : sProp 𝕄 := StableHlo.held (c : Thread nD τ) (Pipeline.ucRefs τ sig) W

/-! ## The regions as segments -/

set_option backward.isDefEq.respectTransparency.types false in
/-- The first Gram region, from the launch contents to `W1`. -/
def gramSeg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Gram0.body_obligation (V0 m) c).loose
  hwaits := Pipeline.hwaits_of_owed_zero _ _ _ _ L lv 0 fun _ _ => rfl
  pre c := iprop(allAt (W0 m c) c ∗ rider c)
  post c := iprop(allAt (W1 m c) c ∗ rider c)
  X _ := BI.emp
  Y _ := BI.emp
  Z c := iprop(Pipeline.unscopedRest (Ix := Unit) (Name := ℕ) (U := UR sig nD τ) (Lvl := ℕ) spec0 c (V0 m c) ∗ ∃ r, prngReg c r)
  hentry c := by
    rw [Pipeline.ownSems0_none]
    have hs := Gram0.enter_arrays (V0 m) c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Gram0.accInv (V0 m) c 0 from rfl]
    iintro ⟨-, -, Hr⟩
    iapply (Gram0.accInv_enter (V0 m) c); iexact Hr
  hout c := by
    rw [Pipeline.ownSems0_none, show (pdats m 0 c).Φ (Fin.last _) = Gram0.accInv (V0 m) c (Fin.last _) from rfl]
    iintro H
    isplitr; · iempintro
    isplitr; · iempintro
    iapply (Gram0.accInv_leave (V0 m) c); iexact H
  hexit c := by
    have hj := Gram0.leave_arrays (V0 m) c (V1 m c) (W1_out m c) (fun b h => W1_off m c b h)
    rw [Pipeline.unscopedBufs_held] at hj
    iintro ⟨Ha, HO, -, Hrest, Hp⟩
    imodintro
    isplitl [Ha Hrest]
    · iapply hj
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The second Gram region, from `W1` to `W2`. -/
def gramSeg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram1.body_obligation (V1 m) c).loose
  hwaits := Pipeline.hwaits_of_owed_zero _ _ _ _ L lv 1 fun _ _ => rfl
  pre c := iprop(allAt (W1 m c) c ∗ rider c)
  post c := iprop(allAt (W2 m c) c ∗ rider c)
  X _ := BI.emp
  Y _ := BI.emp
  Z c := iprop(Pipeline.unscopedRest (Ix := Unit) (Name := ℕ) (U := UR sig nD τ) (Lvl := ℕ) spec1 c (V1 m c) ∗ ∃ r, prngReg c r)
  hentry c := by
    rw [Pipeline.ownSems0_none]
    have hs := Gram1.enter_arrays (V1 m) c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Gram1.accInv (V1 m) c 0 from rfl]
    iintro ⟨-, -, Hr⟩
    iapply (Gram1.accInv_enter (V1 m) c); iexact Hr
  hout c := by
    rw [Pipeline.ownSems0_none, show (pdats m 1 c).Φ (Fin.last _) = Gram1.accInv (V1 m) c (Fin.last _) from rfl]
    iintro H
    isplitr; · iempintro
    isplitr; · iempintro
    iapply (Gram1.accInv_leave (V1 m) c); iexact H
  hexit c := by
    have hj := Gram1.leave_arrays (V1 m) c (V2 m c) (W2_out m c) (fun b h => W2_off m c b h)
    rw [Pipeline.unscopedBufs_held] at hj
    iintro ⟨Ha, HO, -, Hrest, Hp⟩
    imodintro
    isplitl [Ha Hrest]
    · iapply hj
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The product-sum region, from `W2` to `W3`: its three arrays are distinct buffers, each held whole. -/
def sumSeg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Red.body_obligation2 (V2 m) c).loose
  hwaits := Pipeline.hwaits_of_owed_zero _ _ _ _ L lv 2 fun _ _ => rfl
  pre c := iprop(allAt (W2 m c) c ∗ rider c)
  post c := iprop(allAt (W3 m c) c ∗ rider c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N)
      (fun w => by
        fin_cases w
        · exact ((pdats m 2 c).arrAt_in 0 rfl _).trans (W3_off m c main_v0 (by decide)).symm
        · exact ((pdats m 2 c).arrAt_in 1 rfl _).trans (W3_off m c main_v1 (by decide)).symm
        · exact (W3_out m c).symm)
      (fun b hb => W3_off m c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments, and @main as the six segments -/

/-- A host stretch over the unscoped buffers from the contents `W`, the rider passing through. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

abbrev segs (c : Dev nD) : List (Pipeline.Seg (pcfgs (F := F)) adm (pdats m) () defs₀ 𝒱₀ L lv) :=
  [ .region (gramSeg0 m), .region (gramSeg1 m), .region (sumSeg m),
    .host (hostSeg hostOps3 hostOps3_sub hostOps3_fresh (W3 m)),
    .host (hostSeg hostOps3_1 hostOps3_1_sub hostOps3_1_fresh (W4 m)),
    .host (hostSeg hostOps3_2 hostOps3_2_sub hostOps3_2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

/-- The last thread state regrouped: the buffers and the generator register on one side, the tallies on the other. -/
theorem regroup (c : Dev nD) :
    iprop(allAt (W6 m c) c ∗ rider c)
      ⊢ (iprop((allAt (W6 m c) c ∗ ∃ r, prngReg c r) ∗ ∃ W, owes (c : Thread nD τ) (0 : CellTallies nD τ sig Unit) W) : sProp 𝕄) := by
  iintro ⟨Hh, Hp, HO⟩
  isplitr [HO]
  · isplitl [Hh]; · iexact Hh
    iexact Hp
  · iexact HO

set_option backward.isDefEq.respectTransparency.types false in
/-- From any memory with zero counters every weakly fair execution of @main on the TensorCores terminates, nothing faulting,
    and every unscoped buffer ends at the last boundary's contents `W6`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m c b) := by
  refine Pipeline.θ_run_regions_kit_dev (pcfgs (F := F)) adm (pdats m) () cellOf_inj emb₁ defs₀ 𝒱₀ L lv m ρ main (segs m)
    (fun c Q => by
      rewrite [main_chain c, Pipeline.Seg.run_eq_chain,
        show (segs m c).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(allAt (W0 m c) c ∗ rider c))
    (Tₙ := fun c => iprop(allAt (W6 m c) c ∗ ∃ r, prngReg c r))
    (hch := fun c => ⟨.rfl, .rfl, .rfl, .rfl, .rfl, .rfl, regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      unfold allAt StableHlo.held
      iintro ⟨⟨Hh, -⟩, HSI⟩
      imodintro
      iapply (pointsTo_read_all (Pipeline.ucRefs τ sig) (fun b => (((c : Thread nD τ)).1, b)) (W6 m c) s')
      isplitl [Hh] <;> iassumption)
    (hQ := fun _ h => h)

/-! ## The arguments end as launched -/

/-- No host stretch writes a buffer outside what its operations name. -/
theorem W6_keeps (c : Dev nD) (r : Ref sig .tc) (h2 : r ∉ hostOps3_2_W) (h1 : r ∉ hostOps3_1_W) (h0 : r ∉ hostOps3_W) :
    W6 m c r = W3 m c r :=
  (StableHlo.after_of_writes_sub hostOps3_2 _ hostOps3_2_writes h2).trans <|
    (StableHlo.after_of_writes_sub hostOps3_1 _ hostOps3_1_writes h1).trans (StableHlo.after_of_writes_sub hostOps3 _ hostOps3_writes h0)

/-- No region changes an argument array and no host operation writes one. -/
theorem W6_arg0 (c : Dev nD) : W6 m c main_arg0 = m ((c : Thread nD τ).loc main_arg0) :=
  (W6_keeps m c main_arg0 (by decide) (by decide) (by decide)).trans <|
    (W3_off m c main_arg0 (by decide)).trans <| (W2_off m c main_arg0 (by decide)).trans <| (W1_off m c main_arg0 (by decide)).trans rfl
theorem W6_arg1 (c : Dev nD) : W6 m c main_arg1 = m ((c : Thread nD τ).loc main_arg1) :=
  (W6_keeps m c main_arg1 (by decide) (by decide) (by decide)).trans <|
    (W3_off m c main_arg1 (by decide)).trans <| (W2_off m c main_arg1 (by decide)).trans <| (W1_off m c main_arg1 (by decide)).trans rfl

/-- The frame: every weakly fair execution terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_arg0 m c), (h c _ (mem_uc main_arg1 (by decide))).trans (W6_arg1 m c)⟩) (run_all m ρ)

/-- The run with the result named: the result buffer ends at the last contents, the arguments unchanged. -/
theorem run_result : θ_run defs (onTc (τ := τ) (main (F := F))) ⟨m, fun _ => 0, ρ⟩ (fun r => ∀ c : Dev nD,
      r.2.mem ((c.tc : Thread nD τ).loc main_v7) = W6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v7 (by decide)), (h c _ (mem_uc main_arg0 (by decide))).trans (W6_arg0 m c),
      (h c _ (mem_uc main_arg1 (by decide))).trans (W6_arg1 m c)⟩) (run_all m ρ)

end Cert.Kernel.Whole

end
-- ==== Proof.KI.Gram0Runs.lean ====
/-
  The Gram kernel of custom call 0 (`x ↦ xᵀx` scaled, one 1024 × 1024 output block per (i, j), accumulated over the
  reduction coordinate k in a scratch accumulator): its body at a grid point, in the three situations the two conditionals
  on k leave — k = 0 (zero the accumulator, then add the block product), 0 < k < 7 (add the block product), k = 7 (add,
  then store the accumulator times 2⁻¹³ to the output block). Each run is found by symbolic execution of the body; the stores
  it finds are its witness.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gram0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional holds exactly when the reduction coordinate k is 0: the accumulator is zeroed there. -/
abbrev atFirstK (i : grid0.Coords) : Prop := (Scalar.cmpi .ne (Scalar.extui (Scalar.cmpi .eq (BitVec.ofNat 32 (i 2).val) 0#32)) 0#32) = 1#1
/-- Over the 2 x 2 x 8 grid in row-major order, k = 0 at the points divisible by 8. -/
theorem atFirstK_iff : ∀ t : Fin cfg0.N, atFirstK (grid0.coords t) ↔ t.val % 8 = 0 :=
  (by decide +kernel : ∀ t : Fin grid0.N, atFirstK (grid0.coords t) ↔ t.val % 8 = 0)
/-- The body's second conditional holds exactly at the last reduction step k = 7: the scaled accumulator goes to the output block. -/
abbrev atLastK (i : grid0.Coords) : Prop := k0_cond2 i = 1#1
theorem atLastK_iff : ∀ t : Fin cfg0.N, atLastK (grid0.coords t) ↔ t.val % 8 = 7 :=
  (by decide +kernel : ∀ t : Fin grid0.N, atLastK (grid0.coords t) ↔ t.val % 8 = 7)

/-- The whole-block rectangle's offsets are zero. -/
theorem zeroOff : (![0, 0] : Fin S1024x1024.rank → ℕ) = fun _ => 0 := by
  funext a; fin_cases a <;> rfl

/-! ## k = 0: the accumulator is zeroed, then receives the first block product -/

set_option maxHeartbeats 1000000 in
/-- At k = 0, from the two input blocks at `x0`, `x1` and the accumulator at anything, the body ends with the inputs as they were
    and the accumulator overwritten by the stores found here (last first); the output block's buffer is not touched. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg3 harg3 arg4 harg4 arg5 harg5 arg6 harg6) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## 0 < k < 7: the accumulator receives one more block product -/

set_option maxHeartbeats 1000000 in
/-- At a middle step, from the input blocks and the accumulator at `a`, the body ends with the accumulator overwritten by the one
    store found here; the output block's buffer is not touched. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg3 harg3 arg4 harg4 arg5 harg5 arg6 harg6) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## k = 7: one more block product, then the scaled accumulator is stored to the output block -/

set_option maxHeartbeats 1000000 in
/-- At the last step, from the input blocks, the accumulator at `a` and the output block's buffer at anything, the body ends with
    the accumulator and the output buffer overwritten by the stores found here. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : atLastK i) (x0 x1 a d : Vec F S1024x1024 .f32) :
    { L : List (View.Piece (Elt F) S1024x1024 .f32) × List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare d ∗ owns (c : Thread nD τ) arg6 fullShare a
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__gram_kernel i arg3 harg3 arg4 harg4 arg5 harg5 arg6 harg6) K } := by
  refine ⟨⟨?_, ?_⟩, fun E K => ?run⟩
  case run =>
    simp only [cc0__gram_kernel_eq_skeleton]; unfold cc0__gram_kernel_skel
    unfold owns
    iintro ⟨⟨%f0, %hf0, H0⟩, ⟨%f1, %hf1, H1⟩, ⟨%f5, %hf5, H5⟩, ⟨%f6, %hf6, H6⟩, Hk⟩
    obtain rfl := harg3.eq_unread hf0; obtain rfl := harg4.eq_unread hf1; obtain rfl := harg5.eq_unread hf5; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexact H5
    iexists _; iexact H6

end Cert.KernelIdeal.Gram0

end
-- ==== Proof.KI.Gram0Stores.lean ====
/-
  What the Gram kernel's body (custom call 0) leaves in its accumulator and in the output block's buffer in each of the three
  situations, read back as values: a whole-block store leaves its payload, and a whole-block load after it reads that payload.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram0Runs
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Gram0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores found by each run leave, as values of the loaded blocks -/

theorem runFirst_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) (y : S1024x1024.Idx) :
    ∃ pc ∈ (runFirst c i arg3 harg3 arg4 harg4 arg5 harg5 arg6 harg6 hc0 hc1 x0 x1 a).1, y ∈ pc.1.set :=
  View.cover_of_tiledL (runFirst c i arg3 harg3 arg4 harg4 arg5 harg5 arg6 harg6 hc0 hc1 x0 x1 a).1 S1024x1024.size (by sl_kernel_rfl) y

/-- At k = 0 the accumulator ends at the block product added to the zero fill. -/
theorem runFirst_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) :
    View.canon (runFirst c i arg3 harg3 arg4 harg4 arg5 harg5 arg6 harg6 hc0 hc1 x0 x1 a).1 = k0_pay2 x0 x1 k0_pay1 := by
  unfold runFirst
  dsimp only
  sl_unfold_words
  rw [View.canon_cons_unit_zero zeroOff]
  simp only [View.readAt_eq_ld, harg3.read_unread, harg4.read_unread, View.ld_unit_zero (S := S1024x1024) zeroOff]
  rw [View.readCov_unit_zero (S := S1024x1024) arg6.view zeroOff]

theorem runMid_cover (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) (y : S1024x1024.Idx) :
    ∃ pc ∈ (runMid c i arg3 harg3 arg4 harg4 arg5 harg5 arg6 harg6 hc0 hc1 x0 x1 a).1, y ∈ pc.1.set :=
  View.cover_of_tiledL (runMid c i arg3 harg3 arg4 harg4 arg5 harg5 arg6 harg6 hc0 hc1 x0 x1 a).1 S1024x1024.size (by sl_kernel_rfl) y

/-- At a middle step the accumulator ends at the block product added to what it held. -/
theorem runMid_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) :
    View.canon (runMid c i arg3 harg3 arg4 harg4 arg5 harg5 arg6 harg6 hc0 hc1 x0 x1 a).1 = k0_pay2 x0 x1 a := by
  unfold runMid
  dsimp only
  sl_unfold_words
  rw [View.canon_unit_zero zeroOff]
  simp only [View.readAt_eq_ld, harg3.read_unread, harg4.read_unread, harg6.read_unread, View.ld_unit_zero (S := S1024x1024) zeroOff]

theorem runLast_cover_out (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.1, y ∈ pc.1.set :=
  View.cover_of_tiledL (runLast c i arg3 harg3 arg4 harg4 arg5 harg5 arg6 harg6 hc0 hc1 x0 x1 a d).1.1 S1024x1024.size (by sl_kernel_rfl) y

theorem runLast_cover_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.2, y ∈ pc.1.set :=
  View.cover_of_tiledL (runLast c i arg3 harg3 arg4 harg4 arg5 harg5 arg6 harg6 hc0 hc1 x0 x1 a d).1.2 S1024x1024.size (by sl_kernel_rfl) y

/-- At k = 7 the accumulator ends at the block product added to what it held, -/
theorem runLast_acc (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.2 = k0_pay2 x0 x1 a := by
  unfold runLast
  dsimp only
  sl_unfold_words
  rw [View.canon_unit_zero zeroOff]
  simp only [View.readAt_eq_ld, harg3.read_unread, harg4.read_unread, harg6.read_unread, View.ld_unit_zero (S := S1024x1024) zeroOff]

/-- and the output block's buffer at that accumulator scaled. -/
theorem runLast_out (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.1 = k0_pay3 (k0_pay2 x0 x1 a) := by
  unfold runLast
  dsimp only
  sl_unfold_words
  rw [View.canon_unit_zero zeroOff]
  simp only [View.readAt_eq_ld, harg3.read_unread, harg4.read_unread, harg6.read_unread, View.ld_unit_zero (S := S1024x1024) zeroOff]
  rw [View.readCov_unit_zero (S := S1024x1024) arg6.view zeroOff]

end Cert.KernelIdeal.Gram0

end
-- ==== Proof.KI.Gram0Region.lean ====
/-
  The Gram kernel of custom call 0 as a pipelined region: the blocks its windows address, what its accumulator holds after
  each grid point (a running sum over the reduction coordinate k, restarted from the zero fill at k = 0), the invariant that
  carries the accumulator's buffer between points, the proof data, and the body obligation at every point by cases on k.
  Stated at the contents `V` of the buffers when the region is entered.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram0Stores
import Idealize.ShloMosaic.Lib.Pipeline.FrameBody
import Idealize.ShloMosaic.Lib.Ring
import Idealize.ShloMosaic.Lib.Tactic

set_option maxRecDepth 16384

noncomputable section

namespace Cert.KernelIdeal.Gram0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator, point by point -/

/-- The block of window `w`'s array that grid point `t` addresses, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at position `n` of the grid: the product of the two blocks addressed there, added to
    the zero fill when k = 0 (`n` divisible by 8) and otherwise to what the position before left. -/
def accAfter (c : Dev nD) : ℕ → Vec F S1024x1024 .f32
  | 0 => if h : 0 < cfg0.N then k0_pay2 (blockAt V c 0 ⟨0, h⟩) (blockAt V c 1 ⟨0, h⟩) k0_pay1 else k0_pay1
  | n + 1 =>
    if h : n + 1 < cfg0.N then
      k0_pay2 (blockAt V c 0 ⟨n + 1, h⟩) (blockAt V c 1 ⟨n + 1, h⟩) (if (n + 1) % 8 = 0 then k0_pay1 else accAfter c n)
    else k0_pay1

theorem accAfter_first (c : Dev nD) (t : Fin cfg0.N) (h : t.val % 8 = 0) :
    accAfter V c t.val = k0_pay2 (blockAt V c 0 t) (blockAt V c 1 t) k0_pay1 := by
  obtain ⟨n, hn⟩ := t
  cases n with
  | zero => exact dif_pos hn
  | succ n => exact (dif_pos hn).trans (by rw [if_pos h])

theorem accAfter_next (c : Dev nD) (t : Fin cfg0.N) (h : ¬ t.val % 8 = 0) :
    accAfter V c t.val = k0_pay2 (blockAt V c 0 t) (blockAt V c 1 t) (accAfter V c (t.val - 1)) := by
  obtain ⟨n, hn⟩ := t
  cases n with
  | zero => exact absurd (Nat.zero_mod 8) h
  | succ n => exact (dif_pos hn).trans (by rw [if_neg h]; rfl)

/-! ## The invariant between points: the accumulator's buffer at the running sum -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor its accumulator: untouched by the region. -/
def otherScoped (c : Dev nD) : sProp 𝕄 :=
  Pipeline.scopedRestBut (Ix := Unit) (Name := ℕ) (U := UR sig nD τ) (Lvl := ℕ) (Val := Elt F) spec0 c [cc0_scratch0]

/-- The accumulator's memref, as the pipeline hands it to the body. -/
abbrev accRef : Memref sig .tc .vmem S1024x1024 .f32 := Memref.whole cc0_scratch0

/-- Before position `t`: the accumulator holds SOME contents, which inside a reduction (k ≠ 0) are the running sum the position
    before left; the other scoped buffers at anything. Before a position with k = 0 nothing is known of it, and nothing is needed:
    the body zeroes it first. -/
def accInv (c : Dev nD) (t : Fin (cfg0.N + 1)) : sProp 𝕄 :=
  iprop((∃ a : Vec F S1024x1024 .f32, ⌜¬ t.val % 8 = 0 → a = accAfter V c (t.val - 1)⌝ ∗ owns (c : Thread nD τ) accRef fullShare a) ∗ otherScoped c)

/-! ## The proof data -/

/-- The region's arrays as it finds them; after the body each input's buffer at its block and the output block's buffer at the
    scaled accumulator (consulted only where it is written back, k = 7: elsewhere the window is idle); the accumulator's invariant;
    the one array both input windows read is held half by each; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => k0_pay3 (accAfter V c t.val)
  Φ t := accInv V c t
  q w := match w with
    | ⟨0, _⟩ => fullShare.left
    | ⟨1, _⟩ => fullShare.right
    | ⟨2, _⟩ => fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = blockAt V c 0 t := by dsimp only [dat]
theorem dat_after1 (c : Dev nD) (t : Fin cfg0.N) : (dat V c).after 1 t = blockAt V c 1 t := by dsimp only [dat]
theorem dat_after2 (c : Dev nD) (t : Fin cfg0.N) : (dat V c).after 2 t = k0_pay3 (accAfter V c t.val) := by dsimp only [dat]

/-- Each input window's current buffer holds its block when the body runs (it is fetched at every point). -/
theorem dat_before0 (c : Dev nD) (t : Fin cfg0.N) (d) : (dat V c).before 0 t d = blockAt V c 0 t :=
  ((dat V c).before_in_eq_fetched 0 rfl (fun _ => rfl) (fun _ _ _ => rfl) (fun t => by rw [dat_after0]; unfold Dat.blockOf blockAt; rw [dat_A]; try rfl) t d).trans
    (by unfold Dat.fetched Dat.blockOf blockAt; rw [dat_A]; try rfl)
theorem dat_before1 (c : Dev nD) (t : Fin cfg0.N) (d) : (dat V c).before 1 t d = blockAt V c 1 t :=
  ((dat V c).before_in_eq_fetched 1 rfl (fun _ => rfl) (fun _ _ _ => rfl) (fun t => by rw [dat_after1]; unfold Dat.blockOf blockAt; rw [dat_A]; try rfl) t d).trans
    (by unfold Dat.fetched Dat.blockOf blockAt; rw [dat_A]; try rfl)

/-- The output window is idle exactly off the last reduction step. -/
theorem idle_out_iff : ∀ t : Fin cfg0.N, cfg0.idle 2 (cfg0.grid.coords t) = true ↔ ¬ t.val % 8 = 7 :=
  (by decide +kernel : ∀ t : Fin grid0.N, idle0 2 (grid0.coords t) = true ↔ ¬ t.val % 8 = 7)

/-! ## The body obligation -/

/-- The staging memrefs at a point, as the pipeline passes them. -/
abbrev inL (t : Fin cfg0.N) : Memref sig .tc .vmem S1024x1024 .f32 := win0_0.stage (cfg0.slots t 0)
abbrev hinL (t : Fin cfg0.N) : (inL t).IsWhole := hstage0_0 ((cfg0.slots t 0).cast nbuf0_0)
abbrev inR (t : Fin cfg0.N) : Memref sig .tc .vmem S1024x1024 .f32 := win0_1.stage (cfg0.slots t 1)
abbrev hinR (t : Fin cfg0.N) : (inR t).IsWhole := hstage0_1 ((cfg0.slots t 1).cast nbuf0_1)
abbrev outB (t : Fin cfg0.N) : Memref sig .tc .vmem S1024x1024 .f32 := win0_2.stage (cfg0.slots t 2)
abbrev houtB (t : Fin cfg0.N) : (outB t).IsWhole := hstage0_2 ((cfg0.slots t 2).cast nbuf0_2)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (inL t) fullShare ((dat V c).before 0 t d))
    ∗ (∃ d, owns (c : Thread nD τ) (inR t) fullShare ((dat V c).before 1 t d))
    ∗ (∃ d, owns (c : Thread nD τ) (outB t) fullShare ((dat V c).before 2 t d)))

/-- and what it returns: the output block's buffer as found off k = 7, at the scaled accumulator there. -/
def bodyPost (c : Dev nD) (t : Fin cfg0.N) : sProp 𝕄 :=
  iprop((dat V c).Φ t.succ ∗ (dat V c).owesAt () t.succ
    ∗ owns (c : Thread nD τ) (inL t) fullShare ((dat V c).after 0 t)
    ∗ owns (c : Thread nD τ) (inR t) fullShare ((dat V c).after 1 t)
    ∗ (dat V c).leavesExact 2 t)

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before0, dat_before1]
  rw [show (dat V c).owesAt () t.succ = (dat V c).owesAt () t.castSucc from rfl, dat_after0, dat_after1,
    show (dat V c).Φ t.castSucc = accInv V c t.castSucc from rfl, show (dat V c).Φ t.succ = accInv V c t.succ from rfl]
  have hN : t.val < 32 := lt_of_lt_of_eq t.isLt (show cfg0.N = 32 from N_0)
  unfold accInv
  by_cases h0 : t.val % 8 = 0
  · -- k = 0
    have h7 : ¬ t.val % 8 = 7 := by omega
    rw [Dat.leavesExact_idle _ 2 t ((idle_out_iff t).mpr h7) (Bool.eq_false_iff.mpr fun h => h7 ((flush0_2 t).mp h))]
    iintro ⟨⟨⟨%a, -, Ha⟩, Hoth⟩, Ho, ⟨%d0, H0⟩, ⟨%d1, H1⟩, Hout⟩
    iapply ((runFirst c (grid0.coords t) _ _ _ _ (outB t) (houtB t) _ _ ((atFirstK_iff t).mpr h0) (fun h => h7 ((atLastK_iff t).mp h)) (blockAt V c 0 t) (blockAt V c 1 t) a).2 Set.univ _)
    isplitl [H0]; · iexact H0
    isplitl [H1]; · iexact H1
    isplitl [Ha]; · iexact Ha
    iintro ⟨H0, H1, ⟨%e, Ha⟩⟩
    isplitl [Ha Hoth]
    · isplitl [Ha]
      · iexists _
        isplitr
        swap
        · unfold owns; iexists _; isplitr
          swap; · iexact Ha
          ipureintro; exact View.read_writes_eq_canon _ _ _ (runFirst_cover c _ _ _ _ _ _ _ _ _ _ _ _ _ _)
        ipureintro
        intro _
        rw [runFirst_acc, show (t.succ : Fin (cfg0.N + 1)).val - 1 = t.val from by simp, accAfter_first V c t h0]
      · iexact Hoth
    isplitl [Ho]; · iexact Ho
    isplitl [H0]; · iexact H0
    isplitl [H1]; · iexact H1
    iexact Hout
  · by_cases h7 : t.val % 8 = 7
    · -- k = 7
      have hidle : cfg0.idle 2 (cfg0.grid.coords t) = false := by
        rw [Bool.eq_false_iff]; exact fun h => (idle_out_iff t).mp h h7
      unfold Dat.leavesExact; rw [hidle]; dsimp only
      rw [dat_after2]
      iintro ⟨⟨⟨%a, %ha, Ha⟩, Hoth⟩, Ho, ⟨%d0, H0⟩, ⟨%d1, H1⟩, ⟨%d2, H2⟩⟩
      iapply ((runLast c (grid0.coords t) _ _ _ _ _ _ _ _ (fun h => h0 ((atFirstK_iff t).mp h)) ((atLastK_iff t).mpr h7) (blockAt V c 0 t) (blockAt V c 1 t) a _).2 Set.univ _)
      isplitl [H0]; · iexact H0
      isplitl [H1]; · iexact H1
      isplitl [H2]; · iexact H2
      isplitl [Ha]; · iexact Ha
      iintro ⟨H0, H1, ⟨%e5, H5⟩, ⟨%e6, H6⟩⟩
      have hacc : k0_pay2 (blockAt V c 0 t) (blockAt V c 1 t) a = accAfter V c t.val := by
        rw [accAfter_next V c t h0, ha (by simpa using h0)]; rfl
      isplitl [H6 Hoth]
      · isplitl [H6]
        · iexists _
          isplitr
          swap
          · unfold owns; iexists _; isplitr
            swap; · iexact H6
            ipureintro; exact View.read_writes_eq_canon _ _ _ (runLast_cover_acc c _ _ _ _ _ _ _ _ _ _ _ _ _ _ _)
          ipureintro
          intro hne
          exfalso; apply hne; show (t.val + 1) % 8 = 0; omega
        · iexact Hoth
      isplitl [Ho]; · iexact Ho
      isplitl [H0]; · iexact H0
      isplitl [H1]; · iexact H1
      unfold owns; iexists _; isplitr
      swap; · iexact H5
      ipureintro
      rw [View.read_writes_eq_canon _ _ _ (runLast_cover_out c _ _ _ _ _ _ _ _ _ _ _ _ _ _ _), runLast_out, hacc]
    · -- 0 < k < 7
      rw [Dat.leavesExact_idle _ 2 t ((idle_out_iff t).mpr h7) (Bool.eq_false_iff.mpr fun h => h7 ((flush0_2 t).mp h))]
      iintro ⟨⟨⟨%a, %ha, Ha⟩, Hoth⟩, Ho, ⟨%d0, H0⟩, ⟨%d1, H1⟩, Hout⟩
      iapply ((runMid c (grid0.coords t) _ _ _ _ (outB t) (houtB t) _ _ (fun h => h0 ((atFirstK_iff t).mp h)) (fun h => h7 ((atLastK_iff t).mp h)) (blockAt V c 0 t) (blockAt V c 1 t) a).2 Set.univ _)
      isplitl [H0]; · iexact H0
      isplitl [H1]; · iexact H1
      isplitl [Ha]; · iexact Ha
      iintro ⟨H0, H1, ⟨%e, Ha⟩⟩
      isplitl [Ha Hoth]
      · isplitl [Ha]
        · iexists _
          isplitr
          swap
          · unfold owns; iexists _; isplitr
            swap; · iexact Ha
            ipureintro; exact View.read_writes_eq_canon _ _ _ (runMid_cover c _ _ _ _ _ _ _ _ _ _ _ _ _ _)
          ipureintro
          intro _
          rw [runMid_acc, show (t.succ : Fin (cfg0.N + 1)).val - 1 = t.val from by simp, accAfter_next V c t h0, ha (by simpa using h0)]
          rfl
        · iexact Hoth
      isplitl [Ho]; · iexact Ho
      isplitl [H0]; · iexact H0
      isplitl [H1]; · iexact H1
      iexact Hout

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- The scoped buffers this call does not stage are its accumulator and the rest. -/
theorem scopedRest_split (c : Dev nD) :
    (Pipeline.scopedRest (Ix := Unit) (Name := ℕ) (U := UR sig nD τ) (Lvl := ℕ) (Val := Elt F) spec0 c : sProp 𝕄)
      = iprop(someAt c cc0_scratch0 ∗ otherScoped c) := by
  rw [Pipeline.scopedRest_split_of_list spec0 c [cc0_scratch0] (by decide) (by decide)]; rfl

/-- Held whole through its memref, the accumulator's buffer is held as a buffer. -/
theorem owns_acc (c : Dev nD) (a : Vec F S1024x1024 .f32) :
    (owns (c : Thread nD τ) accRef fullShare a : sProp 𝕄) = (((c : Thread nD τ).loc cc0_scratch0) ↦{fullShare} a) :=
  owns_whole _ _ _ _

/-- Before the first point nothing is asked of the accumulator (k = 0 there). -/
theorem accInv_enter (c : Dev nD) :
    (Pipeline.scopedRest (Ix := Unit) (Name := ℕ) (U := UR sig nD τ) (Lvl := ℕ) (Val := Elt F) spec0 c : sProp 𝕄) ⊢ accInv V c 0 := by
  rw [scopedRest_split]; unfold accInv
  simp only [owns_acc]
  iintro ⟨⟨%f, Hf⟩, Hoth⟩
  isplitl [Hf]
  · iexists f; isplitr
    · ipureintro; intro h; exact absurd (Nat.zero_mod 8) h
    · iexact Hf
  · iexact Hoth

/-- After the last point the accumulator's buffer is given back at whatever it holds. -/
theorem accInv_leave (c : Dev nD) :
    accInv V c (Fin.last cfg0.N) ⊢ (Pipeline.scopedRest (Ix := Unit) (Name := ℕ) (U := UR sig nD τ) (Lvl := ℕ) (Val := Elt F) spec0 c : sProp 𝕄) := by
  rw [scopedRest_split]; unfold accInv
  simp only [owns_acc]
  iintro ⟨⟨%a, -, Ha⟩, Hoth⟩
  isplitl [Ha]
  · iexists a; iexact Ha
  · iexact Hoth

end Cert.KernelIdeal.Gram0

end
-- ==== Proof.KI.Gram0Ends.lean ====
/-
  The Gram region of custom call 0 at its two ends: its three windows stand on two buffers — both input windows read the same
  array — so at entry that array's full share is dealt half to each input window, and at exit the halves are joined again and
  the output array is put back among the core's unscoped buffers at what the write-backs left.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram0Region
import Idealize.ShloMosaic.Lib.Pipeline.FrameBody
import Idealize.ShloMosaic.Lib.Ring
import Idealize.ShloMosaic.Lib.Tactic

set_option maxRecDepth 16384

noncomputable section

namespace Cert.KernelIdeal.Gram0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A core's unscoped buffers: the buffers behind this call's windows, and the rest. -/
theorem unscoped_two (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs 0 winFacts₀0.arr_unscoped c W

/-- The two distinct buffers behind the call's three windows. -/
theorem arrBufs_two (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  rw [bigSep_eq_bigSepL_of_eq [main_arg0, main_v0] (by decide) (by decide)]
  rfl

theorem share_inL (c : Dev nD) : (dat V c).share 0 = fullShare.left := by
  unfold Dat.share; rw [if_neg (by decide)]; dsimp only [dat]
theorem share_inR (c : Dev nD) : (dat V c).share 1 = fullShare.right := by
  unfold Dat.share; rw [if_neg (by decide)]; dsimp only [dat]
theorem share_out (c : Dev nD) : (dat V c).share 2 = fullShare := by
  unfold Dat.share; rw [if_pos (by decide)]

/-- The proof data's arrays, window by window: each array whole, at the share the proof data names. -/
theorem arrays_three (c : Dev nD) (G : (w : Fin cfg0.W) → Buf (Elt F) ((cfg0.win w).arr.view.loc (c.tc : Thread nD τ))) :
    ((dat V c).arrays G : sProp 𝕄)
      = iprop(((cfg0.win 0).arr.view.loc (c.tc : Thread nD τ) ↦{fullShare.left} G 0) ∗ ((cfg0.win 1).arr.view.loc (c.tc : Thread nD τ) ↦{fullShare.right} G 1)
          ∗ ((cfg0.win 2).arr.view.loc (c.tc : Thread nD τ) ↦{fullShare} G 2)) := by
  have s0 : (cfg0.win 0).arr.view.set = Finset.univ := (arr_whole0 0).set_eq_univ
  have s2 : (cfg0.win 2).arr.view.set = Finset.univ := (arr_whole0 2).set_eq_univ
  unfold Dat.arrays
  rw [bigSep_W0, share_inL, share_inR, share_out, s0, s2]

/-- ENTRY: the core's unscoped buffers at `V` are the region's arrays at their entry contents and the unscoped rest. -/
theorem enter_arrays (c : Dev nD) :
    (unscopedBufs c (V c) : sProp 𝕄) ⊢ iprop((dat V c).arrays ((dat V c).arrAt · 0) ∗ Pipeline.unscopedRest spec0 c (V c)) := by
  rw [unscoped_two, arrBufs_two, arrays_three]
  iintro ⟨⟨Ha, Hv⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    iexact Hv
  · iexact Hrest

/-- EXIT: the region's arrays at their final contents and the unscoped rest are the core's unscoped buffers at any contents
    `V'` that has the output array at what the write-backs leave and agrees with `V` elsewhere. -/
theorem leave_arrays (c : Dev nD) (V' : (b : Ref sig .tc) → Buf (Elt F) ((c : Thread nD τ).loc b))
    (hout : V' main_v0 = (dat V c).arrAt 2 cfg0.N) (hrest : ∀ b : Ref sig .tc, b ≠ main_v0 → V' b = V c b) :
    iprop((dat V c).arrays ((dat V c).arrAt · cfg0.N) ∗ Pipeline.unscopedRest spec0 c (V c)) ⊢ (unscopedBufs c V' : sProp 𝕄) := by
  have erest : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscoped_two, arrBufs_two, arrays_three, erest, (dat V c).arrAt_in 0 rfl, (dat V c).arrAt_in 1 rfl, hout, hrest main_arg0 (by decide)]
  iintro ⟨⟨Hl, Hr, Hv⟩, Hrest⟩
  isplitr [Hrest]
  · isplitl [Hl Hr]
    · iapply (pointsTo_share (PosShare.mem_left_op_right fullShare)).2
      isplitl [Hl]; · iexact Hl
      iexact Hr
    · iexact Hv
  · iexact Hrest

end Cert.KernelIdeal.Gram0

end
-- ==== Proof.KI.Gram1Runs.lean ====
/-
  The Gram kernel of custom call 1 (`x ↦ xᵀx` scaled, one 1024 × 1024 output block per (i, j), accumulated over the
  reduction coordinate k in a scratch accumulator): its body at a grid point, in the three situations the two conditionals
  on k leave — k = 0 (zero the accumulator, then add the block product), 0 < k < 7 (add the block product), k = 7 (add,
  then store the accumulator times 2⁻¹³ to the output block). Each run is found by symbolic execution of the body; the stores
  it finds are its witness.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gram1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional holds exactly when the reduction coordinate k is 0: the accumulator is zeroed there. -/
abbrev atFirstK (i : grid1.Coords) : Prop := (Scalar.cmpi .ne (Scalar.extui (Scalar.cmpi .eq (BitVec.ofNat 32 (i 2).val) 0#32)) 0#32) = 1#1
/-- Over the 2 x 2 x 8 grid in row-major order, k = 0 at the points divisible by 8. -/
theorem atFirstK_iff : ∀ t : Fin cfg1.N, atFirstK (grid1.coords t) ↔ t.val % 8 = 0 :=
  (by decide +kernel : ∀ t : Fin grid1.N, atFirstK (grid1.coords t) ↔ t.val % 8 = 0)
/-- The body's second conditional holds exactly at the last reduction step k = 7: the scaled accumulator goes to the output block. -/
abbrev atLastK (i : grid1.Coords) : Prop := k1_cond2 i = 1#1
theorem atLastK_iff : ∀ t : Fin cfg1.N, atLastK (grid1.coords t) ↔ t.val % 8 = 7 :=
  (by decide +kernel : ∀ t : Fin grid1.N, atLastK (grid1.coords t) ↔ t.val % 8 = 7)

/-- The whole-block rectangle's offsets are zero. -/
theorem zeroOff : (![0, 0] : Fin S1024x1024.rank → ℕ) = fun _ => 0 := by
  funext a; fin_cases a <;> rfl

/-! ## k = 0: the accumulator is zeroed, then receives the first block product -/

set_option maxHeartbeats 1000000 in
/-- At k = 0, from the two input blocks at `x0`, `x1` and the accumulator at anything, the body ends with the inputs as they were
    and the accumulator overwritten by the stores found here (last first); the output block's buffer is not touched. -/
noncomputable def runFirst (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc1__gram_kernel i arg3 harg3 arg4 harg4 arg5 harg5 arg6 harg6) K } := by
  refine ⟨?_, fun E K => ?run⟩
  case run =>
    simp only [cc1__gram_kernel_eq_skeleton]; unfold cc1__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## 0 < k < 7: the accumulator receives one more block product -/

set_option maxHeartbeats 1000000 in
/-- At a middle step, from the input blocks and the accumulator at `a`, the body ends with the accumulator overwritten by the one
    store found here; the output block's buffer is not touched. -/
noncomputable def runMid (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : ¬atLastK i) (x0 x1 a : Vec F S1024x1024 .f32) :
    { L6 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare a
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L6)) -∗ K ⟨⟩))
          ⊢ wp frame (wpE (defs₀ (F := F)) Variants.none c none) E (cc1__gram_kernel i arg3 harg3 arg4 harg4 arg5 harg5 arg6 harg6) K } := by
  refine ⟨?_, fun E K => ?run⟩
  case run =>
    simp only [cc1__gram_kernel_eq_skeleton]; unfold cc1__gram_kernel_skel
    unfold owns
    iintro ⟨⟨%f0, %hf0, H0⟩, ⟨%f1, %hf1, H1⟩, ⟨%f6, %hf6, H6⟩, Hk⟩
    obtain rfl := harg3.eq_unread hf0; obtain rfl := harg4.eq_unread hf1; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H6

/-! ## k = 7: one more block product, then the scaled accumulator is stored to the output block -/

set_option maxHeartbeats 1000000 in
/-- At the last step, from the input blocks, the accumulator at `a` and the output block's buffer at anything, the body ends with
    the accumulator and the output buffer overwritten by the stores found here. -/
noncomputable def runLast (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole)
    (hc0 : ¬atFirstK i) (hc1 : atLastK i) (x0 x1 a d : Vec F S1024x1024 .f32) :
    { L : List (View.Piece (Elt F) S1024x1024 .f32) × List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare d ∗ owns (c : Thread nD τ) arg6 fullShare a
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__gram_kernel i arg3 harg3 arg4 harg4 arg5 harg5 arg6 harg6) K } := by
  refine ⟨⟨?_, ?_⟩, fun E K => ?run⟩
  case run =>
    simp only [cc1__gram_kernel_eq_skeleton]; unfold cc1__gram_kernel_skel
    unfold owns
    iintro ⟨⟨%f0, %hf0, H0⟩, ⟨%f1, %hf1, H1⟩, ⟨%f5, %hf5, H5⟩, ⟨%f6, %hf6, H6⟩, Hk⟩
    obtain rfl := harg3.eq_unread hf0; obtain rfl := harg4.eq_unread hf1; obtain rfl := harg5.eq_unread hf5; obtain rfl := harg6.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]
    · iexists _; iexact H5
    iexists _; iexact H6

end Cert.KernelIdeal.Gram1

end
-- ==== Proof.KI.Gram1Stores.lean ====
/-
  What the Gram kernel's body (custom call 1) leaves in its accumulator and in the output block's buffer in each of the three
  situations, read back as values: a whole-block store leaves its payload, and a whole-block load after it reads that payload.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram1Runs
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Gram1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores found by each run leave, as values of the loaded blocks -/

theorem runFirst_cover (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) (y : S1024x1024.Idx) :
    ∃ pc ∈ (runFirst c i arg3 harg3 arg4 harg4 arg5 harg5 arg6 harg6 hc0 hc1 x0 x1 a).1, y ∈ pc.1.set :=
  View.cover_of_tiledL (runFirst c i arg3 harg3 arg4 harg4 arg5 harg5 arg6 harg6 hc0 hc1 x0 x1 a).1 S1024x1024.size (by sl_kernel_rfl) y

/-- At k = 0 the accumulator ends at the block product added to the zero fill. -/
theorem runFirst_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : atFirstK i) (hc1 : ¬atLastK i) (x0 x1 a : Vec F S1024x1024 .f32) :
    View.canon (runFirst c i arg3 harg3 arg4 harg4 arg5 harg5 arg6 harg6 hc0 hc1 x0 x1 a).1 = k1_pay2 x0 x1 k1_pay1 := by
  unfold runFirst
  dsimp only
  sl_unfold_words
  rw [View.canon_cons_unit_zero zeroOff]
  simp only [View.readAt_eq_ld, harg3.read_unread, harg4.read_unread, View.ld_unit_zero (S := S1024x1024) zeroOff]
  rw [View.readCov_unit_zero (S := S1024x1024) arg6.view zeroOff]

theorem runMid_cover (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) (y : S1024x1024.Idx) :
    ∃ pc ∈ (runMid c i arg3 harg3 arg4 harg4 arg5 harg5 arg6 harg6 hc0 hc1 x0 x1 a).1, y ∈ pc.1.set :=
  View.cover_of_tiledL (runMid c i arg3 harg3 arg4 harg4 arg5 harg5 arg6 harg6 hc0 hc1 x0 x1 a).1 S1024x1024.size (by sl_kernel_rfl) y

/-- At a middle step the accumulator ends at the block product added to what it held. -/
theorem runMid_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : ¬atLastK i) (x0 x1 a : Vec F S1024x1024 .f32) :
    View.canon (runMid c i arg3 harg3 arg4 harg4 arg5 harg5 arg6 harg6 hc0 hc1 x0 x1 a).1 = k1_pay2 x0 x1 a := by
  unfold runMid
  dsimp only
  sl_unfold_words
  rw [View.canon_unit_zero zeroOff]
  simp only [View.readAt_eq_ld, harg3.read_unread, harg4.read_unread, harg6.read_unread, View.ld_unit_zero (S := S1024x1024) zeroOff]

theorem runLast_cover_out (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.1, y ∈ pc.1.set :=
  View.cover_of_tiledL (runLast c i arg3 harg3 arg4 harg4 arg5 harg5 arg6 harg6 hc0 hc1 x0 x1 a d).1.1 S1024x1024.size (by sl_kernel_rfl) y

theorem runLast_cover_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) (y : S1024x1024.Idx) :
    ∃ pc ∈ (runLast c i arg3 harg3 arg4 harg4 arg5 harg5 arg6 harg6 hc0 hc1 x0 x1 a d).1.2, y ∈ pc.1.set :=
  View.cover_of_tiledL (runLast c i arg3 harg3 arg4 harg4 arg5 harg5 arg6 harg6 hc0 hc1 x0 x1 a d).1.2 S1024x1024.size (by sl_kernel_rfl) y

/-- At k = 7 the accumulator ends at the block product added to what it held, -/
theorem runLast_acc (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.2 = k1_pay2 x0 x1 a := by
  unfold runLast
  dsimp only
  sl_unfold_words
  rw [View.canon_unit_zero zeroOff]
  simp only [View.readAt_eq_ld, harg3.read_unread, harg4.read_unread, harg6.read_unread, View.ld_unit_zero (S := S1024x1024) zeroOff]

/-- and the output block's buffer at that accumulator scaled. -/
theorem runLast_out (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬atFirstK i) (hc1 : atLastK i) (x0 x1 a d : Vec F S1024x1024 .f32) :
    View.canon (runLast c i arg3 harg3 arg4 harg4 arg5 harg5 arg6 harg6 hc0 hc1 x0 x1 a d).1.1 = k1_pay3 (k1_pay2 x0 x1 a) := by
  unfold runLast
  dsimp only
  sl_unfold_words
  rw [View.canon_unit_zero zeroOff]
  simp only [View.readAt_eq_ld, harg3.read_unread, harg4.read_unread, harg6.read_unread, View.ld_unit_zero (S := S1024x1024) zeroOff]
  rw [View.readCov_unit_zero (S := S1024x1024) arg6.view zeroOff]

end Cert.KernelIdeal.Gram1

end
-- ==== Proof.KI.Gram1Region.lean ====
/-
  The Gram kernel of custom call 1 as a pipelined region: the blocks its windows address, what its accumulator holds after
  each grid point (a running sum over the reduction coordinate k, restarted from the zero fill at k = 0), the invariant that
  carries the accumulator's buffer between points, the proof data, and the body obligation at every point by cases on k.
  Stated at the contents `V` of the buffers when the region is entered.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram1Stores
import Idealize.ShloMosaic.Lib.Pipeline.FrameBody
import Idealize.ShloMosaic.Lib.Ring
import Idealize.ShloMosaic.Lib.Tactic

set_option maxRecDepth 16384

noncomputable section

namespace Cert.KernelIdeal.Gram1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator, point by point -/

/-- The block of window `w`'s array that grid point `t` addresses, read off the array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n` of the grid: the product of the two blocks addressed there, added to
    the zero fill when k = 0 (`n` divisible by 8) and otherwise to what the position before left. -/
def accAfter (c : Dev nD) : ℕ → Vec F S1024x1024 .f32
  | 0 => if h : 0 < cfg1.N then k1_pay2 (blockAt V c 0 ⟨0, h⟩) (blockAt V c 1 ⟨0, h⟩) k1_pay1 else k1_pay1
  | n + 1 =>
    if h : n + 1 < cfg1.N then
      k1_pay2 (blockAt V c 0 ⟨n + 1, h⟩) (blockAt V c 1 ⟨n + 1, h⟩) (if (n + 1) % 8 = 0 then k1_pay1 else accAfter c n)
    else k1_pay1

theorem accAfter_first (c : Dev nD) (t : Fin cfg1.N) (h : t.val % 8 = 0) :
    accAfter V c t.val = k1_pay2 (blockAt V c 0 t) (blockAt V c 1 t) k1_pay1 := by
  obtain ⟨n, hn⟩ := t
  cases n with
  | zero => exact dif_pos hn
  | succ n => exact (dif_pos hn).trans (by rw [if_pos h])

theorem accAfter_next (c : Dev nD) (t : Fin cfg1.N) (h : ¬ t.val % 8 = 0) :
    accAfter V c t.val = k1_pay2 (blockAt V c 0 t) (blockAt V c 1 t) (accAfter V c (t.val - 1)) := by
  obtain ⟨n, hn⟩ := t
  cases n with
  | zero => exact absurd (Nat.zero_mod 8) h
  | succ n => exact (dif_pos hn).trans (by rw [if_neg h]; rfl)

/-! ## The invariant between points: the accumulator's buffer at the running sum -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor its accumulator: untouched by the region. -/
def otherScoped (c : Dev nD) : sProp 𝕄 :=
  Pipeline.scopedRestBut (Ix := Unit) (Name := ℕ) (U := UR sig nD τ) (Lvl := ℕ) (Val := Elt F) spec1 c [cc1_scratch0]

/-- The accumulator's memref, as the pipeline hands it to the body. -/
abbrev accRef : Memref sig .tc .vmem S1024x1024 .f32 := Memref.whole cc1_scratch0

/-- Before position `t`: the accumulator holds SOME contents, which inside a reduction (k ≠ 0) are the running sum the position
    before left; the other scoped buffers at anything. Before a position with k = 0 nothing is known of it, and nothing is needed:
    the body zeroes it first. -/
def accInv (c : Dev nD) (t : Fin (cfg1.N + 1)) : sProp 𝕄 :=
  iprop((∃ a : Vec F S1024x1024 .f32, ⌜¬ t.val % 8 = 0 → a = accAfter V c (t.val - 1)⌝ ∗ owns (c : Thread nD τ) accRef fullShare a) ∗ otherScoped c)

/-! ## The proof data -/

/-- The region's arrays as it finds them; after the body each input's buffer at its block and the output block's buffer at the
    scaled accumulator (consulted only where it is written back, k = 7: elsewhere the window is idle); the accumulator's invariant;
    the one array both input windows read is held half by each; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => k1_pay3 (accAfter V c t.val)
  Φ t := accInv V c t
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = blockAt V c 0 t := by dsimp only [dat]
theorem dat_after1 (c : Dev nD) (t : Fin cfg1.N) : (dat V c).after 1 t = blockAt V c 1 t := by dsimp only [dat]
theorem dat_after2 (c : Dev nD) (t : Fin cfg1.N) : (dat V c).after 2 t = k1_pay3 (accAfter V c t.val) := by dsimp only [dat]

/-- Each input window's current buffer holds its block when the body runs (it is fetched at every point). -/
theorem dat_before0 (c : Dev nD) (t : Fin cfg1.N) (d) : (dat V c).before 0 t d = blockAt V c 0 t :=
  ((dat V c).before_in_eq_fetched 0 rfl (fun _ => rfl) (fun _ _ _ => rfl) (fun t => by rw [dat_after0]; unfold Dat.blockOf blockAt; rw [dat_A]; try rfl) t d).trans
    (by unfold Dat.fetched Dat.blockOf blockAt; rw [dat_A]; try rfl)
theorem dat_before1 (c : Dev nD) (t : Fin cfg1.N) (d) : (dat V c).before 1 t d = blockAt V c 1 t :=
  ((dat V c).before_in_eq_fetched 1 rfl (fun _ => rfl) (fun _ _ _ => rfl) (fun t => by rw [dat_after1]; unfold Dat.blockOf blockAt; rw [dat_A]; try rfl) t d).trans
    (by unfold Dat.fetched Dat.blockOf blockAt; rw [dat_A]; try rfl)

/-- The output window is idle exactly off the last reduction step. -/
theorem idle_out_iff : ∀ t : Fin cfg1.N, cfg1.idle 2 (cfg1.grid.coords t) = true ↔ ¬ t.val % 8 = 7 :=
  (by decide +kernel : ∀ t : Fin grid1.N, idle1 2 (grid1.coords t) = true ↔ ¬ t.val % 8 = 7)

/-! ## The body obligation -/

/-- The staging memrefs at a point, as the pipeline passes them. -/
abbrev inL (t : Fin cfg1.N) : Memref sig .tc .vmem S1024x1024 .f32 := win1_0.stage (cfg1.slots t 0)
abbrev hinL (t : Fin cfg1.N) : (inL t).IsWhole := hstage1_0 ((cfg1.slots t 0).cast nbuf1_0)
abbrev inR (t : Fin cfg1.N) : Memref sig .tc .vmem S1024x1024 .f32 := win1_1.stage (cfg1.slots t 1)
abbrev hinR (t : Fin cfg1.N) : (inR t).IsWhole := hstage1_1 ((cfg1.slots t 1).cast nbuf1_1)
abbrev outB (t : Fin cfg1.N) : Memref sig .tc .vmem S1024x1024 .f32 := win1_2.stage (cfg1.slots t 2)
abbrev houtB (t : Fin cfg1.N) : (outB t).IsWhole := hstage1_2 ((cfg1.slots t 2).cast nbuf1_2)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (inL t) fullShare ((dat V c).before 0 t d))
    ∗ (∃ d, owns (c : Thread nD τ) (inR t) fullShare ((dat V c).before 1 t d))
    ∗ (∃ d, owns (c : Thread nD τ) (outB t) fullShare ((dat V c).before 2 t d)))

/-- and what it returns: the output block's buffer as found off k = 7, at the scaled accumulator there. -/
def bodyPost (c : Dev nD) (t : Fin cfg1.N) : sProp 𝕄 :=
  iprop((dat V c).Φ t.succ ∗ (dat V c).owesAt () t.succ
    ∗ owns (c : Thread nD τ) (inL t) fullShare ((dat V c).after 0 t)
    ∗ owns (c : Thread nD τ) (inR t) fullShare ((dat V c).after 1 t)
    ∗ (dat V c).leavesExact 2 t)

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before0, dat_before1]
  rw [show (dat V c).owesAt () t.succ = (dat V c).owesAt () t.castSucc from rfl, dat_after0, dat_after1,
    show (dat V c).Φ t.castSucc = accInv V c t.castSucc from rfl, show (dat V c).Φ t.succ = accInv V c t.succ from rfl]
  have hN : t.val < 32 := lt_of_lt_of_eq t.isLt (show cfg1.N = 32 from N_1)
  unfold accInv
  by_cases h0 : t.val % 8 = 0
  · -- k = 0
    have h7 : ¬ t.val % 8 = 7 := by omega
    rw [Dat.leavesExact_idle _ 2 t ((idle_out_iff t).mpr h7) (Bool.eq_false_iff.mpr fun h => h7 ((flush1_2 t).mp h))]
    iintro ⟨⟨⟨%a, -, Ha⟩, Hoth⟩, Ho, ⟨%d0, H0⟩, ⟨%d1, H1⟩, Hout⟩
    iapply ((runFirst c (grid1.coords t) _ _ _ _ (outB t) (houtB t) _ _ ((atFirstK_iff t).mpr h0) (fun h => h7 ((atLastK_iff t).mp h)) (blockAt V c 0 t) (blockAt V c 1 t) a).2 Set.univ _)
    isplitl [H0]; · iexact H0
    isplitl [H1]; · iexact H1
    isplitl [Ha]; · iexact Ha
    iintro ⟨H0, H1, ⟨%e, Ha⟩⟩
    isplitl [Ha Hoth]
    · isplitl [Ha]
      · iexists _
        isplitr
        swap
        · unfold owns; iexists _; isplitr
          swap; · iexact Ha
          ipureintro; exact View.read_writes_eq_canon _ _ _ (runFirst_cover c _ _ _ _ _ _ _ _ _ _ _ _ _ _)
        ipureintro
        intro _
        rw [runFirst_acc, show (t.succ : Fin (cfg1.N + 1)).val - 1 = t.val from by simp, accAfter_first V c t h0]
      · iexact Hoth
    isplitl [Ho]; · iexact Ho
    isplitl [H0]; · iexact H0
    isplitl [H1]; · iexact H1
    iexact Hout
  · by_cases h7 : t.val % 8 = 7
    · -- k = 7
      have hidle : cfg1.idle 2 (cfg1.grid.coords t) = false := by
        rw [Bool.eq_false_iff]; exact fun h => (idle_out_iff t).mp h h7
      unfold Dat.leavesExact; rw [hidle]; dsimp only
      rw [dat_after2]
      iintro ⟨⟨⟨%a, %ha, Ha⟩, Hoth⟩, Ho, ⟨%d0, H0⟩, ⟨%d1, H1⟩, ⟨%d2, H2⟩⟩
      iapply ((runLast c (grid1.coords t) _ _ _ _ _ _ _ _ (fun h => h0 ((atFirstK_iff t).mp h)) ((atLastK_iff t).mpr h7) (blockAt V c 0 t) (blockAt V c 1 t) a _).2 Set.univ _)
      isplitl [H0]; · iexact H0
      isplitl [H1]; · iexact H1
      isplitl [H2]; · iexact H2
      isplitl [Ha]; · iexact Ha
      iintro ⟨H0, H1, ⟨%e5, H5⟩, ⟨%e6, H6⟩⟩
      have hacc : k1_pay2 (blockAt V c 0 t) (blockAt V c 1 t) a = accAfter V c t.val := by
        rw [accAfter_next V c t h0, ha (by simpa using h0)]; rfl
      isplitl [H6 Hoth]
      · isplitl [H6]
        · iexists _
          isplitr
          swap
          · unfold owns; iexists _; isplitr
            swap; · iexact H6
            ipureintro; exact View.read_writes_eq_canon _ _ _ (runLast_cover_acc c _ _ _ _ _ _ _ _ _ _ _ _ _ _ _)
          ipureintro
          intro hne
          exfalso; apply hne; show (t.val + 1) % 8 = 0; omega
        · iexact Hoth
      isplitl [Ho]; · iexact Ho
      isplitl [H0]; · iexact H0
      isplitl [H1]; · iexact H1
      unfold owns; iexists _; isplitr
      swap; · iexact H5
      ipureintro
      rw [View.read_writes_eq_canon _ _ _ (runLast_cover_out c _ _ _ _ _ _ _ _ _ _ _ _ _ _ _), runLast_out, hacc]
    · -- 0 < k < 7
      rw [Dat.leavesExact_idle _ 2 t ((idle_out_iff t).mpr h7) (Bool.eq_false_iff.mpr fun h => h7 ((flush1_2 t).mp h))]
      iintro ⟨⟨⟨%a, %ha, Ha⟩, Hoth⟩, Ho, ⟨%d0, H0⟩, ⟨%d1, H1⟩, Hout⟩
      iapply ((runMid c (grid1.coords t) _ _ _ _ (outB t) (houtB t) _ _ (fun h => h0 ((atFirstK_iff t).mp h)) (fun h => h7 ((atLastK_iff t).mp h)) (blockAt V c 0 t) (blockAt V c 1 t) a).2 Set.univ _)
      isplitl [H0]; · iexact H0
      isplitl [H1]; · iexact H1
      isplitl [Ha]; · iexact Ha
      iintro ⟨H0, H1, ⟨%e, Ha⟩⟩
      isplitl [Ha Hoth]
      · isplitl [Ha]
        · iexists _
          isplitr
          swap
          · unfold owns; iexists _; isplitr
            swap; · iexact Ha
            ipureintro; exact View.read_writes_eq_canon _ _ _ (runMid_cover c _ _ _ _ _ _ _ _ _ _ _ _ _ _)
          ipureintro
          intro _
          rw [runMid_acc, show (t.succ : Fin (cfg1.N + 1)).val - 1 = t.val from by simp, accAfter_next V c t h0, ha (by simpa using h0)]
          rfl
        · iexact Hoth
      isplitl [Ho]; · iexact Ho
      isplitl [H0]; · iexact H0
      isplitl [H1]; · iexact H1
      iexact Hout

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- The scoped buffers this call does not stage are its accumulator and the rest. -/
theorem scopedRest_split (c : Dev nD) :
    (Pipeline.scopedRest (Ix := Unit) (Name := ℕ) (U := UR sig nD τ) (Lvl := ℕ) (Val := Elt F) spec1 c : sProp 𝕄)
      = iprop(someAt c cc1_scratch0 ∗ otherScoped c) := by
  rw [Pipeline.scopedRest_split_of_list spec1 c [cc1_scratch0] (by decide) (by decide)]; rfl

/-- Held whole through its memref, the accumulator's buffer is held as a buffer. -/
theorem owns_acc (c : Dev nD) (a : Vec F S1024x1024 .f32) :
    (owns (c : Thread nD τ) accRef fullShare a : sProp 𝕄) = (((c : Thread nD τ).loc cc1_scratch0) ↦{fullShare} a) :=
  owns_whole _ _ _ _

/-- Before the first point nothing is asked of the accumulator (k = 0 there). -/
theorem accInv_enter (c : Dev nD) :
    (Pipeline.scopedRest (Ix := Unit) (Name := ℕ) (U := UR sig nD τ) (Lvl := ℕ) (Val := Elt F) spec1 c : sProp 𝕄) ⊢ accInv V c 0 := by
  rw [scopedRest_split]; unfold accInv
  simp only [owns_acc]
  iintro ⟨⟨%f, Hf⟩, Hoth⟩
  isplitl [Hf]
  · iexists f; isplitr
    · ipureintro; intro h; exact absurd (Nat.zero_mod 8) h
    · iexact Hf
  · iexact Hoth

/-- After the last point the accumulator's buffer is given back at whatever it holds. -/
theorem accInv_leave (c : Dev nD) :
    accInv V c (Fin.last cfg1.N) ⊢ (Pipeline.scopedRest (Ix := Unit) (Name := ℕ) (U := UR sig nD τ) (Lvl := ℕ) (Val := Elt F) spec1 c : sProp 𝕄) := by
  rw [scopedRest_split]; unfold accInv
  simp only [owns_acc]
  iintro ⟨⟨%a, -, Ha⟩, Hoth⟩
  isplitl [Ha]
  · iexists a; iexact Ha
  · iexact Hoth

end Cert.KernelIdeal.Gram1

end
-- ==== Proof.KI.Gram1Ends.lean ====
/-
  The Gram region of custom call 1 at its two ends: its three windows stand on two buffers — both input windows read the same
  array — so at entry that array's full share is dealt half to each input window, and at exit the halves are joined again and
  the output array is put back among the core's unscoped buffers at what the write-backs left.
-/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import proofs.«135302_j80367428042774_1_alg».proof.Proof.KI.Gram1Region
import Idealize.ShloMosaic.Lib.Pipeline.FrameBody
import Idealize.ShloMosaic.Lib.Ring
import Idealize.ShloMosaic.Lib.Tactic

set_option maxRecDepth 16384

noncomputable section

namespace Cert.KernelIdeal.Gram1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A core's unscoped buffers: the buffers behind this call's windows, and the rest. -/
theorem unscoped_two (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- The two distinct buffers behind the call's three windows. -/
theorem arrBufs_two (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1)) := by
  unfold Pipeline.arrBufs
  rw [bigSep_eq_bigSepL_of_eq [main_arg1, main_v1] (by decide) (by decide)]
  rfl

theorem share_inL (c : Dev nD) : (dat V c).share 0 = fullShare.left := by
  unfold Dat.share; rw [if_neg (by decide)]; dsimp only [dat]
theorem share_inR (c : Dev nD) : (dat V c).share 1 = fullShare.right := by
  unfold Dat.share; rw [if_neg (by decide)]; dsimp only [dat]
theorem share_out (c : Dev nD) : (dat V c).share 2 = fullShare := by
  unfold Dat.share; rw [if_pos (by decide)]

/-- The proof data's arrays, window by window: each array whole, at the share the proof data names. -/
theorem arrays_three (c : Dev nD) (G : (w : Fin cfg1.W) → Buf (Elt F) ((cfg1.win w).arr.view.loc (c.tc : Thread nD τ))) :
    ((dat V c).arrays G : sProp 𝕄)
      = iprop(((cfg1.win 0).arr.view.loc (c.tc : Thread nD τ) ↦{fullShare.left} G 0) ∗ ((cfg1.win 1).arr.view.loc (c.tc : Thread nD τ) ↦{fullShare.right} G 1)
          ∗ ((cfg1.win 2).arr.view.loc (c.tc : Thread nD τ) ↦{fullShare} G 2)) := by
  have s0 : (cfg1.win 0).arr.view.set = Finset.univ := (arr_whole1 0).set_eq_univ
  have s2 : (cfg1.win 2).arr.view.set = Finset.univ := (arr_whole1 2).set_eq_univ
  unfold Dat.arrays
  rw [bigSep_W1, share_inL, share_inR, share_out, s0, s2]

/-- ENTRY: the core's unscoped buffers at `V` are the region's arrays at their entry contents and the unscoped rest. -/
theorem enter_arrays (c : Dev nD) :
    (unscopedBufs c (V c) : sProp 𝕄) ⊢ iprop((dat V c).arrays ((dat V c).arrAt · 0) ∗ Pipeline.unscopedRest spec1 c (V c)) := by
  rw [unscoped_two, arrBufs_two, arrays_three]
  iintro ⟨⟨Ha, Hv⟩, Hrest⟩
  ihave Hs := (pointsTo_share (PosShare.mem_left_op_right fullShare)).1 $$ Ha
  icases Hs with ⟨Hl, Hr⟩
  isplitr [Hrest]
  · isplitl [Hl]; · iexact Hl
    isplitl [Hr]; · iexact Hr
    iexact Hv
  · iexact Hrest

/-- EXIT: the region's arrays at their final contents and the unscoped rest are the core's unscoped buffers at any contents
    `V'` that has the output array at what the write-backs leave and agrees with `V` elsewhere. -/
theorem leave_arrays (c : Dev nD) (V' : (b : Ref sig .tc) → Buf (Elt F) ((c : Thread nD τ).loc b))
    (hout : V' main_v1 = (dat V c).arrAt 2 cfg1.N) (hrest : ∀ b : Ref sig .tc, b ≠ main_v1 → V' b = V c b) :
    iprop((dat V c).arrays ((dat V c).arrAt · cfg1.N) ∗ Pipeline.unscopedRest spec1 c (V c)) ⊢ (unscopedBufs c V' : sProp 𝕄) := by
  have erest : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun h => (Finset.mem_sdiff.mp hb).2 (h ▸ Finset.mem_image.mpr ⟨2, Finset.mem_univ _, rfl⟩)]
  rw [unscoped_two, arrBufs_two, arrays_three, erest, (dat V c).arrAt_in 0 rfl, (dat V c).arrAt_in 1 rfl, hout, hrest main_arg1 (by decide)]
  iintro ⟨⟨Hl, Hr, Hv⟩, Hrest⟩
  isplitr [Hrest]
  · isplitl [Hl Hr]
    · iapply (pointsTo_share (PosShare.mem_left_op_right fullShare)).2
      isplitl [Hl]; · iexact Hl
      iexact Hr
    · iexact Hv
  · iexact Hrest

end Cert.KernelIdeal.Gram1

end
-- ==== Proof.KI.ReduceRuns.lean ====
/- The reduction kernel of the third call, run on whole staging memrefs: the condition of its one
   conditional in closed form over the grid, the staging memrefs the pipeline passes at a point, and the
   body's triple in each of its two cases (the first grid point, where the 1x1 accumulator is zeroed and
   then added to; a later point, where it is added to over its running contents). -/
import proofs.«135302_j80367428042774_1_alg».proof.Proof.Gen.KernelIdeal.Launch
import proofs.«135302_j80367428042774_1_alg».proof.Proof.Gen.KernelIdeal.Skeleton
import proofs.«135302_j80367428042774_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Red

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition -/

/-- The condition under which the body zeroes the accumulator, from the grid coordinate: the coordinate
    is compared with 0, the bit is widened and compared with 0 again. -/
abbrev isFirst (i : grid2.Coords) : Prop :=
  (Scalar.cmpi .ne (Scalar.extui (Scalar.cmpi .eq (BitVec.ofNat 32 (i 0).val) 0#32)) 0#32) = 1#1

/-- It holds at the first point of the grid and at no other. -/
theorem isFirst_iff : ∀ t : Fin cfg2.N, isFirst (grid2.coords t) ↔ t.val = 0 :=
  (by decide +kernel : ∀ t : Fin grid2.N, isFirst (grid2.coords t) ↔ t.val = 0)

/-! ## The staging memrefs at a point -/

/-- The accumulator's one staging buffer as a view: its contents are stated through it. -/
abbrev accView : View sig .tc .vmem S1x1 .f32 := (Memref.whole cc2_stg2_0 : Memref sig .tc .vmem S1x1 .f32).view

/-- Each window's current staging memref at point `t`, as the pipeline passes it, and its wholeness. -/
abbrev mRho (t : Fin cfg2.N) : Memref sig .tc .vmem S256x2048 .f32 := win2_0.stage (cfg2.slots t 0)
abbrev hRho (t : Fin cfg2.N) : (mRho t).IsWhole := hstage2_0 ((cfg2.slots t 0).cast nbuf2_0)
abbrev mSigma (t : Fin cfg2.N) : Memref sig .tc .vmem S256x2048 .f32 := win2_1.stage (cfg2.slots t 1)
abbrev hSigma (t : Fin cfg2.N) : (mSigma t).IsWhole := hstage2_1 ((cfg2.slots t 1).cast nbuf2_1)
abbrev mAcc (t : Fin cfg2.N) : Memref sig .tc .vmem S1x1 .f32 := win2_2.stage (cfg2.slots t 2)
abbrev hAcc (t : Fin cfg2.N) : (mAcc t).IsWhole := hstage2_2 ((cfg2.slots t 2).cast nbuf2_2)

/-! ## The two runs -/

set_option maxHeartbeats 1000000 in
/-- AT THE FIRST POINT. The pieces the body's two stores leave in the accumulator's memref (last first:
    the sum added to the zero just stored, then the zero), with the proof that on whole staging memrefs,
    the two inputs' at contents `x`, `y` and the accumulator's at anything, the body runs to a continuation
    that holds the inputs' as they were and the accumulator's with those pieces written. -/
noncomputable def firstRun (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) :
    { L : List (View.Piece (Elt F) S1x1 .f32) //
      ∀ (E : Set ℕ) (K : PUnit → sProp 𝕄),
        iprop(owns (c : Thread nD τ) a1 fullShare x ∗ owns (c : Thread nD τ) a2 fullShare y ∗ (∃ d, owns (c : Thread nD τ) a3 fullShare d)
            ∗ (iprop(owns (c : Thread nD τ) a1 fullShare x ∗ owns (c : Thread nD τ) a2 fullShare y ∗ (∃ f, a3.view.loc (c : Thread nD τ) ↦[a3.view.set]{fullShare} a3.view.writes (Elt F) f L)) -∗ K ⟨⟩))
          ⊢ wp frame (wpE (defs₀ (F := F)) Variants.none c none) E (cc2__reduce_kernel i a1 h1 a2 h2 a3 h3) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%d2, %f2, -, H2⟩, Hk⟩
    obtain rfl := h1.eq_unread hf0; obtain rfl := h2.eq_unread hf1
    sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    iexists _; iexact H2

set_option maxHeartbeats 1000000 in
/-- AT A LATER POINT. The piece the body's one store leaves in the accumulator's memref (the sum added to
    the running contents `acc`), with the proof that on whole staging memrefs, the inputs' at `x`, `y` and the
    accumulator's at `acc`, the body runs to a continuation that holds the inputs' as they were and the
    accumulator's with that piece written. -/
noncomputable def laterRun (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) :
    { L : List (View.Piece (Elt F) S1x1 .f32) //
      ∀ (E : Set ℕ) (K : PUnit → sProp 𝕄),
        iprop(owns (c : Thread nD τ) a1 fullShare x ∗ owns (c : Thread nD τ) a2 fullShare y ∗ owns (c : Thread nD τ) a3 fullShare acc
            ∗ (iprop(owns (c : Thread nD τ) a1 fullShare x ∗ owns (c : Thread nD τ) a2 fullShare y ∗ (∃ f, a3.view.loc (c : Thread nD τ) ↦[a3.view.set]{fullShare} a3.view.writes (Elt F) f L)) -∗ K ⟨⟩))
          ⊢ wp frame (wpE (defs₀ (F := F)) Variants.none c none) E (cc2__reduce_kernel i a1 h1 a2 h2 a3 h3) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, Hk⟩
    obtain rfl := h1.eq_unread hf0; obtain rfl := h2.eq_unread hf1; obtain rfl := h3.eq_unread hf2
    sl_exec (disch := first | exact hc)
    sl_step
    iapply Hk
    isplitl [H0]
    · iexists _; isplitr; · ipureintro; exact h1.read_unread _
      iexact H0
    isplitl [H1]
    · iexists _; isplitr; · ipureintro; exact h2.read_unread _
      iexact H1
    iexists _; iexact H2

end Cert.KernelIdeal.Red

end
-- ==== Proof.KI.ReduceRegion.lean ====
/- The reduction kernel's region of the program, at the contents `V` the buffers have when the region is
   entered: each window's block at a point; what the 1x1 accumulator's staging buffer holds after each
   point (the accumulation, by recursion on the point); the pipeline's proof data; and the body obligation. -/
import proofs.«135302_j80367428042774_1_alg».proof.Proof.KI.ReduceRuns

set_option maxRecDepth 16384

noncomputable section

namespace Cert.KernelIdeal.Red

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's current staging buffer holds its block at every point, for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator -/

/-- At the first point the two stores' pieces tile the 1x1 buffer, so they cover it. -/
theorem cover_first (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) (j : S1x1.Idx) :
    ∃ pc ∈ (firstRun c i a1 h1 a2 h2 a3 h3 hc x y).1, j ∈ pc.1.set :=
  View.cover_of_tiledL (firstRun c i a1 h1 a2 h2 a3 h3 hc x y).1 S1x1.size (by sl_kernel_rfl) j

/-- What the first point leaves in the accumulator: its pieces read back. -/
def accFirst (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) : Vec F S1x1 .f32 :=
  accView.read (Elt F) (accView.writes (Elt F) accView.junk (firstRun c i a1 h1 a2 h2 a3 h3 hc x y).1)

/-- At a later point the one store's piece tiles the 1x1 buffer, so it covers it. -/
theorem cover_later (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) (j : S1x1.Idx) :
    ∃ pc ∈ (laterRun c i a1 h1 a2 h2 a3 h3 hc x y acc).1, j ∈ pc.1.set :=
  View.cover_of_tiledL (laterRun c i a1 h1 a2 h2 a3 h3 hc x y acc).1 S1x1.size (by sl_kernel_rfl) j

/-- What a later point leaves in the accumulator over the running contents `acc`: its piece read back. -/
def accLater (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) : Vec F S1x1 .f32 :=
  accView.read (Elt F) (accView.writes (Elt F) accView.junk (laterRun c i a1 h1 a2 h2 a3 h3 hc x y acc).1)

/-! ## The accumulation -/

/-- What the accumulator's staging buffer holds after the body at position `n`: at the first point what
    the zeroing case leaves; at a later one what the adding case leaves over the contents at `n - 1` (the
    buffer is not written back between). -/
def accAfter (c : Dev nD) : (n : ℕ) → n < cfg2.N → Vec F S1x1 .f32
  | 0, hn => accFirst c (grid2.coords ⟨0, hn⟩) (mRho ⟨0, hn⟩) (hRho ⟨0, hn⟩) (mSigma ⟨0, hn⟩) (hSigma ⟨0, hn⟩) (mAcc ⟨0, hn⟩) (hAcc ⟨0, hn⟩)
      ((isFirst_iff ⟨0, hn⟩).mpr rfl) (iblk2 V c 0 ⟨0, hn⟩) (iblk2 V c 1 ⟨0, hn⟩)
  | n + 1, hn => accLater c (grid2.coords ⟨n + 1, hn⟩) (mRho ⟨n + 1, hn⟩) (hRho ⟨n + 1, hn⟩) (mSigma ⟨n + 1, hn⟩) (hSigma ⟨n + 1, hn⟩) (mAcc ⟨n + 1, hn⟩) (hAcc ⟨n + 1, hn⟩)
      (fun h => Nat.succ_ne_zero n ((isFirst_iff ⟨n + 1, hn⟩).mp h)) (iblk2 V c 0 ⟨n + 1, hn⟩) (iblk2 V c 1 ⟨n + 1, hn⟩)
      (accAfter c n (Nat.lt_of_succ_lt hn))

/-- The accumulation at the first point. -/
theorem accAfter_first (c : Dev nD) (t : Fin cfg2.N) (h0 : t.val = 0) :
    accAfter V c t.val t.isLt = accFirst c (grid2.coords t) (mRho t) (hRho t) (mSigma t) (hSigma t) (mAcc t) (hAcc t)
      ((isFirst_iff t).mpr h0) (iblk2 V c 0 t) (iblk2 V c 1 t) := by
  obtain ⟨n, hn⟩ := t
  cases n with
  | zero => exact rfl
  | succ n => exact absurd h0 (Nat.succ_ne_zero n)

/-- The accumulation at a later point: the adding case over what the point before left. -/
theorem accAfter_later (c : Dev nD) (t : Fin cfg2.N) (h0 : t.val ≠ 0) :
    accAfter V c t.val t.isLt = accLater c (grid2.coords t) (mRho t) (hRho t) (mSigma t) (hSigma t) (mAcc t) (hAcc t)
      (fun h => h0 ((isFirst_iff t).mp h)) (iblk2 V c 0 t) (iblk2 V c 1 t)
      (accAfter V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the reduction's pipeline on core `c`: the arrays as the region finds them; after the
    body at point `t` each input's buffer at its block and the accumulator's at the accumulation; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAfter V c t.val t.isLt
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAfter V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a later point the accumulator's staging buffer holds what the body left at the point before: the
    buffer is written back at the last point only, and the window is live and uncut. -/
theorem before2_2_later (c : Dev nD) (t : Fin cfg2.N) (h0 : t.val ≠ 0) (d) :
    (dat2 V c).before 2 t d = accAfter V c (t.val - 1) (Nat.lt_of_le_of_lt (Nat.sub_le _ _) t.isLt) := by
  have hN : t.val < 8 := lt_of_lt_of_eq t.isLt (show cfg2.N = 8 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (mRho t) fullShare ((dat2 V c).before 0 t d))
    ∗ (∃ d, owns (c : Thread nD τ) (mSigma t) fullShare ((dat2 V c).before 1 t d))
    ∗ (∃ d, owns (c : Thread nD τ) (mAcc t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (mRho t) fullShare ((dat2 V c).after 0 t)
    ∗ owns (c : Thread nD τ) (mSigma t) fullShare ((dat2 V c).after 1 t)
    ∗ owns (c : Thread nD τ) (mAcc t) fullShare ((dat2 V c).after 2 t))

set_option maxHeartbeats 800000 in
/-- The body at any point: the inputs' memrefs hold their blocks; the point is the first or a later one,
    and at a later one the accumulator holds what the point before left; so the case's run applies; the
    invariant passes through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [accAfter_first V c t h0]
    unfold accFirst
    iintro ⟨HΦ, Ho, ⟨%d0, H0⟩, ⟨%d1, H1⟩, ⟨%d2, H2⟩⟩
    iapply ((firstRun c (grid2.coords t) _ _ _ _ _ _ ((isFirst_iff t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_first c _ _ _ _ _ _ _ _ _ _)
  · rw [accAfter_later V c t h0]
    simp only [before2_2_later V c t h0]
    unfold accLater
    iintro ⟨HΦ, Ho, ⟨%d0, H0⟩, ⟨%d1, H1⟩, ⟨%d2, H2⟩⟩
    iapply ((laterRun c (grid2.coords t) _ _ _ _ _ _ (fun h => h0 ((isFirst_iff t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_later c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Red

end
-- ==== Proof.KI.Run.lean ====
/-
  The whole idealized kernel program. @main is three pipelined regions — the Gram matrix of the first argument, the Gram matrix of
  the second, the sum of their entrywise product — followed by three stretches of host operations on the resulting scalar (the
  reshape and two constants; the clamp to [0, 1]; the distance to the target and its weight). The buffers' contents are followed
  from the launch through the six segments: a region changes only its output array, to what its write-backs leave; a host
  stretch applies its operations. The run: every weakly fair execution terminates without a fault, and every unscoped buffer
  ends at the last of those contents — the arguments untouched, the result at the host chain applied to the third region's sum.
-/
import proofs.«135302_j80367428042774_1_alg».proof.Proof.KI.Gram0Ends
import proofs.«135302_j80367428042774_1_alg».proof.Proof.KI.Gram1Ends
import proofs.«135302_j80367428042774_1_alg».proof.Proof.KI.ReduceRegion
import proofs.«135302_j80367428042774_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 (c : Dev nD) : Valuation τ sig (Elt F) := fun b => m (c, b)
abbrev V0 : (c : Dev nD) → (b : Ref sig .tc) → Buf (Elt F) ((c : Thread nD τ).loc b) := fun c b => W0 m c b
/-- After the first Gram region: its output array at what the write-backs leave, everything else as before. -/
def W1 (c : Dev nD) : Valuation τ sig (Elt F) := Function.update (W0 m c) main_v0 ((Gram0.dat (V0 m) c).arrAt 2 cfg0.N)
abbrev V1 : (c : Dev nD) → (b : Ref sig .tc) → Buf (Elt F) ((c : Thread nD τ).loc b) := fun c b => W1 m c b
/-- After the second Gram region. -/
def W2 (c : Dev nD) : Valuation τ sig (Elt F) := Function.update (W1 m c) main_v1 ((Gram1.dat (V1 m) c).arrAt 2 cfg1.N)
abbrev V2 : (c : Dev nD) → (b : Ref sig .tc) → Buf (Elt F) ((c : Thread nD τ).loc b) := fun c b => W2 m c b
/-- After the product-sum region. -/
def W3 (c : Dev nD) : Valuation τ sig (Elt F) := Function.update (W2 m c) main_v2 ((Red.dat2 (V2 m) c).arrAt 2 cfg2.N)
abbrev V3 : (c : Dev nD) → (b : Ref sig .tc) → Buf (Elt F) ((c : Thread nD τ).loc b) := fun c b => W3 m c b
/-- After each of the three host stretches. -/
abbrev W4 (c : Dev nD) : Valuation τ sig (Elt F) := StableHlo.after hostOps3 (W3 m c)
abbrev W5 (c : Dev nD) : Valuation τ sig (Elt F) := StableHlo.after hostOps3_1 (W4 m c)
abbrev W6 (c : Dev nD) : Valuation τ sig (Elt F) := StableHlo.after hostOps3_2 (W5 m c)

theorem W1_out (c : Dev nD) : V1 m c main_v0 = (Gram0.dat (V0 m) c).arrAt 2 cfg0.N := by
  show W1 m c (Proc.devRef .tc main_v0) = _; unfold W1; exact Function.update_self ..
theorem W1_off (c : Dev nD) (b : Ref sig .tc) (h : b ≠ main_v0) : V1 m c b = V0 m c b := by
  show W1 m c (Proc.devRef .tc b) = _; unfold W1; exact Function.update_of_ne (StableHlo.devRef_ne_of_ne h) ..
theorem W2_out (c : Dev nD) : V2 m c main_v1 = (Gram1.dat (V1 m) c).arrAt 2 cfg1.N := by
  show W2 m c (Proc.devRef .tc main_v1) = _; unfold W2; exact Function.update_self ..
theorem W2_off (c : Dev nD) (b : Ref sig .tc) (h : b ≠ main_v1) : V2 m c b = V1 m c b := by
  show W2 m c (Proc.devRef .tc b) = _; unfold W2; exact Function.update_of_ne (StableHlo.devRef_ne_of_ne h) ..
theorem W3_out (c : Dev nD) : V3 m c main_v2 = (Red.dat2 (V2 m) c).arrAt 2 cfg2.N := by
  show W3 m c (Proc.devRef .tc main_v2) = _; unfold W3; exact Function.update_self ..
theorem W3_off (c : Dev nD) (b : Ref sig .tc) (h : b ≠ main_v2) : V3 m c b = V2 m c b := by
  show W3 m c (Proc.devRef .tc b) = _; unfold W3; exact Function.update_of_ne (StableHlo.devRef_ne_of_ne h) ..

/-! ## The proof data family and what rides along -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Gram0.dat (V0 m) c
  | ⟨1, _⟩ => fun c => Gram1.dat (V1 m) c
  | ⟨2, _⟩ => fun c => Red.dat2 (V2 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state and its tallies, at nothing owed. -/
abbrev rider (c : Dev nD) : sProp 𝕄 := iprop((∃ r, prngReg c r) ∗ ∃ W, owes (c : Thread nD τ) (0 : CellTallies nD τ sig Unit) W)
/-- Every unscoped buffer of core `c` at the contents `W`. -/
abbrev allAt (W : Valuation τ sig (Elt F)) (c : Dev nD) : sProp 𝕄 := StableHlo.held (c : Thread nD τ) (Pipeline.ucRefs τ sig) W

/-! ## The regions as segments -/

set_option backward.isDefEq.respectTransparency.types false in
/-- The first Gram region, from the launch contents to `W1`. -/
def gramSeg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Gram0.body_obligation (V0 m) c).loose
  hwaits := Pipeline.hwaits_of_owed_zero _ _ _ _ L lv 0 fun _ _ => rfl
  pre c := iprop(allAt (W0 m c) c ∗ rider c)
  post c := iprop(allAt (W1 m c) c ∗ rider c)
  X _ := BI.emp
  Y _ := BI.emp
  Z c := iprop(Pipeline.unscopedRest (Ix := Unit) (Name := ℕ) (U := UR sig nD τ) (Lvl := ℕ) spec0 c (V0 m c) ∗ ∃ r, prngReg c r)
  hentry c := by
    rw [Pipeline.ownSems0_none]
    have hs := Gram0.enter_arrays (V0 m) c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Gram0.accInv (V0 m) c 0 from rfl]
    iintro ⟨-, -, Hr⟩
    iapply (Gram0.accInv_enter (V0 m) c); iexact Hr
  hout c := by
    rw [Pipeline.ownSems0_none, show (pdats m 0 c).Φ (Fin.last _) = Gram0.accInv (V0 m) c (Fin.last _) from rfl]
    iintro H
    isplitr; · iempintro
    isplitr; · iempintro
    iapply (Gram0.accInv_leave (V0 m) c); iexact H
  hexit c := by
    have hj := Gram0.leave_arrays (V0 m) c (V1 m c) (W1_out m c) (fun b h => W1_off m c b h)
    rw [Pipeline.unscopedBufs_held] at hj
    iintro ⟨Ha, HO, -, Hrest, Hp⟩
    imodintro
    isplitl [Ha Hrest]
    · iapply hj
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The second Gram region, from `W1` to `W2`. -/
def gramSeg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram1.body_obligation (V1 m) c).loose
  hwaits := Pipeline.hwaits_of_owed_zero _ _ _ _ L lv 1 fun _ _ => rfl
  pre c := iprop(allAt (W1 m c) c ∗ rider c)
  post c := iprop(allAt (W2 m c) c ∗ rider c)
  X _ := BI.emp
  Y _ := BI.emp
  Z c := iprop(Pipeline.unscopedRest (Ix := Unit) (Name := ℕ) (U := UR sig nD τ) (Lvl := ℕ) spec1 c (V1 m c) ∗ ∃ r, prngReg c r)
  hentry c := by
    rw [Pipeline.ownSems0_none]
    have hs := Gram1.enter_arrays (V1 m) c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Gram1.accInv (V1 m) c 0 from rfl]
    iintro ⟨-, -, Hr⟩
    iapply (Gram1.accInv_enter (V1 m) c); iexact Hr
  hout c := by
    rw [Pipeline.ownSems0_none, show (pdats m 1 c).Φ (Fin.last _) = Gram1.accInv (V1 m) c (Fin.last _) from rfl]
    iintro H
    isplitr; · iempintro
    isplitr; · iempintro
    iapply (Gram1.accInv_leave (V1 m) c); iexact H
  hexit c := by
    have hj := Gram1.leave_arrays (V1 m) c (V2 m c) (W2_out m c) (fun b h => W2_off m c b h)
    rw [Pipeline.unscopedBufs_held] at hj
    iintro ⟨Ha, HO, -, Hrest, Hp⟩
    imodintro
    isplitl [Ha Hrest]
    · iapply hj
      isplitl [Ha]; · iexact Ha
      iexact Hrest
    isplitl [Hp]; · iexact Hp
    unfold Pipeline.Dat.owesAt Pipeline.owesWithin
    icases HO with ⟨%W, -, HO⟩; iexists W; iexact HO

set_option backward.isDefEq.respectTransparency.types false in
/-- The product-sum region, from `W2` to `W3`: its three arrays are distinct buffers, each held whole. -/
def sumSeg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Red.body_obligation2 (V2 m) c).loose
  hwaits := Pipeline.hwaits_of_owed_zero _ _ _ _ L lv 2 fun _ _ => rfl
  pre c := iprop(allAt (W2 m c) c ∗ rider c)
  post c := iprop(allAt (W3 m c) c ∗ rider c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N)
      (fun w => by
        fin_cases w
        · exact ((pdats m 2 c).arrAt_in 0 rfl _).trans (W3_off m c main_v0 (by decide)).symm
        · exact ((pdats m 2 c).arrAt_in 1 rfl _).trans (W3_off m c main_v1 (by decide)).symm
        · exact (W3_out m c).symm)
      (fun b hb => W3_off m c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments, and @main as the six segments -/

/-- A host stretch over the unscoped buffers from the contents `W`, the rider passing through. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

abbrev segs (c : Dev nD) : List (Pipeline.Seg (pcfgs (F := F)) adm (pdats m) () defs₀ 𝒱₀ L lv) :=
  [ .region (gramSeg0 m), .region (gramSeg1 m), .region (sumSeg m),
    .host (hostSeg hostOps3 hostOps3_sub hostOps3_fresh (W3 m)),
    .host (hostSeg hostOps3_1 hostOps3_1_sub hostOps3_1_fresh (W4 m)),
    .host (hostSeg hostOps3_2 hostOps3_2_sub hostOps3_2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

/-- The last thread state regrouped: the buffers and the generator register on one side, the tallies on the other. -/
theorem regroup (c : Dev nD) :
    iprop(allAt (W6 m c) c ∗ rider c)
      ⊢ (iprop((allAt (W6 m c) c ∗ ∃ r, prngReg c r) ∗ ∃ W, owes (c : Thread nD τ) (0 : CellTallies nD τ sig Unit) W) : sProp 𝕄) := by
  iintro ⟨Hh, Hp, HO⟩
  isplitr [HO]
  · isplitl [Hh]; · iexact Hh
    iexact Hp
  · iexact HO

set_option backward.isDefEq.respectTransparency.types false in
/-- From any memory with zero counters every weakly fair execution of @main on the TensorCores terminates, nothing faulting,
    and every unscoped buffer ends at the last boundary's contents `W6`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m c b) := by
  refine Pipeline.θ_run_regions_kit_dev (pcfgs (F := F)) adm (pdats m) () cellOf_inj emb₁ defs₀ 𝒱₀ L lv m ρ main (segs m)
    (fun c Q => by
      rewrite [main_chain c, Pipeline.Seg.run_eq_chain,
        show (segs m c).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(allAt (W0 m c) c ∗ rider c))
    (Tₙ := fun c => iprop(allAt (W6 m c) c ∗ ∃ r, prngReg c r))
    (hch := fun c => ⟨.rfl, .rfl, .rfl, .rfl, .rfl, .rfl, regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      unfold allAt StableHlo.held
      iintro ⟨⟨Hh, -⟩, HSI⟩
      imodintro
      iapply (pointsTo_read_all (Pipeline.ucRefs τ sig) (fun b => (((c : Thread nD τ)).1, b)) (W6 m c) s')
      isplitl [Hh] <;> iassumption)
    (hQ := fun _ h => h)

/-! ## The arguments end as launched -/

/-- No host stretch writes a buffer outside what its operations name. -/
theorem W6_keeps (c : Dev nD) (r : Ref sig .tc) (h2 : r ∉ hostOps3_2_W) (h1 : r ∉ hostOps3_1_W) (h0 : r ∉ hostOps3_W) :
    W6 m c r = W3 m c r :=
  (StableHlo.after_of_writes_sub hostOps3_2 _ hostOps3_2_writes h2).trans <|
    (StableHlo.after_of_writes_sub hostOps3_1 _ hostOps3_1_writes h1).trans (StableHlo.after_of_writes_sub hostOps3 _ hostOps3_writes h0)

/-- No region changes an argument array and no host operation writes one. -/
theorem W6_arg0 (c : Dev nD) : W6 m c main_arg0 = m ((c : Thread nD τ).loc main_arg0) :=
  (W6_keeps m c main_arg0 (by decide) (by decide) (by decide)).trans <|
    (W3_off m c main_arg0 (by decide)).trans <| (W2_off m c main_arg0 (by decide)).trans <| (W1_off m c main_arg0 (by decide)).trans rfl
theorem W6_arg1 (c : Dev nD) : W6 m c main_arg1 = m ((c : Thread nD τ).loc main_arg1) :=
  (W6_keeps m c main_arg1 (by decide) (by decide) (by decide)).trans <|
    (W3_off m c main_arg1 (by decide)).trans <| (W2_off m c main_arg1 (by decide)).trans <| (W1_off m c main_arg1 (by decide)).trans rfl

/-- The frame: every weakly fair execution terminates without a fault and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_arg0 m c), (h c _ (mem_uc main_arg1 (by decide))).trans (W6_arg1 m c)⟩) (run_all m ρ)

/-- The run with the result named: the result buffer ends at the last contents, the arguments unchanged. -/
theorem run_result : θ_run defs (onTc (τ := τ) (main (F := F))) ⟨m, fun _ => 0, ρ⟩ (fun r => ∀ c : Dev nD,
      r.2.mem ((c.tc : Thread nD τ).loc main_v7) = W6 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v7 (by decide)), (h c _ (mem_uc main_arg0 (by decide))).trans (W6_arg0 m c),
      (h c _ (mem_uc main_arg1 (by decide))).trans (W6_arg1 m c)⟩) (run_all m ρ)

end Cert.KernelIdeal.Whole

end
-- ==== Proof.KI.Gram0Pay.lean ====
/-
  The Gram kernel's three payloads read at an index, over the extended reals: the zero fill is 0; the accumulation
  step adds to the accumulator the sum over the 1024 rows r of the two blocks of left (r, p) * right (r, q) (the
  change of format is the identity and the transpose reads the left block at (r, p)); the scaling multiplies by
  the f32 word of 2^-13.
-/
import proofs.«135302_j80367428042774_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Gram0

open Cert.KernelIdeal Cert.KernelIdeal.Gen
open Idealize.ShloMosaic Idealize.ShloMosaic.ValueIdx

/-- The zero fill at an index. -/
theorem pay1_apply (p q : Fin 1024) : k0_pay1 (F := Ideal) (ix2 p q) = 0 := by
  unfold k0_pay1
  simp only [shapeCast_self]
  exact Ideal.ofBits_zero_f32

theorem lhs_0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
theorem rhs_0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
theorem rhs_1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of the transposed left block and the right block into the zero accumulator, at (p, q): the sum over the
    rows. -/
theorem matmul_apply_pq (y0 y1 : FVec Ideal S1024x1024 .bf16) (p q : Fin 1024) :
    FloatOps.matmul dot_S1024x1024_S1024x1024_S1024x1024_1_0_0_1_n_n none
        (transpose S1024x1024 [1, 0] y0 transposes_S1024x1024_p1_0_S1024x1024) y1
        (constant S1024x1024 .f32 0x00000000#32) (ix2 p q)
      = ∑ r : Fin 1024, y0 (ix2 r p) * y1 (ix2 r q) := by
  rw [Ideal.matmul_constant_zero_apply,
    ← Equiv.sum_comp (contrEquiv1 dot_S1024x1024_S1024x1024_S1024x1024_1_0_0_1_n_n 1024 rfl rfl).symm]
  refine Finset.sum_congr rfl fun r _ => ?_
  have hr := contrEquiv1_symm_val dot_S1024x1024_S1024x1024_S1024x1024_1_0_0_1_n_n 1024 rfl rfl r
  have el : dot_S1024x1024_S1024x1024_S1024x1024_1_0_0_1_n_n.lhsIdx (ix2 p q)
      ((contrEquiv1 dot_S1024x1024_S1024x1024_S1024x1024_1_0_0_1_n_n 1024 rfl rfl).symm r) = ix2 p r :=
    funext fun a => Fin.ext (by
      match a with
      | ⟨0, _⟩ => exact lhs_0 _ _
      | ⟨1, _⟩ => exact (lhs_1 _ _).trans hr)
  have er : dot_S1024x1024_S1024x1024_S1024x1024_1_0_0_1_n_n.rhsIdx (ix2 p q)
      ((contrEquiv1 dot_S1024x1024_S1024x1024_S1024x1024_1_0_0_1_n_n 1024 rfl rfl).symm r) = ix2 r q :=
    funext fun a => Fin.ext (by
      match a with
      | ⟨0, _⟩ => exact (rhs_0 _ _).trans hr
      | ⟨1, _⟩ => exact rhs_1 _ _)
  rw [el, er]
  congr 1
  exact transpose_apply [1, 0] y0 transposes_S1024x1024_p1_0_S1024x1024 (ix2 p r) (ix2 r p) (fun b => match b with
    | ⟨0, _⟩ => rfl
    | ⟨1, _⟩ => rfl)

/-- The accumulation step at an index. -/
theorem pay2_apply (x0 x1 acc : Vec Ideal S1024x1024 .f32) (p q : Fin 1024) :
    k0_pay2 x0 x1 acc (ix2 p q) = acc (ix2 p q) + ∑ r : Fin 1024, x0 (ix2 r p) * x1 (ix2 r q) := by
  unfold k0_pay2
  simp only [shapeCast_self]
  show acc (ix2 p q) + FloatOps.matmul (F := Ideal) dot_S1024x1024_S1024x1024_S1024x1024_1_0_0_1_n_n none
      (transpose S1024x1024 [1, 0] (truncf (F := Ideal) .bf16 x0 bitsLt_bf16_f32) transposes_S1024x1024_p1_0_S1024x1024)
      (truncf (F := Ideal) .bf16 x1 bitsLt_bf16_f32) (constant (F := Ideal) S1024x1024 .f32 0x00000000#32) (ix2 p q) = _
  rw [matmul_apply_pq]
  rfl

/-- The scaling at an index. -/
theorem pay3_apply (acc : Vec Ideal S1024x1024 .f32) (p q : Fin 1024) :
    k0_pay3 acc (ix2 p q) = acc (ix2 p q) * Ideal.ofBits .f32 0x39000000#32 := by
  unfold k0_pay3
  rfl

end Cert.KernelIdeal.Gram0

end
-- ==== Proof.Spec.lean ====
/-
  The mathematics both programs compute, over the extended reals.

  For an array x of 8192 rows and 2048 columns, gramSum x a b is the (a, b) entry of xᵀx, the sum over the
  8192 rows of x r a * x r b; scale divides by 8192; fid x y is the sum over all (a, b) of the product of the two
  scaled Gram entries; tail is the chain of scalar operations applied to that sum: clip to [0, 1], subtract the
  target, absolute value, weight. The lemmas below join the blocked sums (8 blocks of 1024 rows; 8 blocks of 256
  rows) to the whole sums, the product with 2^-13 to the division by 8192, and a left-to-right accumulation to
  the finite sum.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## The specification -/

/-- The (a, b) entry of xᵀx: the sum over the 8192 rows. -/
def gramSum (x : Fin 8192 → Fin 2048 → EReal) (a b : Fin 2048) : EReal :=
  ∑ r : Fin 8192, x r a * x r b

/-- Division by the f32 constant 8192.0, on the extended reals. -/
def scale (s : EReal) : EReal :=
  Ideal.div s (Ideal.ofBits .f32 0x46000000#32)

/-- The sum over all entries of the product of the two scaled Gram matrices. -/
def fid (x y : Fin 8192 → Fin 2048 → EReal) : EReal :=
  ∑ a : Fin 2048, ∑ b : Fin 2048, scale (gramSum x a b) * scale (gramSum y a b)

/-- The scalar chain after the sum: maximum with 0.0, minimum with 1.0, minus f32(0.95), absolute value,
    times f32(0.1). -/
def tail (s : EReal) : EReal :=
  FloatOps.mulf (F := Ideal) (φ := .f32) (FloatOps.ofBits .f32 0x3DCCCCCD#32)
    (FloatOps.hostAbsf
      (FloatOps.subf
        (FloatOps.minimumf (FloatOps.ofBits .f32 0x3F800000#32)
          (FloatOps.maximumf (FloatOps.ofBits .f32 0x00000000#32) s))
        (FloatOps.ofBits .f32 0x3F733333#32)))

/-! ## The two constants of the scaling -/

/-- 8192.0 denotes the real 8192. -/
theorem ofBits_8192 : Ideal.ofBits .f32 0x46000000#32 = ((8192 : ℝ) : EReal) := by
  simp [Ideal.ofBits, Ideal.ieee, -EReal.coe_mul]; norm_num

/-- The f32 word of 1/8192 denotes the real 1/8192 = 2^-13. -/
theorem ofBits_inv8192 : Ideal.ofBits .f32 0x39000000#32 = ((1 / 8192 : ℝ) : EReal) := by
  simp [Ideal.ofBits, Ideal.ieee, -EReal.coe_mul]; norm_num

/-- The product with 2^-13 is the division by 8192, at every extended real. -/
theorem scale_eq (s : EReal) : s * Ideal.ofBits .f32 0x39000000#32 = scale s := by
  rw [scale, ofBits_8192, ofBits_inv8192, Ideal.div_coe (by norm_num : (8192 : ℝ) ≠ 0)]

/-- Adding to the zero word adds to zero. -/
theorem zero_word_add (s : EReal) : Ideal.ofBits .f32 0x00000000#32 + s = s := by
  rw [Ideal.ofBits_zero_f32, zero_add]

/-! ## Blocked sums -/

/-- A sum over m blocks of n consecutive indices is the sum over all m * n indices; the block's index map is
    any e with e k r = n * k + r. -/
theorem sum_fin_blocks {M : Type*} [AddCommMonoid M] (m n N : ℕ) (hN : m * n = N) (f : Fin N → M)
    (e : Fin m → Fin n → Fin N) (he : ∀ k r, (e k r).val = n * k.val + r.val) :
    ∑ k : Fin m, ∑ r : Fin n, f (e k r) = ∑ i : Fin N, f i := by
  subst hN
  rw [← finProdFinEquiv.sum_comp f, Fintype.sum_prod_type]
  refine Finset.sum_congr rfl fun k _ => Finset.sum_congr rfl fun r _ => ?_
  congr 1
  apply Fin.ext
  rw [he, finProdFinEquiv_apply_val]
  exact Nat.add_comm _ _

/-- 8 blocks of 1024 rows are the 8192 rows. -/
theorem sum_blocks_8_1024 (f : Fin 8192 → EReal) (e : Fin 8 → Fin 1024 → Fin 8192)
    (he : ∀ k r, (e k r).val = 1024 * k.val + r.val) :
    ∑ k : Fin 8, ∑ r : Fin 1024, f (e k r) = ∑ i : Fin 8192, f i :=
  sum_fin_blocks 8 1024 8192 (by norm_num) f e he

/-- 8 blocks of 256 rows are the 2048 rows. -/
theorem sum_blocks_8_256 (f : Fin 2048 → EReal) (e : Fin 8 → Fin 256 → Fin 2048)
    (he : ∀ t p, (e t p).val = 256 * t.val + p.val) :
    ∑ t : Fin 8, ∑ p : Fin 256, f (e t p) = ∑ a : Fin 2048, f a :=
  sum_fin_blocks 8 256 2048 (by norm_num) f e he

/-- The Gram entry from its 8 row blocks, for any spelling e of the row 1024 * k + r. -/
theorem gram_blocked' (x : Fin 8192 → Fin 2048 → EReal) (a b : Fin 2048) (e : Fin 8 → Fin 1024 → Fin 8192)
    (he : ∀ k r, (e k r).val = 1024 * k.val + r.val) :
    ∑ k : Fin 8, ∑ r : Fin 1024, x (e k r) a * x (e k r) b = gramSum x a b :=
  sum_blocks_8_1024 (fun i => x i a * x i b) e he

/-- The Gram entry from its 8 row blocks. -/
theorem gram_blocked (x : Fin 8192 → Fin 2048 → EReal) (a b : Fin 2048) :
    ∑ k : Fin 8, ∑ r : Fin 1024,
      x ⟨1024 * k.val + r.val, by omega⟩ a * x ⟨1024 * k.val + r.val, by omega⟩ b = gramSum x a b :=
  gram_blocked' x a b (fun k r => ⟨1024 * k.val + r.val, by omega⟩) (fun _ _ => rfl)

/-- The sum of an entrywise product from its 8 row blocks, for any spelling e of the row 256 * t + p. -/
theorem fid_blocked' (R S : Fin 2048 → Fin 2048 → EReal) (e : Fin 8 → Fin 256 → Fin 2048)
    (he : ∀ t p, (e t p).val = 256 * t.val + p.val) :
    ∑ t : Fin 8, ∑ p : Fin 256, ∑ q : Fin 2048, R (e t p) q * S (e t p) q
      = ∑ a : Fin 2048, ∑ b : Fin 2048, R a b * S a b :=
  sum_blocks_8_256 (fun a => ∑ q : Fin 2048, R a q * S a q) e he

/-- The sum of an entrywise product from its 8 row blocks. -/
theorem fid_blocked (R S : Fin 2048 → Fin 2048 → EReal) :
    ∑ t : Fin 8, ∑ p : Fin 256, ∑ q : Fin 2048,
      R ⟨256 * t.val + p.val, by omega⟩ q * S ⟨256 * t.val + p.val, by omega⟩ q
      = ∑ a : Fin 2048, ∑ b : Fin 2048, R a b * S a b :=
  fid_blocked' R S (fun t p => ⟨256 * t.val + p.val, by omega⟩) (fun _ _ => rfl)

/-- The blocked sum of the product of two arrays that hold the scaled Gram matrices is fid. -/
theorem fid_of_scaled_grams (x y : Fin 8192 → Fin 2048 → EReal) (R S : Fin 2048 → Fin 2048 → EReal)
    (hR : ∀ a b, R a b = scale (gramSum x a b)) (hS : ∀ a b, S a b = scale (gramSum y a b))
    (e : Fin 8 → Fin 256 → Fin 2048) (he : ∀ t p, (e t p).val = 256 * t.val + p.val) :
    ∑ t : Fin 8, ∑ p : Fin 256, ∑ q : Fin 2048, R (e t p) q * S (e t p) q = fid x y := by
  rw [fid_blocked' R S e he, fid]
  refine Finset.sum_congr rfl fun a _ => Finset.sum_congr rfl fun b _ => ?_
  rw [hR, hS]

/-! ## A left-to-right accumulation is the finite sum -/

/-- An accumulator that starts at the first term and adds the next term at each step holds, after step n,
    the sum of the terms 0 … n. -/
theorem acc_eq_sum_range (N : ℕ) (f acc : ℕ → EReal) (h0 : acc 0 = f 0)
    (hs : ∀ n, n < N → acc (n + 1) = acc n + f (n + 1)) :
    ∀ n, n ≤ N → acc n = ∑ k ∈ Finset.range (n + 1), f k := by
  intro n
  induction n with
  | zero => intro _; rw [h0, Finset.sum_range_one]
  | succ n ih =>
    intro hn
    rw [hs n (by omega), ih (by omega), Finset.sum_range_succ _ (n + 1)]

/-- Eight steps: the accumulator after step 7 is the sum over Fin 8. -/
theorem acc_eq_sum_fin8 (f acc : ℕ → EReal) (h0 : acc 0 = f 0)
    (hs : ∀ n, n < 7 → acc (n + 1) = acc n + f (n + 1)) :
    acc 7 = ∑ k : Fin 8, f k.val := by
  rw [acc_eq_sum_range 7 f acc h0 hs 7 le_rfl, Fin.sum_univ_eq_sum_range]

end Cert.Spec

end
-- ==== Proof.KI.Gram0Acc.lean ====
/-
  The Gram kernel's blocks and accumulator as functions of the argument array, over the extended reals. Grid point
  t = 16 i + 8 j + k reads the left block at rows 1024 k …, columns 1024 i …, and the right block at rows 1024 k …,
  columns 1024 j …, of the same array; after the step k of a reduction the accumulator at (p, q) holds the sum over
  the row blocks 0 … k of the products, and after the last step the whole sum over the 8192 rows.
-/
import proofs.«135302_j80367428042774_1_alg».proof.Proof.KI.Gram0Region
import proofs.«135302_j80367428042774_1_alg».proof.Proof.KI.Gram0Pay
import proofs.«135302_j80367428042774_1_alg».proof.Proof.Spec
import Idealize.ShloMosaic.Lib.Pipeline.Value
import Idealize.ShloMosaic.Lib.ValueIdx

noncomputable section

open scoped BigOperators

namespace Cert.KernelIdeal.Gram0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the three windows at every grid point: (k, i), (k, j), (i, j) for t = 16 i + 8 j + k. -/
theorem idx_facts : ∀ t : Fin cfg0.N,
    win0_0.index t (0 : Fin 2) = t.val % 8 ∧ win0_0.index t (1 : Fin 2) = t.val / 16 % 2
    ∧ win0_1.index t (0 : Fin 2) = t.val % 8 ∧ win0_1.index t (1 : Fin 2) = t.val / 8 % 2
    ∧ win0_2.index t (0 : Fin 2) = t.val / 16 % 2 ∧ win0_2.index t (1 : Fin 2) = t.val / 8 % 2 :=
  (by decide +kernel : ∀ t : Fin grid0.N, _)

/-- The argument array by its two coordinates. -/
abbrev X (c : Dev nD) : Fin 8192 → Fin 2048 → EReal := fun r a => V c main_arg0 (ix2 r a)

/-- Row r of row block k. -/
abbrev rowOf (k : ℕ) (r : Fin 1024) : Fin 8192 := ⟨1024 * (k % 8) + r.val, by omega⟩
/-- Column p of column block i. -/
abbrev colOf (i : ℕ) (p : Fin 1024) : Fin 2048 := ⟨1024 * (i % 2) + p.val, by omega⟩

/-- The left block at point t. -/
theorem blockAt0_apply (c : Dev nD) (t : Fin cfg0.N) (r p : Fin 1024) :
    (blockAt V c 0 t : Vec Ideal S1024x1024 .f32) (ix2 r p) = X V c (rowOf t.val r) (colOf (t.val / 16) p) := by
  obtain ⟨e0, e1, -⟩ := idx_facts t
  unfold blockAt
  rw [View.read_apply]
  show V c main_arg0 _ = V c main_arg0 _
  congr 1
  funext a; apply Fin.ext
  match a with
  | ⟨0, _⟩ => show win0_0.index t (0 : Fin 2) * 1024 + 1 * r.val = 1024 * (t.val % 8) + r.val; rw [e0]; omega
  | ⟨1, _⟩ => show win0_0.index t (1 : Fin 2) * 1024 + 1 * p.val = 1024 * (t.val / 16 % 2) + p.val; rw [e1]; omega

/-- The right block at point t. -/
theorem blockAt1_apply (c : Dev nD) (t : Fin cfg0.N) (r q : Fin 1024) :
    (blockAt V c 1 t : Vec Ideal S1024x1024 .f32) (ix2 r q) = X V c (rowOf t.val r) (colOf (t.val / 8) q) := by
  obtain ⟨-, -, e2, e3, -⟩ := idx_facts t
  unfold blockAt
  rw [View.read_apply]
  show V c main_arg0 _ = V c main_arg0 _
  congr 1
  funext a; apply Fin.ext
  match a with
  | ⟨0, _⟩ => show win0_1.index t (0 : Fin 2) * 1024 + 1 * r.val = 1024 * (t.val % 8) + r.val; rw [e2]; omega
  | ⟨1, _⟩ => show win0_1.index t (1 : Fin 2) * 1024 + 1 * q.val = 1024 * (t.val / 8 % 2) + q.val; rw [e3]; omega

/-- One step's term: the products over the rows of row block k, at columns (i, p) and (j, q). -/
abbrev term (c : Dev nD) (i j : ℕ) (p q : Fin 1024) (k : ℕ) : EReal :=
  ∑ r : Fin 1024, X V c (rowOf k r) (colOf i p) * X V c (rowOf k r) (colOf j q)

/-- The products of the two blocks at point t, summed over the rows. -/
theorem step_eq (c : Dev nD) (t : Fin cfg0.N) (g n : ℕ) (ht : t.val = 8 * g + n) (hn : n < 8) (p q : Fin 1024)
    (x0 x1 : Vec Ideal S1024x1024 .f32) (h0 : x0 = blockAt V c 0 t) (h1 : x1 = blockAt V c 1 t) :
    ∑ r : Fin 1024, x0 (ix2 r p) * x1 (ix2 r q) = term V c (g / 2) g p q n := by
  subst h0 h1
  refine Finset.sum_congr rfl fun r _ => ?_
  rw [blockAt0_apply, blockAt1_apply]
  have e1 : rowOf t.val r = rowOf n r := Fin.ext (by show 1024 * (t.val % 8) + r.val = 1024 * (n % 8) + r.val; omega)
  have e2 : colOf (t.val / 16) p = colOf (g / 2) p := Fin.ext (by show 1024 * (t.val / 16 % 2) + p.val = 1024 * (g / 2 % 2) + p.val; omega)
  have e3 : colOf (t.val / 8) q = colOf g q := Fin.ext (by show 1024 * (t.val / 8 % 2) + q.val = 1024 * (g % 2) + q.val; omega)
  rw [e1, e2, e3]

/-- The accumulator after step n of the reduction g = 2 i + j, at (p, q): the sum of the terms 0 … n. -/
theorem acc_apply (c : Dev nD) (g : ℕ) (hg : g < 4) (p q : Fin 1024) :
    ∀ n, n ≤ 7 → accAfter V c (8 * g + n) (ix2 p q) = ∑ k ∈ Finset.range (n + 1), term V c (g / 2) g p q k := by
  have hN : cfg0.N = 32 := N_0
  refine Cert.Spec.acc_eq_sum_range 7 (term V c (g / 2) g p q) (fun n => accAfter V c (8 * g + n) (ix2 p q)) ?_ ?_
  · -- the first step adds to the zero fill
    have h : (8 * g + 0) < cfg0.N := by omega
    have e : accAfter V c (8 * g + 0) = k0_pay2 (blockAt V c 0 ⟨8 * g + 0, h⟩) (blockAt V c 1 ⟨8 * g + 0, h⟩) (k0_pay1 (F := Ideal)) :=
      accAfter_first V c ⟨8 * g + 0, h⟩ (by show (8 * g + 0) % 8 = 0; omega)
    show accAfter V c (8 * g + 0) (ix2 p q) = _
    rw [e, pay2_apply, pay1_apply, zero_add]
    exact step_eq V c ⟨8 * g + 0, h⟩ g 0 rfl (by omega) p q _ _ rfl rfl
  · intro n hn
    have h : (8 * g + n + 1) < cfg0.N := by omega
    have e : accAfter V c (8 * g + n + 1)
        = k0_pay2 (blockAt V c 0 ⟨8 * g + n + 1, h⟩) (blockAt V c 1 ⟨8 * g + n + 1, h⟩) (accAfter V c (8 * g + n)) :=
      accAfter_next V c ⟨8 * g + n + 1, h⟩ (by show ¬ (8 * g + n + 1) % 8 = 0; omega)
    show accAfter V c (8 * g + n + 1) (ix2 p q) = accAfter V c (8 * g + n) (ix2 p q) + _
    rw [e, pay2_apply]
    congr 1
    exact step_eq V c ⟨8 * g + n + 1, h⟩ g (n + 1) (by show 8 * g + n + 1 = 8 * g + (n + 1); omega) (by omega) p q _ _ rfl rfl

/-- After the last step the accumulator holds the Gram entry. -/
theorem acc_last (c : Dev nD) (g : ℕ) (hg : g < 4) (p q : Fin 1024) :
    accAfter V c (8 * g + 7) (ix2 p q) = Cert.Spec.gramSum (X V c) (colOf (g / 2) p) (colOf g q) := by
  rw [acc_apply V c g hg p q 7 le_rfl, ← Fin.sum_univ_eq_sum_range (term V c (g / 2) g p q) 8]
  exact Cert.Spec.gram_blocked' (X V c) (colOf (g / 2) p) (colOf g q) (fun k r => rowOf k.val r)
    (fun k r => by show 1024 * (k.val % 8) + r.val = 1024 * k.val + r.val; have := k.isLt; omega)

end Cert.KernelIdeal.Gram0

end
-- ==== Proof.KI.Gram0Value.lean ====
/-
  The Gram call's output array, over the extended reals: every entry (a, b) is the scaled Gram entry of the argument
  array. Each flushing point t = 16 i + 8 j + 7 writes back block (i, j) of that one array (the accumulator after the
  last step, times the word of 2^-13), and the four blocks cover the 2048 x 2048 array.
-/
import proofs.«135302_j80367428042774_1_alg».proof.Proof.KI.Gram0Acc

noncomputable section

open scoped BigOperators

namespace Cert.KernelIdeal.Gram0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two coordinates of an index of the output array. -/
abbrev fin0 (idx : S2048x2048.Idx) : Fin 2048 := ⟨(idx 0).val, idx2_lt0 idx⟩
abbrev fin1 (idx : S2048x2048.Idx) : Fin 2048 := ⟨(idx 1).val, idx2_lt1 idx⟩

/-- The scaled Gram matrix of the argument array, as contents of the output array. -/
def G (c : Dev nD) : S2048x2048.Idx → EReal := fun idx =>
  Cert.Spec.scale (Cert.Spec.gramSum (X V c) (fin0 idx) (fin1 idx))

theorem G_apply (c : Dev nD) (a b : Fin 2048) :
    G V c (ix2 a b) = Cert.Spec.scale (Cert.Spec.gramSum (fun r k => V c main_arg0 (ix2 r k)) a b) := rfl

/-- What a flushing point writes back is its block of the scaled Gram matrix. -/
theorem flushed_eq (c : Dev nD) (t : Fin cfg0.N) (hf : (cfg0.win 2).flush t = true) :
    (dat V c).flushed 2 t = ((cfg0.win 2).blk t).view.read (Elt Ideal) (G V c) := by
  have hN : t.val < 32 := lt_of_lt_of_eq t.isLt (show cfg0.N = 32 from N_0)
  have h7 : t.val % 8 = 7 := (flush0_2 t).mp hf
  obtain ⟨-, -, -, -, e4, e5⟩ := idx_facts t
  show (cfg0.win 2).cut (grid0.coords t) ((dat V c).after 2 t) = _
  rw [dat_after2]
  funext y
  obtain ⟨p, q, rfl⟩ : ∃ p q : Fin 1024, y = ix2 p q := ⟨y 0, y 1, eq_ix2 y⟩
  rw [View.read_apply]
  show k0_pay3 (accAfter V c t.val) (ix2 p q)
    = Cert.Spec.scale (Cert.Spec.gramSum (X V c) (fin0 (((cfg0.win 2).blk t).view.emb (ix2 p q)))
        (fin1 (((cfg0.win 2).blk t).view.emb (ix2 p q))))
  have eA : fin0 (((cfg0.win 2).blk t).view.emb (ix2 p q)) = colOf (t.val / 8 / 2) p :=
    Fin.ext (by show win0_2.index t (0 : Fin 2) * 1024 + 1 * p.val = 1024 * (t.val / 8 / 2 % 2) + p.val; rw [e4]; omega)
  have eB : fin1 (((cfg0.win 2).blk t).view.emb (ix2 p q)) = colOf (t.val / 8) q :=
    Fin.ext (by show win0_2.index t (1 : Fin 2) * 1024 + 1 * q.val = 1024 * (t.val / 8 % 2) + q.val; rw [e5]; omega)
  have ht : 8 * (t.val / 8) + 7 = t.val := by omega
  have hacc := acc_last V c (t.val / 8) (by omega) p q
  rw [ht] at hacc
  rw [eA, eB, pay3_apply, Cert.Spec.scale_eq, hacc]

/-- Every index of the output array is in the block of a flushing point. -/
theorem cover (c : Dev nD) (i : S2048x2048.Idx) :
    ∃ t : Fin cfg0.N, (cfg0.win 2).flush t = true ∧ i ∈ ((cfg0.win 2).blk t).view.set := by
  have h0 : (i 0).val < 2048 := idx2_lt0 i
  have h1 : (i 1).val < 2048 := idx2_lt1 i
  have hN : cfg0.N = 32 := N_0
  have hlt : 16 * ((i 0).val / 1024) + 8 * ((i 1).val / 1024) + 7 < cfg0.N := by omega
  refine ⟨⟨16 * ((i 0).val / 1024) + 8 * ((i 1).val / 1024) + 7, hlt⟩, (flush0_2 _).mpr ?_, ?_⟩
  · show (16 * ((i 0).val / 1024) + 8 * ((i 1).val / 1024) + 7) % 8 = 7; omega
  · obtain ⟨-, -, -, -, e4, e5⟩ := idx_facts ⟨16 * ((i 0).val / 1024) + 8 * ((i 1).val / 1024) + 7, hlt⟩
    show i ∈ ((View.whole main_v0).slice (win0_2.rect ⟨16 * ((i 0).val / 1024) + 8 * ((i 1).val / 1024) + 7, hlt⟩)).set
    rw [View.set_slice_whole, Rect.mem_set_unit]
    intro a
    match a with
    | ⟨0, _⟩ =>
      show win0_2.index ⟨16 * ((i 0).val / 1024) + 8 * ((i 1).val / 1024) + 7, hlt⟩ (0 : Fin 2) * 1024 ≤ (i 0).val
        ∧ (i 0).val < win0_2.index ⟨16 * ((i 0).val / 1024) + 8 * ((i 1).val / 1024) + 7, hlt⟩ (0 : Fin 2) * 1024 + 1024
      rw [e4]
      show (16 * ((i 0).val / 1024) + 8 * ((i 1).val / 1024) + 7) / 16 % 2 * 1024 ≤ (i 0).val
        ∧ (i 0).val < (16 * ((i 0).val / 1024) + 8 * ((i 1).val / 1024) + 7) / 16 % 2 * 1024 + 1024
      omega
    | ⟨1, _⟩ =>
      show win0_2.index ⟨16 * ((i 0).val / 1024) + 8 * ((i 1).val / 1024) + 7, hlt⟩ (1 : Fin 2) * 1024 ≤ (i 1).val
        ∧ (i 1).val < win0_2.index ⟨16 * ((i 0).val / 1024) + 8 * ((i 1).val / 1024) + 7, hlt⟩ (1 : Fin 2) * 1024 + 1024
      rw [e5]
      show (16 * ((i 0).val / 1024) + 8 * ((i 1).val / 1024) + 7) / 8 % 2 * 1024 ≤ (i 1).val
        ∧ (i 1).val < (16 * ((i 0).val / 1024) + 8 * ((i 1).val / 1024) + 7) / 8 % 2 * 1024 + 1024
      omega

/-- The output array after the region is the scaled Gram matrix of the argument array. -/
theorem out_array (c : Dev nD) : (dat V c).arrAt 2 cfg0.N = G V c :=
  (dat V c).arrAt_eq_of_cover 2 (G V c) (flushed_eq V c) (cover c)

/-- Entry (a, b) of the output array after the region. -/
theorem out_value (c : Dev nD) (a b : Fin 2048) :
    (dat V c).arrAt 2 cfg0.N (ix2 a b)
      = Cert.Spec.scale (Cert.Spec.gramSum (fun r k => V c main_arg0 (ix2 r k)) a b) := by
  rw [out_array]
  rfl

end Cert.KernelIdeal.Gram0

end
-- ==== Proof.KI.Gram1Pay.lean ====
/-
  The Gram kernel's three payloads read at an index, over the extended reals: the zero fill is 0; the accumulation
  step adds to the accumulator the sum over the 1024 rows r of the two blocks of left (r, p) * right (r, q) (the
  change of format is the identity and the transpose reads the left block at (r, p)); the scaling multiplies by
  the f32 word of 2^-13.
-/
import proofs.«135302_j80367428042774_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Gram1

open Cert.KernelIdeal Cert.KernelIdeal.Gen
open Idealize.ShloMosaic Idealize.ShloMosaic.ValueIdx

/-- The zero fill at an index. -/
theorem pay1_apply (p q : Fin 1024) : k1_pay1 (F := Ideal) (ix2 p q) = 0 := by
  unfold k1_pay1
  simp only [shapeCast_self]
  exact Ideal.ofBits_zero_f32

theorem lhs_0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
theorem rhs_0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
theorem rhs_1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of the transposed left block and the right block into the zero accumulator, at (p, q): the sum over the
    rows. -/
theorem matmul_apply_pq (y0 y1 : FVec Ideal S1024x1024 .bf16) (p q : Fin 1024) :
    FloatOps.matmul dot_S1024x1024_S1024x1024_S1024x1024_1_0_0_1_n_n none
        (transpose S1024x1024 [1, 0] y0 transposes_S1024x1024_p1_0_S1024x1024) y1
        (constant S1024x1024 .f32 0x00000000#32) (ix2 p q)
      = ∑ r : Fin 1024, y0 (ix2 r p) * y1 (ix2 r q) := by
  rw [Ideal.matmul_constant_zero_apply,
    ← Equiv.sum_comp (contrEquiv1 dot_S1024x1024_S1024x1024_S1024x1024_1_0_0_1_n_n 1024 rfl rfl).symm]
  refine Finset.sum_congr rfl fun r _ => ?_
  have hr := contrEquiv1_symm_val dot_S1024x1024_S1024x1024_S1024x1024_1_0_0_1_n_n 1024 rfl rfl r
  have el : dot_S1024x1024_S1024x1024_S1024x1024_1_0_0_1_n_n.lhsIdx (ix2 p q)
      ((contrEquiv1 dot_S1024x1024_S1024x1024_S1024x1024_1_0_0_1_n_n 1024 rfl rfl).symm r) = ix2 p r :=
    funext fun a => Fin.ext (by
      match a with
      | ⟨0, _⟩ => exact lhs_0 _ _
      | ⟨1, _⟩ => exact (lhs_1 _ _).trans hr)
  have er : dot_S1024x1024_S1024x1024_S1024x1024_1_0_0_1_n_n.rhsIdx (ix2 p q)
      ((contrEquiv1 dot_S1024x1024_S1024x1024_S1024x1024_1_0_0_1_n_n 1024 rfl rfl).symm r) = ix2 r q :=
    funext fun a => Fin.ext (by
      match a with
      | ⟨0, _⟩ => exact (rhs_0 _ _).trans hr
      | ⟨1, _⟩ => exact rhs_1 _ _)
  rw [el, er]
  congr 1
  exact transpose_apply [1, 0] y0 transposes_S1024x1024_p1_0_S1024x1024 (ix2 p r) (ix2 r p) (fun b => match b with
    | ⟨0, _⟩ => rfl
    | ⟨1, _⟩ => rfl)

/-- The accumulation step at an index. -/
theorem pay2_apply (x0 x1 acc : Vec Ideal S1024x1024 .f32) (p q : Fin 1024) :
    k1_pay2 x0 x1 acc (ix2 p q) = acc (ix2 p q) + ∑ r : Fin 1024, x0 (ix2 r p) * x1 (ix2 r q) := by
  unfold k1_pay2
  simp only [shapeCast_self]
  show acc (ix2 p q) + FloatOps.matmul (F := Ideal) dot_S1024x1024_S1024x1024_S1024x1024_1_0_0_1_n_n none
      (transpose S1024x1024 [1, 0] (truncf (F := Ideal) .bf16 x0 bitsLt_bf16_f32) transposes_S1024x1024_p1_0_S1024x1024)
      (truncf (F := Ideal) .bf16 x1 bitsLt_bf16_f32) (constant (F := Ideal) S1024x1024 .f32 0x00000000#32) (ix2 p q) = _
  rw [matmul_apply_pq]
  rfl

/-- The scaling at an index. -/
theorem pay3_apply (acc : Vec Ideal S1024x1024 .f32) (p q : Fin 1024) :
    k1_pay3 acc (ix2 p q) = acc (ix2 p q) * Ideal.ofBits .f32 0x39000000#32 := by
  unfold k1_pay3
  rfl

end Cert.KernelIdeal.Gram1

end
-- ==== Proof.KI.Gram1Acc.lean ====
/-
  The Gram kernel's blocks and accumulator as functions of the argument array, over the extended reals. Grid point
  t = 16 i + 8 j + k reads the left block at rows 1024 k …, columns 1024 i …, and the right block at rows 1024 k …,
  columns 1024 j …, of the same array; after the step k of a reduction the accumulator at (p, q) holds the sum over
  the row blocks 0 … k of the products, and after the last step the whole sum over the 8192 rows.
-/
import proofs.«135302_j80367428042774_1_alg».proof.Proof.KI.Gram1Region
import proofs.«135302_j80367428042774_1_alg».proof.Proof.KI.Gram1Pay
import proofs.«135302_j80367428042774_1_alg».proof.Proof.Spec
import Idealize.ShloMosaic.Lib.Pipeline.Value
import Idealize.ShloMosaic.Lib.ValueIdx

noncomputable section

open scoped BigOperators

namespace Cert.KernelIdeal.Gram1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the three windows at every grid point: (k, i), (k, j), (i, j) for t = 16 i + 8 j + k. -/
theorem idx_facts : ∀ t : Fin cfg1.N,
    win1_0.index t (0 : Fin 2) = t.val % 8 ∧ win1_0.index t (1 : Fin 2) = t.val / 16 % 2
    ∧ win1_1.index t (0 : Fin 2) = t.val % 8 ∧ win1_1.index t (1 : Fin 2) = t.val / 8 % 2
    ∧ win1_2.index t (0 : Fin 2) = t.val / 16 % 2 ∧ win1_2.index t (1 : Fin 2) = t.val / 8 % 2 :=
  (by decide +kernel : ∀ t : Fin grid1.N, _)

/-- The argument array by its two coordinates. -/
abbrev X (c : Dev nD) : Fin 8192 → Fin 2048 → EReal := fun r a => V c main_arg1 (ix2 r a)

/-- Row r of row block k. -/
abbrev rowOf (k : ℕ) (r : Fin 1024) : Fin 8192 := ⟨1024 * (k % 8) + r.val, by omega⟩
/-- Column p of column block i. -/
abbrev colOf (i : ℕ) (p : Fin 1024) : Fin 2048 := ⟨1024 * (i % 2) + p.val, by omega⟩

/-- The left block at point t. -/
theorem blockAt0_apply (c : Dev nD) (t : Fin cfg1.N) (r p : Fin 1024) :
    (blockAt V c 0 t : Vec Ideal S1024x1024 .f32) (ix2 r p) = X V c (rowOf t.val r) (colOf (t.val / 16) p) := by
  obtain ⟨e0, e1, -⟩ := idx_facts t
  unfold blockAt
  rw [View.read_apply]
  show V c main_arg1 _ = V c main_arg1 _
  congr 1
  funext a; apply Fin.ext
  match a with
  | ⟨0, _⟩ => show win1_0.index t (0 : Fin 2) * 1024 + 1 * r.val = 1024 * (t.val % 8) + r.val; rw [e0]; omega
  | ⟨1, _⟩ => show win1_0.index t (1 : Fin 2) * 1024 + 1 * p.val = 1024 * (t.val / 16 % 2) + p.val; rw [e1]; omega

/-- The right block at point t. -/
theorem blockAt1_apply (c : Dev nD) (t : Fin cfg1.N) (r q : Fin 1024) :
    (blockAt V c 1 t : Vec Ideal S1024x1024 .f32) (ix2 r q) = X V c (rowOf t.val r) (colOf (t.val / 8) q) := by
  obtain ⟨-, -, e2, e3, -⟩ := idx_facts t
  unfold blockAt
  rw [View.read_apply]
  show V c main_arg1 _ = V c main_arg1 _
  congr 1
  funext a; apply Fin.ext
  match a with
  | ⟨0, _⟩ => show win1_1.index t (0 : Fin 2) * 1024 + 1 * r.val = 1024 * (t.val % 8) + r.val; rw [e2]; omega
  | ⟨1, _⟩ => show win1_1.index t (1 : Fin 2) * 1024 + 1 * q.val = 1024 * (t.val / 8 % 2) + q.val; rw [e3]; omega

/-- One step's term: the products over the rows of row block k, at columns (i, p) and (j, q). -/
abbrev term (c : Dev nD) (i j : ℕ) (p q : Fin 1024) (k : ℕ) : EReal :=
  ∑ r : Fin 1024, X V c (rowOf k r) (colOf i p) * X V c (rowOf k r) (colOf j q)

/-- The products of the two blocks at point t, summed over the rows. -/
theorem step_eq (c : Dev nD) (t : Fin cfg1.N) (g n : ℕ) (ht : t.val = 8 * g + n) (hn : n < 8) (p q : Fin 1024)
    (x0 x1 : Vec Ideal S1024x1024 .f32) (h0 : x0 = blockAt V c 0 t) (h1 : x1 = blockAt V c 1 t) :
    ∑ r : Fin 1024, x0 (ix2 r p) * x1 (ix2 r q) = term V c (g / 2) g p q n := by
  subst h0 h1
  refine Finset.sum_congr rfl fun r _ => ?_
  rw [blockAt0_apply, blockAt1_apply]
  have e1 : rowOf t.val r = rowOf n r := Fin.ext (by show 1024 * (t.val % 8) + r.val = 1024 * (n % 8) + r.val; omega)
  have e2 : colOf (t.val / 16) p = colOf (g / 2) p := Fin.ext (by show 1024 * (t.val / 16 % 2) + p.val = 1024 * (g / 2 % 2) + p.val; omega)
  have e3 : colOf (t.val / 8) q = colOf g q := Fin.ext (by show 1024 * (t.val / 8 % 2) + q.val = 1024 * (g % 2) + q.val; omega)
  rw [e1, e2, e3]

/-- The accumulator after step n of the reduction g = 2 i + j, at (p, q): the sum of the terms 0 … n. -/
theorem acc_apply (c : Dev nD) (g : ℕ) (hg : g < 4) (p q : Fin 1024) :
    ∀ n, n ≤ 7 → accAfter V c (8 * g + n) (ix2 p q) = ∑ k ∈ Finset.range (n + 1), term V c (g / 2) g p q k := by
  have hN : cfg1.N = 32 := N_1
  refine Cert.Spec.acc_eq_sum_range 7 (term V c (g / 2) g p q) (fun n => accAfter V c (8 * g + n) (ix2 p q)) ?_ ?_
  · -- the first step adds to the zero fill
    have h : (8 * g + 0) < cfg1.N := by omega
    have e : accAfter V c (8 * g + 0) = k1_pay2 (blockAt V c 0 ⟨8 * g + 0, h⟩) (blockAt V c 1 ⟨8 * g + 0, h⟩) (k1_pay1 (F := Ideal)) :=
      accAfter_first V c ⟨8 * g + 0, h⟩ (by show (8 * g + 0) % 8 = 0; omega)
    show accAfter V c (8 * g + 0) (ix2 p q) = _
    rw [e, pay2_apply, pay1_apply, zero_add]
    exact step_eq V c ⟨8 * g + 0, h⟩ g 0 rfl (by omega) p q _ _ rfl rfl
  · intro n hn
    have h : (8 * g + n + 1) < cfg1.N := by omega
    have e : accAfter V c (8 * g + n + 1)
        = k1_pay2 (blockAt V c 0 ⟨8 * g + n + 1, h⟩) (blockAt V c 1 ⟨8 * g + n + 1, h⟩) (accAfter V c (8 * g + n)) :=
      accAfter_next V c ⟨8 * g + n + 1, h⟩ (by show ¬ (8 * g + n + 1) % 8 = 0; omega)
    show accAfter V c (8 * g + n + 1) (ix2 p q) = accAfter V c (8 * g + n) (ix2 p q) + _
    rw [e, pay2_apply]
    congr 1
    exact step_eq V c ⟨8 * g + n + 1, h⟩ g (n + 1) (by show 8 * g + n + 1 = 8 * g + (n + 1); omega) (by omega) p q _ _ rfl rfl

/-- After the last step the accumulator holds the Gram entry. -/
theorem acc_last (c : Dev nD) (g : ℕ) (hg : g < 4) (p q : Fin 1024) :
    accAfter V c (8 * g + 7) (ix2 p q) = Cert.Spec.gramSum (X V c) (colOf (g / 2) p) (colOf g q) := by
  rw [acc_apply V c g hg p q 7 le_rfl, ← Fin.sum_univ_eq_sum_range (term V c (g / 2) g p q) 8]
  exact Cert.Spec.gram_blocked' (X V c) (colOf (g / 2) p) (colOf g q) (fun k r => rowOf k.val r)
    (fun k r => by show 1024 * (k.val % 8) + r.val = 1024 * k.val + r.val; have := k.isLt; omega)

end Cert.KernelIdeal.Gram1

end
-- ==== Proof.KI.Gram1Value.lean ====
/-
  The Gram call's output array, over the extended reals: every entry (a, b) is the scaled Gram entry of the argument
  array. Each flushing point t = 16 i + 8 j + 7 writes back block (i, j) of that one array (the accumulator after the
  last step, times the word of 2^-13), and the four blocks cover the 2048 x 2048 array.
-/
import proofs.«135302_j80367428042774_1_alg».proof.Proof.KI.Gram1Acc

noncomputable section

open scoped BigOperators

namespace Cert.KernelIdeal.Gram1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two coordinates of an index of the output array. -/
abbrev fin0 (idx : S2048x2048.Idx) : Fin 2048 := ⟨(idx 0).val, idx2_lt0 idx⟩
abbrev fin1 (idx : S2048x2048.Idx) : Fin 2048 := ⟨(idx 1).val, idx2_lt1 idx⟩

/-- The scaled Gram matrix of the argument array, as contents of the output array. -/
def G (c : Dev nD) : S2048x2048.Idx → EReal := fun idx =>
  Cert.Spec.scale (Cert.Spec.gramSum (X V c) (fin0 idx) (fin1 idx))

theorem G_apply (c : Dev nD) (a b : Fin 2048) :
    G V c (ix2 a b) = Cert.Spec.scale (Cert.Spec.gramSum (fun r k => V c main_arg1 (ix2 r k)) a b) := rfl

/-- What a flushing point writes back is its block of the scaled Gram matrix. -/
theorem flushed_eq (c : Dev nD) (t : Fin cfg1.N) (hf : (cfg1.win 2).flush t = true) :
    (dat V c).flushed 2 t = ((cfg1.win 2).blk t).view.read (Elt Ideal) (G V c) := by
  have hN : t.val < 32 := lt_of_lt_of_eq t.isLt (show cfg1.N = 32 from N_1)
  have h7 : t.val % 8 = 7 := (flush1_2 t).mp hf
  obtain ⟨-, -, -, -, e4, e5⟩ := idx_facts t
  show (cfg1.win 2).cut (grid1.coords t) ((dat V c).after 2 t) = _
  rw [dat_after2]
  funext y
  obtain ⟨p, q, rfl⟩ : ∃ p q : Fin 1024, y = ix2 p q := ⟨y 0, y 1, eq_ix2 y⟩
  rw [View.read_apply]
  show k1_pay3 (accAfter V c t.val) (ix2 p q)
    = Cert.Spec.scale (Cert.Spec.gramSum (X V c) (fin0 (((cfg1.win 2).blk t).view.emb (ix2 p q)))
        (fin1 (((cfg1.win 2).blk t).view.emb (ix2 p q))))
  have eA : fin0 (((cfg1.win 2).blk t).view.emb (ix2 p q)) = colOf (t.val / 8 / 2) p :=
    Fin.ext (by show win1_2.index t (0 : Fin 2) * 1024 + 1 * p.val = 1024 * (t.val / 8 / 2 % 2) + p.val; rw [e4]; omega)
  have eB : fin1 (((cfg1.win 2).blk t).view.emb (ix2 p q)) = colOf (t.val / 8) q :=
    Fin.ext (by show win1_2.index t (1 : Fin 2) * 1024 + 1 * q.val = 1024 * (t.val / 8 % 2) + q.val; rw [e5]; omega)
  have ht : 8 * (t.val / 8) + 7 = t.val := by omega
  have hacc := acc_last V c (t.val / 8) (by omega) p q
  rw [ht] at hacc
  rw [eA, eB, pay3_apply, Cert.Spec.scale_eq, hacc]

/-- Every index of the output array is in the block of a flushing point. -/
theorem cover (c : Dev nD) (i : S2048x2048.Idx) :
    ∃ t : Fin cfg1.N, (cfg1.win 2).flush t = true ∧ i ∈ ((cfg1.win 2).blk t).view.set := by
  have h0 : (i 0).val < 2048 := idx2_lt0 i
  have h1 : (i 1).val < 2048 := idx2_lt1 i
  have hN : cfg1.N = 32 := N_1
  have hlt : 16 * ((i 0).val / 1024) + 8 * ((i 1).val / 1024) + 7 < cfg1.N := by omega
  refine ⟨⟨16 * ((i 0).val / 1024) + 8 * ((i 1).val / 1024) + 7, hlt⟩, (flush1_2 _).mpr ?_, ?_⟩
  · show (16 * ((i 0).val / 1024) + 8 * ((i 1).val / 1024) + 7) % 8 = 7; omega
  · obtain ⟨-, -, -, -, e4, e5⟩ := idx_facts ⟨16 * ((i 0).val / 1024) + 8 * ((i 1).val / 1024) + 7, hlt⟩
    show i ∈ ((View.whole main_v1).slice (win1_2.rect ⟨16 * ((i 0).val / 1024) + 8 * ((i 1).val / 1024) + 7, hlt⟩)).set
    rw [View.set_slice_whole, Rect.mem_set_unit]
    intro a
    match a with
    | ⟨0, _⟩ =>
      show win1_2.index ⟨16 * ((i 0).val / 1024) + 8 * ((i 1).val / 1024) + 7, hlt⟩ (0 : Fin 2) * 1024 ≤ (i 0).val
        ∧ (i 0).val < win1_2.index ⟨16 * ((i 0).val / 1024) + 8 * ((i 1).val / 1024) + 7, hlt⟩ (0 : Fin 2) * 1024 + 1024
      rw [e4]
      show (16 * ((i 0).val / 1024) + 8 * ((i 1).val / 1024) + 7) / 16 % 2 * 1024 ≤ (i 0).val
        ∧ (i 0).val < (16 * ((i 0).val / 1024) + 8 * ((i 1).val / 1024) + 7) / 16 % 2 * 1024 + 1024
      omega
    | ⟨1, _⟩ =>
      show win1_2.index ⟨16 * ((i 0).val / 1024) + 8 * ((i 1).val / 1024) + 7, hlt⟩ (1 : Fin 2) * 1024 ≤ (i 1).val
        ∧ (i 1).val < win1_2.index ⟨16 * ((i 0).val / 1024) + 8 * ((i 1).val / 1024) + 7, hlt⟩ (1 : Fin 2) * 1024 + 1024
      rw [e5]
      show (16 * ((i 0).val / 1024) + 8 * ((i 1).val / 1024) + 7) / 8 % 2 * 1024 ≤ (i 1).val
        ∧ (i 1).val < (16 * ((i 0).val / 1024) + 8 * ((i 1).val / 1024) + 7) / 8 % 2 * 1024 + 1024
      omega

/-- The output array after the region is the scaled Gram matrix of the argument array. -/
theorem out_array (c : Dev nD) : (dat V c).arrAt 2 cfg1.N = G V c :=
  (dat V c).arrAt_eq_of_cover 2 (G V c) (flushed_eq V c) (cover c)

/-- Entry (a, b) of the output array after the region. -/
theorem out_value (c : Dev nD) (a b : Fin 2048) :
    (dat V c).arrAt 2 cfg1.N (ix2 a b)
      = Cert.Spec.scale (Cert.Spec.gramSum (fun r k => V c main_arg1 (ix2 r k)) a b) := by
  rw [out_array]
  rfl

end Cert.KernelIdeal.Gram1

end
-- ==== Proof.KI.ReducePay.lean ====
/-
  The reduce kernel's two payloads read at an index, over the extended reals: the zero fill is 0; the accumulation
  step adds to the 1 x 1 accumulator the sum over the 256 x 2048 block of the products of the two blocks' entries
  (the reduction over both block axes into one element is the sum over every index of the block).
-/
import proofs.«135302_j80367428042774_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Red

open Cert.KernelIdeal Cert.KernelIdeal.Gen
open Idealize.ShloMosaic Idealize.ShloMosaic.ValueIdx

/-- The zero fill at an index. -/
theorem pay1_apply (j : S1x1.Idx) : (k2_pay1 (F := Ideal)) j = 0 := by
  unfold k2_pay1
  show Ideal.ofBits .f32 0x00000000#32 = 0
  exact Ideal.ofBits_zero_f32

/-- The reduced shape has one element. -/
theorem S1_unit : ∀ b, S1.size b = 1 := by decide

/-- The reduction over both block axes, at its one index, is the sum over every index of its operand. -/
theorem red_total (src : FVec Ideal S1x256x2048 .f32) (j : S1.Idx) (hφ : FKind.Formats .f32)
    (hacc : (0x00000000#32 : BitVec 32) = FKind.add.neutral .f32 hφ) :
    multiReduction (F := Ideal) .add [1, 2] S1 src 0x00000000#32 reduces_S1x256x2048_S1 hφ hacc j
      = ∑ i : S1x256x2048.Idx, src i :=
  Ideal.multiReduction_add_total src 0x00000000#32 reduces_S1x256x2048_S1 S1_unit hφ hacc j

/-- The block with a leading unit axis has the block's entries. -/
theorem sum_cast (f : S256x2048.Idx → EReal) :
    ∑ i : S1x256x2048.Idx, shapeCast S1x256x2048 f shapeCasts_S256x2048_S1x256x2048 i = ∑ i : S256x2048.Idx, f i :=
  Equiv.sum_comp (Shape.reshapeEquiv shapeCasts_S256x2048_S1x256x2048) f

/-- The sum of the entrywise product over the block, by coordinates. -/
theorem sum_block (x y : Vec Ideal S256x2048 .f32) :
    ∑ i : S256x2048.Idx, mulf (F := Ideal) (φ := .f32) x y i = ∑ p : Fin 256, ∑ q : Fin 2048, x (ix2 p q) * y (ix2 p q) :=
  sum_idx2 (mulf (F := Ideal) (φ := .f32) x y)

/-- Adding a broadcast scalar to the 1 x 1 accumulator. -/
theorem add_broadcast (acc : Vec Ideal S1x1 .f32) (v : EReal) (j : S1x1.Idx) :
    addf (F := Ideal) (φ := .f32) acc (broadcast S1x1 v) j = acc j + v := rfl

/-- The one element of a one-element vector, read through the rank-3 view of it. -/
theorem extract_cast (v : FVec Ideal S1 .f32) :
    extractAt ![0, 0, 0] (shapeCast S1x1x1 v shapeCasts_S1_S1x1x1) inpos_S1x1x1_p0_0_0
      = v (Shape.reshapeEquiv shapeCasts_S1_S1x1x1 fun a => ⟨(![0, 0, 0] : Fin 3 → Nat) a, inpos_S1x1x1_p0_0_0 a⟩) := rfl

/-- The accumulation step at an index, with the reduction's two side conditions as variables. -/
theorem core (x y : Vec Ideal S256x2048 .f32) (acc : Vec Ideal S1x1 .f32) (j : S1x1.Idx) (hφ : FKind.Formats .f32)
    (hacc : (0x00000000#32 : BitVec 32) = FKind.add.neutral .f32 hφ) :
    addf (F := Ideal) (φ := .f32) acc (broadcast S1x1
        (extractAt ![0, 0, 0]
          (shapeCast S1x1x1
            (multiReduction (F := Ideal) .add [1, 2] S1
              (shapeCast S1x256x2048 (mulf (F := Ideal) (φ := .f32) x y) shapeCasts_S256x2048_S1x256x2048)
              0x00000000#32 reduces_S1x256x2048_S1 hφ hacc)
            shapeCasts_S1_S1x1x1)
          inpos_S1x1x1_p0_0_0)) j
      = acc j + ∑ p : Fin 256, ∑ q : Fin 2048, x (ix2 p q) * y (ix2 p q) :=
  (add_broadcast acc _ j).trans (congrArg (acc j + ·)
    ((extract_cast _).trans ((red_total _ _ hφ hacc).trans ((sum_cast (mulf (F := Ideal) (φ := .f32) x y)).trans (sum_block x y)))))

/-- The accumulation step at an index. -/
theorem pay2_apply (x y : Vec Ideal S256x2048 .f32) (acc : Vec Ideal S1x1 .f32) (j : S1x1.Idx) :
    k2_pay2 x y acc j = acc j + ∑ p : Fin 256, ∑ q : Fin 2048, x (ix2 p q) * y (ix2 p q) := by
  unfold k2_pay2
  simp only [shapeCast_self]
  exact core x y acc j _ _

end Cert.KernelIdeal.Red

end
-- ==== Proof.KI.ReduceValue.lean ====
/- The reduction kernel's region read at the extended reals: what each of its two cases leaves in the 1x1
   accumulator is the body's payload; over the extended reals the accumulator after point n is the sum, over the
   row blocks 0 … n of 256 rows, of the products of the two 2048 x 2048 input arrays' elements; so after the
   region the output array holds the sum of the products over all the indices, row block by row block, and the
   two inputs are as the region found them. -/
import proofs.«135302_j80367428042774_1_alg».proof.Proof.KI.ReduceRegion
import proofs.«135302_j80367428042774_1_alg».proof.Proof.KI.ReducePay
import Idealize.ShloMosaic.Lib.Pipeline.Value
import Idealize.ShloMosaic.Lib.ValueIdx
import Idealize.ShloMosaic.PureOps.Ideal.Laws

set_option maxRecDepth 16384

noncomputable section

namespace Cert.KernelIdeal.Red

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! ## The two cases' contents as the payloads -/

theorem zeros2 : (![0, 0] : Fin 2 → Nat) = fun _ => 0 := funext fun a => by fin_cases a <;> rfl

/-- A later point leaves the payload of its one store, read at the whole buffers. -/
theorem accLater_eq (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : ¬isFirst i) (x : Vec F S256x2048 .f32) (y : Vec F S256x2048 .f32) (acc : Vec F S1x1 .f32) :
    accLater c i a1 h1 a2 h2 a3 h3 hc x y acc = k2_pay2 x y acc := by
  unfold accLater
  rw [View.read_writes_eq_canon _ _ _ (cover_later c i a1 h1 a2 h2 a3 h3 hc x y acc)]
  unfold laterRun
  dsimp only
  rw [View.canon_unit_zero (S := S1x1) zeros2]
  simp only [View.readAt_eq_ld, h1.read_unread, h2.read_unread, h3.read_unread, View.ld_unit_zero (S := S256x2048) zeros2,
    View.ld_unit_zero (S := S1x1) zeros2]

/-- The first point leaves the same payload over the zero it has just stored and read back. -/
theorem accFirst_eq (c : Dev nD) (i : grid2.Coords) (a1 : Memref sig .tc .vmem S256x2048 .f32) (h1 : a1.IsWhole)
    (a2 : Memref sig .tc .vmem S256x2048 .f32) (h2 : a2.IsWhole) (a3 : Memref sig .tc .vmem S1x1 .f32) (h3 : a3.IsWhole)
    (hc : isFirst i) (x : Vec F S256x2048 .f32) (y : Vec F S256x2048 .f32) :
    accFirst c i a1 h1 a2 h2 a3 h3 hc x y = k2_pay2 x y (k2_pay1 (F := F)) := by
  unfold accFirst
  rw [View.read_writes_eq_canon _ _ _ (cover_first c i a1 h1 a2 h2 a3 h3 hc x y)]
  unfold firstRun
  dsimp only
  sl_unfold_words
  rw [View.canon_cons_unit_zero (S := S1x1) zeros2, View.readCov_unit_zero (S := S1x1) _ zeros2]
  simp only [View.readAt_eq_ld, h1.read_unread, h2.read_unread, View.ld_unit_zero (S := S256x2048) zeros2]

/-! ## The blocks, read off the arrays -/

/-- The two inputs' block index at point `t` is (t, 0). -/
theorem rho_index : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem sigma_index : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

variable (V : (c : Dev nD) → (b : Ref sig .tc) → Buf (Elt Ideal) ((c : Thread nD τ).loc b))

/-- The two input arrays as the region finds them, as functions of their two coordinates' index. -/
abbrev rhoArr (c : Dev nD) : S2048x2048.Idx → EReal := V c main_v0
abbrev sigmaArr (c : Dev nD) : S2048x2048.Idx → EReal := V c main_v1

/-- Their blocks staged at point `t`. -/
abbrev rhoBlk (c : Dev nD) (t : Fin cfg2.N) : Vec Ideal S256x2048 .f32 := iblk2 V c 0 t
abbrev sigmaBlk (c : Dev nD) (t : Fin cfg2.N) : Vec Ideal S256x2048 .f32 := iblk2 V c 1 t

/-- Element (p, q) of the first input's block at point `t` is element (256 t + p, q) of its array. -/
theorem rho_blk (c : Dev nD) (t : Fin cfg2.N) (p : Fin 256) (q : Fin 2048) (r : Fin 2048) (hr : r.val = 256 * t.val + p.val) :
    rhoBlk V c t (ix2 p q) = rhoArr V c (ix2 r q) := by
  unfold rhoBlk rhoArr iblk2
  rw [View.read_apply]
  show V c main_v0 _ = V c main_v0 _
  congr 1
  funext a
  apply Fin.ext
  match a with
  | ⟨0, _⟩ => show win2_0.index t 0 * 256 + 1 * p.val = r.val; rw [(rho_index t).1, hr]; omega
  | ⟨1, _⟩ => show win2_0.index t 1 * 2048 + 1 * q.val = q.val; rw [(rho_index t).2]; omega

/-- The same for the second input. -/
theorem sigma_blk (c : Dev nD) (t : Fin cfg2.N) (p : Fin 256) (q : Fin 2048) (r : Fin 2048) (hr : r.val = 256 * t.val + p.val) :
    sigmaBlk V c t (ix2 p q) = sigmaArr V c (ix2 r q) := by
  unfold sigmaBlk sigmaArr iblk2
  rw [View.read_apply]
  show V c main_v1 _ = V c main_v1 _
  congr 1
  funext a
  apply Fin.ext
  match a with
  | ⟨0, _⟩ => show win2_1.index t 0 * 256 + 1 * p.val = r.val; rw [(sigma_index t).1, hr]; omega
  | ⟨1, _⟩ => show win2_1.index t 1 * 2048 + 1 * q.val = q.val; rw [(sigma_index t).2]; omega

/-! ## The accumulation is the sum over the row blocks -/

/-- Row `p` of row block `t`: row 256 t + p of the 2048. -/
abbrev rowOf (t : Fin 8) (p : Fin 256) : Fin 2048 := ⟨256 * t.val + p.val, by omega⟩

/-- The sum of the products over row block `t`. -/
def blockSum (c : Dev nD) (t : Fin 8) : EReal :=
  ∑ p : Fin 256, ∑ q : Fin 2048,
    rhoArr V c (ix2 (rowOf t p) q) * sigmaArr V c (ix2 (rowOf t p) q)

/-- The sum of the products over the two blocks staged at point `t` is the sum over row block `t` of the arrays. -/
theorem block_eq (c : Dev nD) (t : Fin cfg2.N) (t' : Fin 8) (ht : t'.val = t.val) :
    (∑ p : Fin 256, ∑ q : Fin 2048,
      rhoBlk V c t (ix2 p q) * sigmaBlk V c t (ix2 p q)) = blockSum V c t' :=
  Finset.sum_congr rfl fun p _ => Finset.sum_congr rfl fun q _ => by
    rw [rho_blk V c t p q (rowOf t' p) (by show 256 * t'.val + p.val = _; rw [ht]),
      sigma_blk V c t p q (rowOf t' p) (by show 256 * t'.val + p.val = _; rw [ht])]

/-- After point `n` the accumulator holds the sum over the row blocks 0 … n: by induction on the point. -/
theorem accAfter_eq (c : Dev nD) : ∀ (n : ℕ) (hn : n < cfg2.N) (j : S1x1.Idx),
    accAfter V c n hn j
      = ∑ t : Fin (n + 1), blockSum V c ⟨t.val, lt_of_lt_of_le t.isLt (Nat.succ_le_of_lt (lt_of_lt_of_eq hn (show cfg2.N = 8 from N_2)))⟩
  | 0, hn, j => by
    refine (congrFun (accAfter_first V c ⟨0, hn⟩ rfl) j).trans ?_
    refine (congrFun (accFirst_eq (F := Ideal) c (grid2.coords ⟨0, hn⟩) (mRho ⟨0, hn⟩) (hRho ⟨0, hn⟩) (mSigma ⟨0, hn⟩) (hSigma ⟨0, hn⟩)
      (mAcc ⟨0, hn⟩) (hAcc ⟨0, hn⟩) ((isFirst_iff ⟨0, hn⟩).mpr rfl) (iblk2 V c 0 ⟨0, hn⟩) (iblk2 V c 1 ⟨0, hn⟩)) j).trans ?_
    refine (pay2_apply (rhoBlk V c ⟨0, hn⟩) (sigmaBlk V c ⟨0, hn⟩) (k2_pay1 (F := Ideal)) j).trans ?_
    rw [pay1_apply, zero_add, block_eq V c ⟨0, hn⟩ 0 rfl]
    symm
    exact Fin.sum_univ_one _
  | n + 1, hn, j => by
    refine (congrFun (accAfter_later V c ⟨n + 1, hn⟩ (Nat.succ_ne_zero n)) j).trans ?_
    refine (congrFun (accLater_eq (F := Ideal) c (grid2.coords ⟨n + 1, hn⟩) (mRho ⟨n + 1, hn⟩) (hRho ⟨n + 1, hn⟩) (mSigma ⟨n + 1, hn⟩) (hSigma ⟨n + 1, hn⟩)
      (mAcc ⟨n + 1, hn⟩) (hAcc ⟨n + 1, hn⟩) (fun h => Nat.succ_ne_zero n ((isFirst_iff ⟨n + 1, hn⟩).mp h)) (iblk2 V c 0 ⟨n + 1, hn⟩) (iblk2 V c 1 ⟨n + 1, hn⟩)
      (accAfter V c n (Nat.lt_of_succ_lt hn))) j).trans ?_
    refine (pay2_apply (rhoBlk V c ⟨n + 1, hn⟩) (sigmaBlk V c ⟨n + 1, hn⟩) (accAfter V c n (Nat.lt_of_succ_lt hn)) j).trans ?_
    rw [accAfter_eq c n (Nat.lt_of_succ_lt hn) j,
      block_eq V c ⟨n + 1, hn⟩ ⟨n + 1, lt_of_lt_of_eq hn (show cfg2.N = 8 from N_2)⟩ rfl]
    symm
    refine (Fin.sum_univ_castSucc _).trans ?_
    rfl

/-- The whole sum: over the eight row blocks. -/
def total (c : Dev nD) : EReal := ∑ t : Fin 8, blockSum V c t

/-! ## The output array after the region -/

/-- The one write-back, at the last point, writes the whole sum. -/
theorem flushed_eq (c : Dev nD) (t : Fin cfg2.N) (hf : (cfg2.win 2).flush t = true) :
    (dat2 V c).flushed 2 t = ((cfg2.win 2).blk t).view.read (Elt Ideal) (fun _ => total V c) := by
  have h7 : t.val = 7 := by
    have := (flush2_2 t).mp hf; have := lt_of_lt_of_eq t.isLt (show cfg2.N = 8 from N_2); omega
  obtain rfl : t = t2_7 := Fin.ext h7
  show (cfg2.win 2).cut (grid2.coords t2_7) ((dat2 V c).after 2 t2_7) = _
  rw [after2_2]
  funext j
  rw [View.read_apply]
  exact accAfter_eq V c 7 _ _

/-- After the region the 1x1 output array holds the sum, over all 2048 x 2048 indices taken row block by row
    block, of the products of the two input arrays' elements. -/
theorem out2_value (c : Dev nD) :
    (dat2 (F := Ideal) V c).arrAt 2 cfg2.N = fun _ => (∑ t : Fin 8, ∑ p : Fin 256, ∑ q : Fin 2048,
      rhoArr V c (ix2 (rowOf t p) q) * sigmaArr V c (ix2 (rowOf t p) q) : EReal) :=
  (dat2 V c).arrAt_eq_of_cover 2 (fun _ => total V c) (flushed_eq V c) fun i =>
    ⟨t2_7, (flush2_2 t2_7).mpr rfl, by
      show i ∈ ((View.whole main_v2).slice (win2_2.rect t2_7)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index t2_7 0 * win2_2.size 0 ≤ (i 0 : Nat) ∧ (i 0 : Nat) < win2_2.index t2_7 0 * win2_2.size 0 + win2_2.xsize (grid2.coords t2_7) 0
        rw [show win2_2.index t2_7 0 * win2_2.size 0 = 0 from by decide +kernel, show win2_2.xsize (grid2.coords t2_7) 0 = 1 from by decide +kernel]; omega
      | ⟨1, _⟩ =>
        show win2_2.index t2_7 1 * win2_2.size 1 ≤ (i 1 : Nat) ∧ (i 1 : Nat) < win2_2.index t2_7 1 * win2_2.size 1 + win2_2.xsize (grid2.coords t2_7) 1
        rw [show win2_2.index t2_7 1 * win2_2.size 1 = 0 from by decide +kernel, show win2_2.xsize (grid2.coords t2_7) 1 = 1 from by decide +kernel]; omega⟩

/-- The two input arrays are as the region found them, at every point. -/
theorem rho_kept (c : Dev nD) (n : ℕ) : (dat2 V c).arrAt 0 n = V c main_v0 :=
  ((dat2 V c).arrAt_in 0 rfl n).trans (A_eq2 V c 0)
theorem sigma_kept (c : Dev nD) (n : ℕ) : (dat2 V c).arrAt 1 n = V c main_v1 :=
  ((dat2 V c).arrAt_in 1 rfl n).trans (A_eq2 V c 1)

end Cert.KernelIdeal.Red

end
-- ==== Proof.KI.Tail.lean ====
/-
  The host operations after the three kernels, as one function: the 1 x 1 result of the reduction is read as a
  scalar, clipped to [0, 1], the target subtracted, the absolute value taken and weighted — the scalar chain of the
  specification applied to the 1 x 1 array's one entry.
-/
import proofs.«135302_j80367428042774_1_alg».proof.Proof.Gen.KernelIdeal.Launch
import proofs.«135302_j80367428042774_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Tail

open Cert.KernelIdeal Cert.KernelIdeal.Gen
open Idealize.ShloMosaic Idealize.ShloMosaic.TcCoe Idealize.SL.Sem

/-- The 1 x 1 array read as a scalar is its one entry. -/
theorem reshape_value (x : S1x1.Idx → EReal) (i : S_.Idx) :
    shapeCast S_ x shapeCasts_S1x1_S_ i = x (ValueIdx.ix2 0 0) := by
  refine shapeCast_apply x shapeCasts_S1x1_S_ i (ValueIdx.ix2 0 0) ?_
  have h1 : (S1x1.rowMajor (ValueIdx.ix2 0 0)).val < 1 :=
    lt_of_lt_of_eq (S1x1.rowMajor (ValueIdx.ix2 0 0)).isLt (by decide)
  have h2 : (S_.rowMajor i).val < 1 := lt_of_lt_of_eq (S_.rowMajor i).isLt (by decide)
  omega

/-- The result after the three stretches of host operations is the scalar chain of the reduction's one entry. -/
theorem tail_value (W : Valuation τ sig (Elt Ideal)) :
    StableHlo.after (hostOps3_2 (F := Ideal)) (StableHlo.after (hostOps3_1 (F := Ideal)) (StableHlo.after (hostOps3 (F := Ideal)) W)) (Proc.devRef .tc main_v7)
      = fun _ => Cert.Spec.tail (W (Proc.devRef .tc main_v2) (ValueIdx.ix2 0 0)) := by
  after_results
  funext i
  show Cert.Spec.tail (shapeCast S_ (W (Proc.devRef .tc main_v2)) shapeCasts_S1x1_S_ i) = _
  rw [reshape_value]

end Cert.KernelIdeal.Tail

end
-- ==== Proof.KI.Value.lean ====
/-
  The kernel program's result over the extended reals. The first two regions leave the scaled Gram matrices of the two arguments
  in their output arrays; the third leaves the sum, over eight blocks of 256 rows, of the entrywise product of the two; regrouped,
  that is the sum over all entries, and the host operations after it are the scalar chain of the specification. So the result
  buffer ends at the specification's loss of the two argument arrays.
-/
import proofs.«135302_j80367428042774_1_alg».proof.Proof.KI.Run
import proofs.«135302_j80367428042774_1_alg».proof.Proof.KI.Gram0Value
import proofs.«135302_j80367428042774_1_alg».proof.Proof.KI.Gram1Value
import proofs.«135302_j80367428042774_1_alg».proof.Proof.KI.ReduceValue
import proofs.«135302_j80367428042774_1_alg».proof.Proof.KI.Tail
import proofs.«135302_j80367428042774_1_alg».proof.Proof.Spec

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The first Gram matrix as the product-sum region finds it: entry (a, b) is the scaled Gram entry of the first argument. -/
theorem rho_entry (c : Dev nD) (a b : Fin 2048) :
    V2 m c main_v0 (ix2 a b)
      = Cert.Spec.scale (Cert.Spec.gramSum (fun r k => m ((c.tc : Thread nD τ).loc main_arg0) (ix2 r k)) a b) := by
  rw [W2_off m c main_v0 (by decide), W1_out]
  exact Gram0.out_value (V0 m) c a b

/-- The second Gram matrix likewise, of the second argument (which the first region left untouched). -/
theorem sigma_entry (c : Dev nD) (a b : Fin 2048) :
    V2 m c main_v1 (ix2 a b)
      = Cert.Spec.scale (Cert.Spec.gramSum (fun r k => m ((c.tc : Thread nD τ).loc main_arg1) (ix2 r k)) a b) := by
  rw [W2_out, Gram1.out_value (V1 m) c a b]
  have e : (fun (r : Fin 8192) (k : Fin 2048) => V1 m c main_arg1 (ix2 r k))
      = fun r k => m ((c.tc : Thread nD τ).loc main_arg1) (ix2 r k) := by
    funext r k; rw [W1_off m c main_arg1 (by decide)]
  rw [e]

/-- The result buffer: the scalar chain applied to the third region's sum, which is the specification's sum of products of the
    scaled Gram entries. -/
theorem result_value (c : Dev nD) :
    W6 m c main_v7 = fun _ => Cert.Spec.tail (Cert.Spec.fid
      (fun r a => m ((c.tc : Thread nD τ).loc main_arg0) (ix2 r a)) (fun r a => m ((c.tc : Thread nD τ).loc main_arg1) (ix2 r a))) := by
  refine (Tail.tail_value (W3 m c)).trans ?_
  refine congrArg (fun (s : EReal) => fun (_ : S_.Idx) => Cert.Spec.tail s) ?_
  have h3 : W3 m c (Proc.devRef .tc main_v2) = (Red.dat2 (V2 m) c).arrAt 2 cfg2.N := W3_out m c
  rw [h3, Red.out2_value (V2 m) c]
  exact Cert.Spec.fid_of_scaled_grams _ _ (fun a b => Red.rhoArr (V2 m) c (ix2 a b)) (fun a b => Red.sigmaArr (V2 m) c (ix2 a b))
    (rho_entry m c) (sigma_entry m c) Red.rowOf (fun _ _ => rfl)

end Cert.KernelIdeal.Whole

end
-- ==== Proof.RefValue.lean ====
/-
  The reference's result, at the extended reals, is the specification: transposing and contracting over the 8192
  rows gives each Gram entry, dividing by 8192.0 scales it, the sum over all entries of the product of the two
  scaled matrices (started from the zero word) is fid, and the scalar chain after it is tail.
-/
import proofs.«135302_j80367428042774_1_alg».proof.Proof.Gen.ReferenceIdeal.Read
import proofs.«135302_j80367428042774_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The left operand of the first contraction, read through the transpose, is the argument at (k, a). -/
theorem lidx_v1 (a b : Fin 2048) (k : Fin 8192) :
    idx_main_v0 (lidx_main_v1 (ix2 a b) k) = ix2 k a := by
  funext d; match d with | ⟨0, _⟩ => rfl | ⟨1, _⟩ => rfl

/-- The right operand of the first contraction is the argument at (k, b). -/
theorem ridx_v1 (a b : Fin 2048) (k : Fin 8192) : ridx_main_v1 (ix2 a b) k = ix2 k b := by
  funext d; match d with | ⟨0, _⟩ => rfl | ⟨1, _⟩ => rfl

/-- The left operand of the second contraction, read through the transpose, is the argument at (k, a). -/
theorem lidx_v5 (a b : Fin 2048) (k : Fin 8192) :
    idx_main_v4 (lidx_main_v5 (ix2 a b) k) = ix2 k a := by
  funext d; match d with | ⟨0, _⟩ => rfl | ⟨1, _⟩ => rfl

/-- The right operand of the second contraction is the argument at (k, b). -/
theorem ridx_v5 (a b : Fin 2048) (k : Fin 8192) : ridx_main_v5 (ix2 a b) k = ix2 k b := by
  funext d; match d with | ⟨0, _⟩ => rfl | ⟨1, _⟩ => rfl

/-- The first scaled Gram entry. -/
theorem v3_entry (x : (⟨S8192x2048, .f32⟩ : BufTy).Contents (Elt Ideal)) (a b : Fin 2048) :
    val_main_v3 (F := Ideal) x (ix2 a b) = Cert.Spec.scale (Cert.Spec.gramSum (fun r c => x (ix2 r c)) a b) := by
  rw [val_main_v3_apply, val_main_v1_apply, val_main_v2_apply, val_main_cst_apply]
  simp only [val_main_v0_apply, lidx_v1, ridx_v1]
  rfl

/-- The second scaled Gram entry. -/
theorem v7_entry (y : (⟨S8192x2048, .f32⟩ : BufTy).Contents (Elt Ideal)) (a b : Fin 2048) :
    val_main_v7 (F := Ideal) y (ix2 a b) = Cert.Spec.scale (Cert.Spec.gramSum (fun r c => y (ix2 r c)) a b) := by
  rw [val_main_v7_apply, val_main_v5_apply, val_main_v6_apply, val_main_cst_0_apply]
  simp only [val_main_v4_apply, lidx_v5, ridx_v5]
  rfl

/-- The reduced sum is fid. -/
theorem v9_value (x y : (⟨S8192x2048, .f32⟩ : BufTy).Contents (Elt Ideal)) (i : S_.Idx) :
    val_main_v9 (F := Ideal) x y i
      = Cert.Spec.fid (fun r c => x (ix2 r c)) (fun r c => y (ix2 r c)) := by
  rw [val_main_v9_apply, val_main_cst_1_apply, Ideal.ofBits_def, Cert.Spec.zero_word_add, sum_idx2]
  unfold Cert.Spec.fid
  refine Finset.sum_congr rfl fun a _ => Finset.sum_congr rfl fun b _ => ?_
  rw [val_main_v8_apply, v3_entry, v7_entry]
  rfl

/-- The reference's result at its one index is the specification of the two arguments. -/
theorem ref_value (x y : (⟨S8192x2048, .f32⟩ : BufTy).Contents (Elt Ideal)) (i : S_.Idx) :
    val_main_v13 (F := Ideal) x y i
      = Cert.Spec.tail (Cert.Spec.fid (fun r c => x (ix2 r c)) (fun r c => y (ix2 r c))) := by
  rw [val_main_v13_apply, val_main_cst_5_apply, val_main_v12_apply, val_main_v11_apply, val_main_cst_4_apply,
    val_main_v10_apply, val_main_call0_v2_apply, val_main_cst_3_apply, val_main_call0_v1_apply,
    val_main_call0_v0_apply, val_main_cst_2_apply, v9_value]
  rfl

/-- The reference's result array is the constant function at the specification. -/
theorem result_eq (x y : (⟨S8192x2048, .f32⟩ : BufTy).Contents (Elt Ideal)) :
    val_main_v13 (F := Ideal) x y
      = fun _ => Cert.Spec.tail (Cert.Spec.fid (fun r c => x (ix2 r c)) (fun r c => y (ix2 r c))) :=
  funext fun i => ref_value x y i

end Cert.ReferenceIdeal.RefValue

end
-- ==== Proof.RefRun.lean ====
/-
  The reference's run, stated with the specification: from any memory it terminates with its result the
  specification of its two arguments, and the arguments unchanged.
-/
import proofs.«135302_j80367428042774_1_alg».proof.Defs
import proofs.«135302_j80367428042774_1_alg».proof.Proof.Gen.Pre_finite_inputs
import proofs.«135302_j80367428042774_1_alg».proof.Proof.RefValue

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Every weakly fair execution of the reference terminates with its result the specification of the two argument
    arrays, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v13)
        = (fun _ => Cert.Spec.tail (Cert.Spec.fid
            (fun r a => m' ((c.tc : Thread nD τ).loc main_arg0) (ix2 r a))
            (fun r a => m' ((c.tc : Thread nD τ).loc main_arg1) (ix2 r a))))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono
    (fun _ h c => ⟨(h c).1.trans ((val_main_v13_eq _ _).trans (result_eq _ _)), (h c).2⟩)
    (Cert.ReferenceIdeal.Value.run (F := Ideal) m' ρ')

end Cert.ReferenceIdeal.RefValue

namespace Cert.Proof.RefClaims

open Idealize.ShloMosaic Idealize.SL.Sem

/-- The reference runs to the end and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/-
  The certificate of the fidelity-loss kernel against its reference.

  Both programs compute, from two arrays x, y of 8192 rows and 2048 columns,
      loss = w · | clamp₀¹( Σ_{a,b} ρ(a,b) · σ(a,b) ) − f |,   ρ = xᵀx / 8192,   σ = yᵀy / 8192,
  with the same literal words for w, f and the clamp's bounds. The kernel forms each Gram matrix block by block — a 1024 × 1024
  output block accumulates eight block products over the row axis and is scaled by 2⁻¹³ when the last one is in — and then sums
  the entrywise product over eight row blocks; the reference forms whole matrix products, divides by 8192 and sums once. Over the
  extended reals the two agree: multiplying by 2⁻¹³ is dividing by 8192 for every extended real, and the rest is a regrouping of
  finite sums, which needs only that addition is commutative and associative. No finiteness of the inputs is used.

  The frames: every weakly fair execution of each program terminates without a fault and leaves its arguments as launched. For the
  kernel program — three pipelined regions followed by host operations — this is the run over its six segments; each Gram region
  carries its accumulator between grid points in its invariant and reads its one input array through two windows, each holding half
  of it. The printed program is its own idealization (the ledger is empty), so `preserves` is trivial.
-/
import proofs.«135302_j80367428042774_1_alg».proof.Defs
import proofs.«135302_j80367428042774_1_alg».proof.Proof.Gen.Kernel
import proofs.«135302_j80367428042774_1_alg».proof.Proof.Gen.KernelIdeal
import proofs.«135302_j80367428042774_1_alg».proof.Proof.Gen.ReferenceIdeal
import proofs.«135302_j80367428042774_1_alg».proof.Proof.Gen.Pre_finite_inputs
import proofs.«135302_j80367428042774_1_alg».proof.Proof.K.Run
import proofs.«135302_j80367428042774_1_alg».proof.Proof.KI.Run
import proofs.«135302_j80367428042774_1_alg».proof.Proof.KI.Value
import proofs.«135302_j80367428042774_1_alg».proof.Proof.RefRun
import Idealize.ShloMosaic.Adequacy
import Idealize.ShloMosaic.Init

noncomputable section

namespace Cert.Proof

open Idealize.ShloMosaic Idealize.ShloMosaic.TcCoe Idealize.SL.Sem

/-- The printed kernel program runs and leaves its arguments unchanged. -/
theorem frame_kernel : Cert.frame_Kernel := fun m ρ _ => Cert.Kernel.Whole.frame (F := Bits) m ρ

/-- So does its idealization. -/
theorem frame_kernelIdeal : Cert.frame_KernelIdeal := fun m ρ _ => Cert.KernelIdeal.Whole.frame (F := Ideal) m ρ

/-- The ideal pass rewrote nothing. -/
theorem preserves : Cert.preserves_Kernel_KernelIdeal := trivial

/-- At the extended reals both programs end with the loss of the specification, the kernel's by its run over the six segments and
    the value its last buffer holds, the reference's by its run; from arguments that agree. -/
theorem algebraic : Cert.algebraic_KernelIdeal_ReferenceIdeal := by
  intro m ρ m' ρ' _ hagree
  refine ⟨fun c => fun _ => Cert.Spec.tail (Cert.Spec.fid
      (fun r a => m ((c.tc : Thread Cert.KernelIdeal.nD Cert.KernelIdeal.τ).loc Cert.KernelIdeal.main_arg0) (ValueIdx.ix2 r a))
      (fun r a => m ((c.tc : Thread Cert.KernelIdeal.nD Cert.KernelIdeal.τ).loc Cert.KernelIdeal.main_arg1) (ValueIdx.ix2 r a))), ?_, ?_⟩
  · refine (θ_run Cert.KernelIdeal.defs _ _).mono (fun r h c => ⟨(h c).1.trans ?_, (h c).2⟩) (Cert.KernelIdeal.Whole.run_result (F := Ideal) m ρ)
    exact Cert.KernelIdeal.Whole.result_value m c
  · refine (θ_run Cert.ReferenceIdeal.defs _ _).mono (fun _ h c => ⟨(h c).1.trans ?_, (h c).2⟩) (Cert.ReferenceIdeal.RefValue.ref_run m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefClaims.frame_ri, preserves, algebraic⟩

end Cert.Proof

end
